-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)) →
    ∃ (v0 : (c : Dev Cert.KernelIdeal.nD) → Buf (Elt Ideal) ((c.tc : Thread Cert.KernelIdeal.nD Cert.KernelIdeal.τ).loc Cert.KernelIdeal.main_v131)) (v1 : (c : Dev Cert.KernelIdeal.nD) → Buf (Elt Ideal) ((c.tc : Thread Cert.KernelIdeal.nD Cert.KernelIdeal.τ).loc Cert.KernelIdeal.main_v141)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v131) = v0 c
          ∧ r.2.mem ((c.tc : Thread Cert.KernelIdeal.nD Cert.KernelIdeal.τ).loc Cert.KernelIdeal.main_v141) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v161) = v0 c
          ∧ r.2.mem ((c.tc : Thread Cert.ReferenceIdeal.nD Cert.ReferenceIdeal.τ).loc Cert.ReferenceIdeal.main_v171) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S800000 : Shape := ⟨1, ![800000]⟩
abbrev S50000 : Shape := ⟨1, ![50000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x10 : Shape := ⟨2, ![64, 10]⟩
abbrev S10 : Shape := ⟨1, ![10]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x10 : S_.BroadcastsInDim S64x10 (![] : Fin 0 → Fin S64x10.rank)
  reducesTo_S64x10_S_d0_1 : S64x10.ReducesTo [0, 1] S_
  bcast_S_S10 : S_.BroadcastsInDim S10 (![] : Fin 0 → Fin S10.rank)
  reducesTo_S10_S_d0 : S10.ReducesTo [0] S_

variable [Facts]

def fn_part4 {F : FTy → Type} [FloatOps F] (main_arg17 : FVec F S64 .f32) (main_arg18 : FVec F S64x10 .f32) (main_arg19 : FVec F S10 .f32) (main_v63 : IVec S_ 1) (main_v67 : IVec S_ 1) : IVec S_ 1 :=
  let main_v68 : IVec S_ 1 := andi main_v63 main_v67
  let main_v69 : FVec F S64 .f32 := Host.absf main_arg17
  let main_cst_26 : FVec F S_ .f32 := constant S_ .f32 0x7F800000#32
  let main_v70 : FVec F S64 .f32 := broadcastInDim S64 ![] bcast_S_S64 main_cst_26
  let main_v71 : IVec S64 1 := cmpf .olt main_v69 main_v70
  let main_c_27 : IVec S_ 1 := constantI S_ 1 1#1
  let main_v72 : IVec S_ 1 := (fun x v => Host.reduce IntOp.andi x v reducesTo_S64_S_d0 h_S_) main_v71 main_c_27
  let main_v73 : IVec S_ 1 := andi main_v68 main_v72
  let main_v74 : FVec F S64x10 .f32 := Host.absf main_arg18
  let main_cst_28 : FVec F S_ .f32 := constant S_ .f32 0x7F800000#32
  let main_v75 : FVec F S64x10 .f32 := broadcastInDim S64x10 ![] bcast_S_S64x10 main_cst_28
  let main_v76 : IVec S64x10 1 := cmpf .olt main_v74 main_v75
  let main_c_29 : IVec S_ 1 := constantI S_ 1 1#1
  let main_v77 : IVec S_ 1 := (fun x v => Host.reduce IntOp.andi x v reducesTo_S64x10_S_d0_1 h_S_) main_v76 main_c_29
  let main_v78 : IVec S_ 1 := andi main_v73 main_v77
  let main_v79 : FVec F S10 .f32 := Host.absf main_arg19
  let main_cst_30 : FVec F S_ .f32 := constant S_ .f32 0x7F800000#32
  let main_v80 : FVec F S10 .f32 := broadcastInDim S10 ![] bcast_S_S10 main_cst_30
  let main_v81 : IVec S10 1 := cmpf .olt main_v79 main_v80
  let main_c_31 : IVec S_ 1 := constantI S_ 1 1#1
  let main_v82 : IVec S_ 1 := (fun x v => Host.reduce IntOp.andi x v reducesTo_S10_S_d0 h_S_) main_v81 main_c_31
  let main_v83 : IVec S_ 1 := andi main_v78 main_v82
  main_v83

def fn_part3 {F : FTy → Type} [FloatOps F] (main_arg14 : FVec F S128x128 .f32) (main_arg15 : FVec F S128 .f32) (main_arg16 : FVec F S128x64 .f32) (main_arg17 : FVec F S64 .f32) (main_arg18 : FVec F S64x10 .f32) (main_arg19 : FVec F S10 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128x128 .f32 := Host.absf main_arg14
  let main_cst_20 : FVec F S_ .f32 := constant S_ .f32 0x7F800000#32
  let main_v55 : FVec F S128x128 .f32 := broadcastInDim S128x128 ![] bcast_S_S128x128 main_cst_20
  let main_v56 : IVec S128x128 1 := cmpf .olt main_v54 main_v55
  let main_c_21 : IVec S_ 1 := constantI S_ 1 1#1
  let main_v57 : IVec S_ 1 := (fun x v => Host.reduce IntOp.andi x v reducesTo_S128x128_S_d0_1 h_S_) main_v56 main_c_21
  let main_v58 : IVec S_ 1 := andi main_v53 main_v57
  let main_v59 : FVec F S128 .f32 := Host.absf main_arg15
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128x64 .f32 := Host.absf main_arg16
  let main_cst_24 : FVec F S_ .f32 := constant S_ .f32 0x7F800000#32
  let main_v65 : FVec F S128x64 .f32 := broadcastInDim S128x64 ![] bcast_S_S128x64 main_cst_24
  let main_v66 : IVec S128x64 1 := cmpf .olt main_v64 main_v65
  let main_c_25 : IVec S_ 1 := constantI S_ 1 1#1
  let main_v67 : IVec S_ 1 := (fun x v => Host.reduce IntOp.andi x v reducesTo_S128x64_S_d0_1 h_S_) main_v66 main_c_25
  fn_part4 (F := F) main_arg17 main_arg18 main_arg19 main_v63 main_v67

def fn_part2 {F : FTy → Type} [FloatOps F] (main_arg10 : FVec F S128x128 .f32) (main_arg11 : FVec F S128 .f32) (main_arg12 : FVec F S128x128 .f32) (main_arg13 : FVec F S128 .f32) (main_arg14 : FVec F S128x128 .f32) (main_arg15 : FVec F S128 .f32) (main_arg16 : FVec F S128x64 .f32) (main_arg17 : FVec F S64 .f32) (main_arg18 : FVec F S64x10 .f32) (main_arg19 : FVec F S10 .f32) (main_v33 : IVec S_ 1) : IVec S_ 1 :=
  let main_v34 : FVec F S128x128 .f32 := Host.absf main_arg10
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg11
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x128 .f32 := Host.absf main_arg12
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg13
  let main_cst_18 : FVec F S_ .f32 := constant S_ .f32 0x7F800000#32
  let main_v50 : FVec F S128 .f32 := broadcastInDim S128 ![] bcast_S_S128 main_cst_18
  fn_part3 (F := F) main_arg14 main_arg15 main_arg16 main_arg17 main_arg18 main_arg19 main_v48 main_v49 main_v50

def fn_part1 {F : FTy → Type} [FloatOps F] (main_arg7 : FVec F S128 .f32) (main_arg8 : FVec F S128x128 .f32) (main_arg9 : FVec F S128 .f32) (main_arg10 : FVec F S128x128 .f32) (main_arg11 : FVec F S128 .f32) (main_arg12 : FVec F S128x128 .f32) (main_arg13 : FVec F S128 .f32) (main_arg14 : FVec F S128x128 .f32) (main_arg15 : FVec F S128 .f32) (main_arg16 : FVec F S128x64 .f32) (main_arg17 : FVec F S64 .f32) (main_arg18 : FVec F S64x10 .f32) (main_arg19 : FVec F S10 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg7
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg8
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg9
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg10 main_arg11 main_arg12 main_arg13 main_arg14 main_arg15 main_arg16 main_arg17 main_arg18 main_arg19 main_v33

def fn {F : FTy → Type} [FloatOps F] (main_arg0 : FVec F S50000x128 .f32) (main_arg1 : IVec S800000 32) (main_arg2 : IVec S800000 32) (main_arg3 : IVec S50000 32) (main_arg4 : FVec F S128x128 .f32) (main_arg5 : FVec F S128 .f32) (main_arg6 : FVec F S128x128 .f32) (main_arg7 : FVec F S128 .f32) (main_arg8 : FVec F S128x128 .f32) (main_arg9 : FVec F S128 .f32) (main_arg10 : FVec F S128x128 .f32) (main_arg11 : FVec F S128 .f32) (main_arg12 : FVec F S128x128 .f32) (main_arg13 : FVec F S128 .f32) (main_arg14 : FVec F S128x128 .f32) (main_arg15 : FVec F S128 .f32) (main_arg16 : FVec F S128x64 .f32) (main_arg17 : FVec F S64 .f32) (main_arg18 : FVec F S64x10 .f32) (main_arg19 : FVec F S10 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg4
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg5
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg6
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg7 main_arg8 main_arg9 main_arg10 main_arg11 main_arg12 main_arg13 main_arg14 main_arg15 main_arg16 main_arg17 main_arg18 main_arg19 main_v13 main_v16
-- ==== Kernel.lean ====
abbrev S50000x128 : Shape := ⟨2, ![50000, 128]⟩
abbrev S800000 : Shape := ⟨1, ![800000]⟩
abbrev S50000 : Shape := ⟨1, ![50000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x10 : Shape := ⟨2, ![64, 10]⟩
abbrev S10 : Shape := ⟨1, ![10]⟩
abbrev S_ : Shape := ⟨0, ![]⟩
abbrev S800000x1 : Shape := ⟨2, ![800000, 1]⟩
abbrev S50000x1 : Shape := ⟨2, ![50000, 1]⟩
abbrev S800000x128 : Shape := ⟨2, ![800000, 128]⟩
abbrev S1x128 : Shape := ⟨2, ![1, 128]⟩
abbrev S5000x128 : Shape := ⟨2, ![5000, 128]⟩
abbrev S5000x1 : Shape := ⟨2, ![5000, 1]⟩
abbrev S64x128 : Shape := ⟨2, ![64, 128]⟩
abbrev S64x1 : Shape := ⟨2, ![64, 1]⟩
abbrev S64x64 : Shape := ⟨2, ![64, 64]⟩
abbrev S1x64 : Shape := ⟨2, ![1, 64]⟩
abbrev S1x10 : Shape := ⟨2, ![1, 10]⟩

abbrev nBuf : Space → Nat
  | .hbm => 196
  | .vmem => 48
  | .smem => 0
  | _ => 0

abbrev hbmTy0_0 (i : Nat) : BufTy := match i % 128 with
  | 0 => ⟨S50000x128, .f32⟩
  | 1 => ⟨S800000, .i32⟩
  | 2 => ⟨S800000, .i32⟩
  | 3 => ⟨S50000, .i32⟩
  | 4 => ⟨S128x128, .f32⟩
  | 5 => ⟨S128, .f32⟩
  | 6 => ⟨S128x128, .f32⟩
  | 7 => ⟨S128, .f32⟩
  | 8 => ⟨S128x128, .f32⟩
  | 9 => ⟨S128, .f32⟩
  | 10 => ⟨S128x128, .f32⟩
  | 11 => ⟨S128, .f32⟩
  | 12 => ⟨S128x128, .f32⟩
  | 13 => ⟨S128, .f32⟩
  | 14 => ⟨S128x128, .f32⟩
  | 15 => ⟨S128, .f32⟩
  | 16 => ⟨S128x64, .f32⟩
  | 17 => ⟨S64, .f32⟩
  | 18 => ⟨S64x10, .f32⟩
  | 19 => ⟨S10, .f32⟩
  | 20 => ⟨S_, .f32⟩
  | 21 => ⟨S800000, .f32⟩
  | 22 => ⟨S_, .f32⟩
  | 23 => ⟨S50000, .f32⟩
  | 24 => ⟨S800000x1, .i32⟩
  | 25 => ⟨S50000, .f32⟩
  | 26 => ⟨S_, .f32⟩
  | 27 => ⟨S50000, .f32⟩
  | 28 => ⟨S800000x1, .i32⟩
  | 29 => ⟨S50000, .f32⟩
  | 30 => ⟨S_, .f32⟩
  | 31 => ⟨S50000, .f32⟩
  | 32 => ⟨S50000, .f32⟩
  | 33 => ⟨S_, .f32⟩
  | 34 => ⟨S50000, .f32⟩
  | 35 => ⟨S50000, .f32⟩
  | 36 => ⟨S_, .f32⟩
  | 37 => ⟨S50000, .f32⟩
  | 38 => ⟨S50000, .f32⟩
  | 39 => ⟨S_, .f32⟩
  | 40 => ⟨S50000, .f32⟩
  | 41 => ⟨S50000, .f32⟩
  | 42 => ⟨S50000x1, .f32⟩
  | 43 => ⟨S50000x128, .f32⟩
  | 44 => ⟨S50000x128, .f32⟩
  | 45 => ⟨S_, .i32⟩
  | 46 => ⟨S800000, .i32⟩
  | 47 => ⟨S800000, .i1⟩
  | 48 => ⟨S_, .i32⟩
  | 49 => ⟨S800000, .i32⟩
  | 50 => ⟨S800000, .i32⟩
  | 51 => ⟨S800000, .i32⟩
  | 52 => ⟨S800000x1, .i32⟩
  | 53 => ⟨S800000x128, .f32⟩
  | 54 => ⟨S_, .f32⟩
  | 55 => ⟨S50000x128, .f32⟩
  | 56 => ⟨S800000x1, .i32⟩
  | 57 => ⟨S50000x128, .f32⟩
  | 58 => ⟨S50000x1, .f32⟩
  | 59 => ⟨S1x128, .f32⟩
  | 60 => ⟨S50000x128, .f32⟩
  | 61 => ⟨S50000x1, .f32⟩
  | 62 => ⟨S50000x128, .f32⟩
  | 63 => ⟨S50000x128, .f32⟩
  | 64 => ⟨S_, .i32⟩
  | 65 => ⟨S800000, .i32⟩
  | 66 => ⟨S800000, .i1⟩
  | 67 => ⟨S_, .i32⟩
  | 68 => ⟨S800000, .i32⟩
  | 69 => ⟨S800000, .i32⟩
  | 70 => ⟨S800000, .i32⟩
  | 71 => ⟨S800000x1, .i32⟩
  | 72 => ⟨S800000x128, .f32⟩
  | 73 => ⟨S_, .f32⟩
  | 74 => ⟨S50000x128, .f32⟩
  | 75 => ⟨S800000x1, .i32⟩
  | 76 => ⟨S50000x128, .f32⟩
  | 77 => ⟨S50000x1, .f32⟩
  | 78 => ⟨S1x128, .f32⟩
  | 79 => ⟨S50000x128, .f32⟩
  | 80 => ⟨S50000x1, .f32⟩
  | 81 => ⟨S50000x128, .f32⟩
  | 82 => ⟨S50000x128, .f32⟩
  | 83 => ⟨S_, .i32⟩
  | 84 => ⟨S800000, .i32⟩
  | 85 => ⟨S800000, .i1⟩
  | 86 => ⟨S_, .i32⟩
  | 87 => ⟨S800000, .i32⟩
  | 88 => ⟨S800000, .i32⟩
  | 89 => ⟨S800000, .i32⟩
  | 90 => ⟨S800000x1, .i32⟩
  | 91 => ⟨S800000x128, .f32⟩
  | 92 => ⟨S_, .f32⟩
  | 93 => ⟨S50000x128, .f32⟩
  | 94 => ⟨S800000x1, .i32⟩
  | 95 => ⟨S50000x128, .f32⟩
  | 96 => ⟨S50000x1, .f32⟩
  | 97 => ⟨S1x128, .f32⟩
  | 98 => ⟨S50000x128, .f32⟩
  | 99 => ⟨S50000x1, .f32⟩
  | 100 => ⟨S50000x128, .f32⟩
  | 101 => ⟨S50000x128, .f32⟩
  | 102 => ⟨S_, .i32⟩
  | 103 => ⟨S800000, .i32⟩
  | 104 => ⟨S800000, .i1⟩
  | 105 => ⟨S_, .i32⟩
  | 106 => ⟨S800000, .i32⟩
  | 107 => ⟨S800000, .i32⟩
  | 108 => ⟨S800000, .i32⟩
  | 109 => ⟨S800000x1, .i32⟩
  | 110 => ⟨S800000x128, .f32⟩
  | 111 => ⟨S_, .f32⟩
  | 112 => ⟨S50000x128, .f32⟩
  | 113 => ⟨S800000x1, .i32⟩
  | 114 => ⟨S50000x128, .f32⟩
  | 115 => ⟨S50000x1, .f32⟩
  | 116 => ⟨S1x128, .f32⟩
  | 117 => ⟨S50000x128, .f32⟩
  | 118 => ⟨S50000x1, .f32⟩
  | 119 => ⟨S50000x128, .f32⟩
  | 120 => ⟨S50000x128, .f32⟩
  | 121 => ⟨S_, .i32⟩
  | 122 => ⟨S800000, .i32⟩
  | 123 => ⟨S800000, .i1⟩
  | 124 => ⟨S_, .i32⟩
  | 125 => ⟨S800000, .i32⟩
  | 126 => ⟨S800000, .i32⟩
  | 127 => ⟨S800000, .i32⟩
  | _ => ⟨S50000x128, .f32⟩

abbrev hbmTy0_1 (i : Nat) : BufTy := match i % 128 with
  | 0 => ⟨S800000x1, .i32⟩
  | 1 => ⟨S800000x128, .f32⟩
  | 2 => ⟨S_, .f32⟩
  | 3 => ⟨S50000x128, .f32⟩
  | 4 => ⟨S800000x1, .i32⟩
  | 5 => ⟨S50000x128, .f32⟩
  | 6 => ⟨S50000x1, .f32⟩
  | 7 => ⟨S1x128, .f32⟩
  | 8 => ⟨S50000x128, .f32⟩
  | 9 => ⟨S50000x1, .f32⟩
  | 10 => ⟨S50000x128, .f32⟩
  | 11 => ⟨S50000x128, .f32⟩
  | 12 => ⟨S_, .i32⟩
  | 13 => ⟨S800000, .i32⟩
  | 14 => ⟨S800000, .i1⟩
  | 15 => ⟨S_, .i32⟩
  | 16 => ⟨S800000, .i32⟩
  | 17 => ⟨S800000, .i32⟩
  | 18 => ⟨S800000, .i32⟩
  | 19 => ⟨S800000x1, .i32⟩
  | 20 => ⟨S800000x128, .f32⟩
  | 21 => ⟨S_, .f32⟩
  | 22 => ⟨S50000x128, .f32⟩
  | 23 => ⟨S800000x1, .i32⟩
  | 24 => ⟨S50000x128, .f32⟩
  | 25 => ⟨S50000x1, .f32⟩
  | 26 => ⟨S1x128, .f32⟩
  | 27 => ⟨S50000x128, .f32⟩
  | 28 => ⟨S_, .f32⟩
  | 29 => ⟨S50000, .f32⟩
  | 30 => ⟨S_, .f32⟩
  | 31 => ⟨S64, .f32⟩
  | 32 => ⟨S50000x1, .i32⟩
  | 33 => ⟨S64, .f32⟩
  | 34 => ⟨S_, .f32⟩
  | 35 => ⟨S64x128, .f32⟩
  | 36 => ⟨S50000x1, .i32⟩
  | 37 => ⟨S64x128, .f32⟩
  | 38 => ⟨S_, .f32⟩
  | 39 => ⟨S64, .f32⟩
  | 40 => ⟨S64, .f32⟩
  | 41 => ⟨S64x1, .f32⟩
  | 42 => ⟨S64x128, .f32⟩
  | 43 => ⟨S64x128, .f32⟩
  | 44 => ⟨S64x64, .f32⟩
  | 45 => ⟨S1x64, .f32⟩
  | 46 => ⟨S64x64, .f32⟩
  | 47 => ⟨S64x64, .f32⟩
  | 48 => ⟨S_, .f32⟩
  | 49 => ⟨S64x64, .f32⟩
  | 50 => ⟨S64x64, .f32⟩
  | 51 => ⟨S64x10, .f32⟩
  | 52 => ⟨S1x10, .f32⟩
  | 53 => ⟨S64x10, .f32⟩
  | 54 => ⟨S64x10, .f32⟩
  | 55 => ⟨S_, .i32⟩
  | 56 => ⟨S800000, .i32⟩
  | 57 => ⟨S800000, .i1⟩
  | 58 => ⟨S_, .i32⟩
  | 59 => ⟨S800000, .i32⟩
  | 60 => ⟨S800000, .i32⟩
  | 61 => ⟨S800000, .i32⟩
  | 62 => ⟨S800000x1, .i32⟩
  | 63 => ⟨S800000x128, .f32⟩
  | 64 => ⟨S_, .f32⟩
  | 65 => ⟨S50000x128, .f32⟩
  | 66 => ⟨S800000x1, .i32⟩
  | 67 => ⟨S50000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S5000x1, .f32⟩
  | .local _ .vmem, ⟨3, _⟩ => ⟨S5000x1, .f32⟩
  | .local _ .vmem, ⟨4, _⟩ => ⟨S128x128, .f32⟩
  | .local _ .vmem, ⟨5, _⟩ => ⟨S1x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x1, .f32⟩
  | .local _ .vmem, ⟨11, _⟩ => ⟨S5000x1, .f32⟩
  | .local _ .vmem, ⟨12, _⟩ => ⟨S128x128, .f32⟩
  | .local _ .vmem, ⟨13, _⟩ => ⟨S1x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S5000x1, .f32⟩
  | .local _ .vmem, ⟨19, _⟩ => ⟨S5000x1, .f32⟩
  | .local _ .vmem, ⟨20, _⟩ => ⟨S128x128, .f32⟩
  | .local _ .vmem, ⟨21, _⟩ => ⟨S1x128, .f32⟩
  | .local _ .vmem, ⟨22, _⟩ => ⟨S5000x128, .f32⟩
  | .local _ .vmem, ⟨23, _⟩ => ⟨S5000x128, .f32⟩
  | .local _ .vmem, ⟨24, _⟩ => ⟨S5000x128, .f32⟩
  | .local _ .vmem, ⟨25, _⟩ => ⟨S5000x128, .f32⟩
  | .local _ .vmem, ⟨26, _⟩ => ⟨S5000x1, .f32⟩
  | .local _ .vmem, ⟨27, _⟩ => ⟨S5000x1, .f32⟩
  | .local _ .vmem, ⟨28, _⟩ => ⟨S128x128, .f32⟩
  | .local _ .vmem, ⟨29, _⟩ => ⟨S1x128, .f32⟩
  | .local _ .vmem, ⟨30, _⟩ => ⟨S5000x128, .f32⟩
  | .local _ .vmem, ⟨31, _⟩ => ⟨S5000x128, .f32⟩
  | .local _ .vmem, ⟨32, _⟩ => ⟨S5000x128, .f32⟩
  | .local _ .vmem, ⟨33, _⟩ => ⟨S5000x128, .f32⟩
  | .local _ .vmem, ⟨34, _⟩ => ⟨S5000x1, .f32⟩
  | .local _ .vmem, ⟨35, _⟩ => ⟨S5000x1, .f32⟩
  | .local _ .vmem, ⟨36, _⟩ => ⟨S128x128, .f32⟩
  | .local _ .vmem, ⟨37, _⟩ => ⟨S1x128, .f32⟩
  | .local _ .vmem, ⟨38, _⟩ => ⟨S5000x128, .f32⟩
  | .local _ .vmem, ⟨39, _⟩ => ⟨S5000x128, .f32⟩
  | .local _ .vmem, ⟨40, _⟩ => ⟨S5000x128, .f32⟩
  | .local _ .vmem, ⟨41, _⟩ => ⟨S5000x128, .f32⟩
  | .local _ .vmem, ⟨42, _⟩ => ⟨S5000x1, .f32⟩
  | .local _ .vmem, ⟨43, _⟩ => ⟨S5000x1, .f32⟩
  | .local _ .vmem, ⟨44, _⟩ => ⟨S128x128, .f32⟩
  | .local _ .vmem, ⟨45, _⟩ => ⟨S1x128, .f32⟩
  | .local _ .vmem, ⟨46, _⟩ => ⟨S5000x128, .f32⟩
  | .local _ .vmem, ⟨47, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | _, _ => false

abbrev semScoped : Fin 0 → Bool
  | ⟨_, h⟩ => absurd h (Nat.not_lt_zero _)

abbrev dmaSemScoped : Fin 48 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | _ => false

abbrev sig : RefSig :=
  ofTc nBuf bufTy 0 48 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_cst : Ref sig .tc := ⟨.hbm, 20, rfl⟩
abbrev main_v0 : Ref sig .tc := ⟨.hbm, 21, rfl⟩
abbrev main_cst_0 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_cst_1 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_cst_2 : Ref sig .tc := ⟨.hbm, 30, rfl⟩
abbrev main_v7 : Ref sig .tc := ⟨.hbm, 31, rfl⟩
abbrev main_v8 : Ref sig .tc := ⟨.hbm, 32, rfl⟩
abbrev main_cst_3 : Ref sig .tc := ⟨.hbm, 33, rfl⟩
abbrev main_v9 : Ref sig .tc := ⟨.hbm, 34, rfl⟩
abbrev main_v10 : Ref sig .tc := ⟨.hbm, 35, rfl⟩
abbrev main_cst_4 : Ref sig .tc := ⟨.hbm, 36, rfl⟩
abbrev main_v11 : Ref sig .tc := ⟨.hbm, 37, rfl⟩
abbrev main_v12 : Ref sig .tc := ⟨.hbm, 38, rfl⟩
abbrev main_cst_5 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_c : Ref sig .tc := ⟨.hbm, 45, rfl⟩
abbrev main_v18 : Ref sig .tc := ⟨.hbm, 46, rfl⟩
abbrev main_v19 : Ref sig .tc := ⟨.hbm, 47, rfl⟩
abbrev main_c_6 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_cst_7 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_c_8 : Ref sig .tc := ⟨.hbm, 64, rfl⟩
abbrev main_v34 : Ref sig .tc := ⟨.hbm, 65, rfl⟩
abbrev main_v35 : Ref sig .tc := ⟨.hbm, 66, rfl⟩
abbrev main_c_9 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_cst_10 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_c_11 : Ref sig .tc := ⟨.hbm, 83, rfl⟩
abbrev main_v50 : Ref sig .tc := ⟨.hbm, 84, rfl⟩
abbrev main_v51 : Ref sig .tc := ⟨.hbm, 85, rfl⟩
abbrev main_c_12 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_cst_13 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_c_14 : Ref sig .tc := ⟨.hbm, 102, rfl⟩
abbrev main_v66 : Ref sig .tc := ⟨.hbm, 103, rfl⟩
abbrev main_v67 : Ref sig .tc := ⟨.hbm, 104, rfl⟩
abbrev main_c_15 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_cst_16 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_c_17 : Ref sig .tc := ⟨.hbm, 121, rfl⟩
abbrev main_v82 : Ref sig .tc := ⟨.hbm, 122, rfl⟩
abbrev main_v83 : Ref sig .tc := ⟨.hbm, 123, rfl⟩
abbrev main_c_18 : Ref sig .tc := ⟨.hbm, 124, rfl⟩
abbrev main_v84 : Ref sig .tc := ⟨.hbm, 125, rfl⟩
abbrev main_v85 : Ref sig .tc := ⟨.hbm, 126, rfl⟩
abbrev main_v86 : Ref sig .tc := ⟨.hbm, 127, rfl⟩
abbrev main_v87 : Ref sig .tc := ⟨.hbm, 128, rfl⟩
abbrev main_v88 : Ref sig .tc := ⟨.hbm, 129, rfl⟩
abbrev main_cst_19 : Ref sig .tc := ⟨.hbm, 130, rfl⟩
abbrev main_v89 : Ref sig .tc := ⟨.hbm, 131, rfl⟩
abbrev main_v90 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩
abbrev main_v96 : Ref sig .tc := ⟨.hbm, 138, rfl⟩
abbrev main_v97 : Ref sig .tc := ⟨.hbm, 139, rfl⟩
abbrev main_c_20 : Ref sig .tc := ⟨.hbm, 140, rfl⟩
abbrev main_v98 : Ref sig .tc := ⟨.hbm, 141, rfl⟩
abbrev main_v99 : Ref sig .tc := ⟨.hbm, 142, rfl⟩
abbrev main_c_21 : Ref sig .tc := ⟨.hbm, 143, rfl⟩
abbrev main_v100 : Ref sig .tc := ⟨.hbm, 144, rfl⟩
abbrev main_v101 : Ref sig .tc := ⟨.hbm, 145, rfl⟩
abbrev main_v102 : Ref sig .tc := ⟨.hbm, 146, rfl⟩
abbrev main_v103 : Ref sig .tc := ⟨.hbm, 147, rfl⟩
abbrev main_v104 : Ref sig .tc := ⟨.hbm, 148, rfl⟩
abbrev main_cst_22 : Ref sig .tc := ⟨.hbm, 149, rfl⟩
abbrev main_v105 : Ref sig .tc := ⟨.hbm, 150, rfl⟩
abbrev main_v106 : Ref sig .tc := ⟨.hbm, 151, rfl⟩
abbrev main_v107 : Ref sig .tc := ⟨.hbm, 152, rfl⟩
abbrev main_v108 : Ref sig .tc := ⟨.hbm, 153, rfl⟩
abbrev main_v109 : Ref sig .tc := ⟨.hbm, 154, rfl⟩
abbrev main_v110 : Ref sig .tc := ⟨.hbm, 155, rfl⟩
abbrev main_cst_23 : Ref sig .tc := ⟨.hbm, 156, rfl⟩
abbrev main_v111 : Ref sig .tc := ⟨.hbm, 157, rfl⟩
abbrev main_cst_24 : Ref sig .tc := ⟨.hbm, 158, rfl⟩
abbrev main_v112 : Ref sig .tc := ⟨.hbm, 159, rfl⟩
abbrev main_v113 : Ref sig .tc := ⟨.hbm, 160, rfl⟩
abbrev main_v114 : Ref sig .tc := ⟨.hbm, 161, rfl⟩
abbrev main_cst_25 : Ref sig .tc := ⟨.hbm, 162, rfl⟩
abbrev main_v115 : Ref sig .tc := ⟨.hbm, 163, rfl⟩
abbrev main_v116 : Ref sig .tc := ⟨.hbm, 164, rfl⟩
abbrev main_v117 : Ref sig .tc := ⟨.hbm, 165, rfl⟩
abbrev main_cst_26 : Ref sig .tc := ⟨.hbm, 166, rfl⟩
abbrev main_v118 : Ref sig .tc := ⟨.hbm, 167, rfl⟩
abbrev main_v119 : Ref sig .tc := ⟨.hbm, 168, rfl⟩
abbrev main_v120 : Ref sig .tc := ⟨.hbm, 169, rfl⟩
abbrev main_v121 : Ref sig .tc := ⟨.hbm, 170, rfl⟩
abbrev main_v122 : Ref sig .tc := ⟨.hbm, 171, rfl⟩
abbrev main_v123 : Ref sig .tc := ⟨.hbm, 172, rfl⟩
abbrev main_v124 : Ref sig .tc := ⟨.hbm, 173, rfl⟩
abbrev main_v125 : Ref sig .tc := ⟨.hbm, 174, rfl⟩
abbrev main_v126 : Ref sig .tc := ⟨.hbm, 175, rfl⟩
abbrev main_call0_cst : Ref sig .tc := ⟨.hbm, 176, rfl⟩
abbrev main_call0_v0 : Ref sig .tc := ⟨.hbm, 177, rfl⟩
abbrev main_v127 : Ref sig .tc := ⟨.hbm, 178, rfl⟩
abbrev main_v128 : Ref sig .tc := ⟨.hbm, 179, rfl⟩
abbrev main_v129 : Ref sig .tc := ⟨.hbm, 180, rfl⟩
abbrev main_v130 : Ref sig .tc := ⟨.hbm, 181, rfl⟩
abbrev main_v131 : Ref sig .tc := ⟨.hbm, 182, rfl⟩
abbrev main_c_27 : Ref sig .tc := ⟨.hbm, 183, rfl⟩
abbrev main_v132 : Ref sig .tc := ⟨.hbm, 184, rfl⟩
abbrev main_v133 : Ref sig .tc := ⟨.hbm, 185, rfl⟩
abbrev main_c_28 : Ref sig .tc := ⟨.hbm, 186, rfl⟩
abbrev main_v134 : Ref sig .tc := ⟨.hbm, 187, rfl⟩
abbrev main_v135 : Ref sig .tc := ⟨.hbm, 188, rfl⟩
abbrev main_v136 : Ref sig .tc := ⟨.hbm, 189, rfl⟩
abbrev main_v137 : Ref sig .tc := ⟨.hbm, 190, rfl⟩
abbrev main_v138 : Ref sig .tc := ⟨.hbm, 191, rfl⟩
abbrev main_cst_29 : Ref sig .tc := ⟨.hbm, 192, rfl⟩
abbrev main_v139 : Ref sig .tc := ⟨.hbm, 193, rfl⟩
abbrev main_v140 : Ref sig .tc := ⟨.hbm, 194, rfl⟩
abbrev main_v141 : Ref sig .tc := ⟨.hbm, 195, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg4_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg3_0 : Ref sig .tc := ⟨.vmem, 21, rfl⟩
abbrev cc2_stg4_0 : Ref sig .tc := ⟨.vmem, 22, rfl⟩
abbrev cc2_stg4_1 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg1_1 : Ref sig .tc := ⟨.vmem, 27, rfl⟩
abbrev cc3_stg2_0 : Ref sig .tc := ⟨.vmem, 28, rfl⟩
abbrev cc3_stg3_0 : Ref sig .tc := ⟨.vmem, 29, rfl⟩
abbrev cc3_stg4_0 : Ref sig .tc := ⟨.vmem, 30, rfl⟩
abbrev cc3_stg4_1 : Ref sig .tc := ⟨.vmem, 31, rfl⟩
abbrev cc4_stg0_0 : Ref sig .tc := ⟨.vmem, 32, rfl⟩
abbrev cc4_stg0_1 : Ref sig .tc := ⟨.vmem, 33, rfl⟩
abbrev cc4_stg1_0 : Ref sig .tc := ⟨.vmem, 34, rfl⟩
abbrev cc4_stg1_1 : Ref sig .tc := ⟨.vmem, 35, rfl⟩
abbrev cc4_stg2_0 : Ref sig .tc := ⟨.vmem, 36, rfl⟩
abbrev cc4_stg3_0 : Ref sig .tc := ⟨.vmem, 37, rfl⟩
abbrev cc4_stg4_0 : Ref sig .tc := ⟨.vmem, 38, rfl⟩
abbrev cc4_stg4_1 : Ref sig .tc := ⟨.vmem, 39, rfl⟩
abbrev cc5_stg0_0 : Ref sig .tc := ⟨.vmem, 40, rfl⟩
abbrev cc5_stg0_1 : Ref sig .tc := ⟨.vmem, 41, rfl⟩
abbrev cc5_stg1_0 : Ref sig .tc := ⟨.vmem, 42, rfl⟩
abbrev cc5_stg1_1 : Ref sig .tc := ⟨.vmem, 43, rfl⟩
abbrev cc5_stg2_0 : Ref sig .tc := ⟨.vmem, 44, rfl⟩
abbrev cc5_stg3_0 : Ref sig .tc := ⟨.vmem, 45, rfl⟩
abbrev cc5_stg4_0 : Ref sig .tc := ⟨.vmem, 46, rfl⟩
abbrev cc5_stg4_1 : Ref sig .tc := ⟨.vmem, 47, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem4_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem3_0 : DmaSem sig := 21
abbrev cc2_sem4_0 : DmaSem sig := 22
abbrev cc2_sem4_1 : DmaSem sig := 23
abbrev cc3_sem0_0 : DmaSem sig := 24
abbrev cc3_sem0_1 : DmaSem sig := 25
abbrev cc3_sem1_0 : DmaSem sig := 26
abbrev cc3_sem1_1 : DmaSem sig := 27
abbrev cc3_sem2_0 : DmaSem sig := 28
abbrev cc3_sem3_0 : DmaSem sig := 29
abbrev cc3_sem4_0 : DmaSem sig := 30
abbrev cc3_sem4_1 : DmaSem sig := 31
abbrev cc4_sem0_0 : DmaSem sig := 32
abbrev cc4_sem0_1 : DmaSem sig := 33
abbrev cc4_sem1_0 : DmaSem sig := 34
abbrev cc4_sem1_1 : DmaSem sig := 35
abbrev cc4_sem2_0 : DmaSem sig := 36
abbrev cc4_sem3_0 : DmaSem sig := 37
abbrev cc4_sem4_0 : DmaSem sig := 38
abbrev cc4_sem4_1 : DmaSem sig := 39
abbrev cc5_sem0_0 : DmaSem sig := 40
abbrev cc5_sem0_1 : DmaSem sig := 41
abbrev cc5_sem1_0 : DmaSem sig := 42
abbrev cc5_sem1_1 : DmaSem sig := 43
abbrev cc5_sem2_0 : DmaSem sig := 44
abbrev cc5_sem3_0 : DmaSem sig := 45
abbrev cc5_sem4_0 : DmaSem sig := 46
abbrev cc5_sem4_1 : DmaSem sig := 47

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S5000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S5000x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S5000x128 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x1 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S128x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 2 → Memref sig .tc .vmem S5000x128 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x1 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S128x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 2 → Memref sig .tc .vmem S5000x128 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S_S50000x128 : S_.BroadcastsInDim S50000x128 (![] : Fin 0 → Fin S50000x128.rank)
  shapeCasts_S50000_S50000x1 : S50000.ShapeCasts S50000x1
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  bcast_S_S64 : S_.BroadcastsInDim S64 (![] : Fin 0 → Fin S64.rank)
  bcast_S_S64x128 : S_.BroadcastsInDim S64x128 (![] : Fin 0 → Fin S64x128.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  bcast_S64_S1x64_1 : S64.BroadcastsInDim S1x64 (![1] : Fin 1 → Fin S1x64.rank)
  bcast_S1x64_S64x64_0_1 : S1x64.BroadcastsInDim S64x64 (![0, 1] : Fin 2 → Fin S64x64.rank)
  bcast_S_S64x64 : S_.BroadcastsInDim S64x64 (![] : Fin 0 → Fin S64x64.rank)
  bcast_S10_S1x10_1 : S10.BroadcastsInDim S1x10 (![1] : Fin 1 → Fin S1x10.rank)
  bcast_S1x10_S64x10_0_1 : S1x10.BroadcastsInDim S64x10 (![0, 1] : Fin 2 → Fin S64x10.rank)
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x128_S5000x128_1_0_0_1_n_n_wf : DotDims.WF S5000x128 S128x128 S5000x128 [1] [0] [0] [1] [] []
  scatter_S64_S50000x1_S50000_n_0_0_1_wf : ScatterDims.WF S64 S50000x1 S50000 [] [0] [0] 1
  scatter_S64x128_S50000x1_S50000x128_1_0_0_1_wf : ScatterDims.WF S64x128 S50000x1 S50000x128 [1] [0] [0] 1
  dot_S64x128_S128x64_S64x64_1_0_0_1_n_n_wf : DotDims.WF S64x128 S128x64 S64x64 [1] [0] [0] [1] [] []
  dot_S64x64_S64x10_S64x10_1_0_0_1_n_n_wf : DotDims.WF S64x64 S64x10 S64x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S50000x1.size a
  hwx0_1 : ∀ i : grid0.Coords, EltTy.bits .f32 = 32 ∨ (Rect.block (s := S50000x1) S5000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x128.size a ≤ S50000x128.size a
  hwx0_4 : ∀ i : grid0.Coords, EltTy.bits .f32 = 32 ∨ (Rect.block (s := S50000x128) S5000x128.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S50000x1.size a
  hwx1_1 : ∀ i : grid1.Coords, EltTy.bits .f32 = 32 ∨ (Rect.block (s := S50000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S50000x128.size a
  hwx1_4 : ∀ i : grid1.Coords, EltTy.bits .f32 = 32 ∨ (Rect.block (s := S50000x128) S5000x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S50000x1.size a
  hwx2_1 : ∀ i : grid2.Coords, EltTy.bits .f32 = 32 ∨ (Rect.block (s := S50000x1) S5000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x128.size a ≤ S50000x128.size a
  hwx2_4 : ∀ i : grid2.Coords, EltTy.bits .f32 = 32 ∨ (Rect.block (s := S50000x128) S5000x128.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x1.size a ≤ S50000x1.size a
  hwx3_1 : ∀ i : grid3.Coords, EltTy.bits .f32 = 32 ∨ (Rect.block (s := S50000x1) S5000x1.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x128.size a ≤ S128x128.size a
  hwx3_2 : ∀ i : grid3.Coords, EltTy.bits .f32 = 32 ∨ (Rect.block (s := S128x128) S128x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S5000x128.size a ≤ S50000x128.size a
  hwx3_4 : ∀ i : grid3.Coords, EltTy.bits .f32 = 32 ∨ (Rect.block (s := S50000x128) S5000x128.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S50000x128.size a
  hwx4_0 : ∀ i : grid4.Coords, EltTy.bits .f32 = 32 ∨ (Rect.block (s := S50000x128) S5000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x1.size a ≤ S50000x1.size a
  hwx4_1 : ∀ i : grid4.Coords, EltTy.bits .f32 = 32 ∨ (Rect.block (s := S50000x1) S5000x1.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128x128.size a ≤ S128x128.size a
  hwx4_2 : ∀ i : grid4.Coords, EltTy.bits .f32 = 32 ∨ (Rect.block (s := S128x128) S128x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x128.size a ≤ S1x128.size a
  hwx4_3 : ∀ i : grid4.Coords, EltTy.bits .f32 = 32 ∨ (Rect.block (s := S1x128) S1x128.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S5000x128.size a ≤ S50000x128.size a
  hwx4_4 : ∀ i : grid4.Coords, EltTy.bits .f32 = 32 ∨ (Rect.block (s := S50000x128) S5000x128.size (cc4_transform_4 i) (hinb4_4 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S50000x128.size a
  hwx5_0 : ∀ i : grid5.Coords, EltTy.bits .f32 = 32 ∨ (Rect.block (s := S50000x128) S5000x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x1.size a ≤ S50000x1.size a
  hwx5_1 : ∀ i : grid5.Coords, EltTy.bits .f32 = 32 ∨ (Rect.block (s := S50000x1) S5000x1.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S128x128.size a ≤ S128x128.size a
  hwx5_2 : ∀ i : grid5.Coords, EltTy.bits .f32 = 32 ∨ (Rect.block (s := S128x128) S128x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S5000x128.size a ≤ S50000x128.size a
  hwx5_4 : ∀ i : grid5.Coords, EltTy.bits .f32 = 32 ∨ (Rect.block (s := S50000x128) S5000x128.size (cc5_transform_4 i) (hinb5_4 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def scatter_S64_S50000x1_S50000_n_0_0_1 : ScatterDims S64 S50000x1 S50000 where
  updateWindowDims := []
  insertedWindowDims := [0]
  scatterDimsToOperandDims := [0]
  indexVectorDim := 1
  wf := scatter_S64_S50000x1_S50000_n_0_0_1_wf
def scatter_S64x128_S50000x1_S50000x128_1_0_0_1 : ScatterDims S64x128 S50000x1 S50000x128 where
  updateWindowDims := [1]
  insertedWindowDims := [0]
  scatterDimsToOperandDims := [0]
  indexVectorDim := 1
  wf := scatter_S64x128_S50000x1_S50000x128_1_0_0_1_wf
def dot_S64x128_S128x64_S64x64_1_0_0_1_n_n : DotDims S64x128 S128x64 S64x64 where
  lhsContracting := [1]
  rhsContracting := [0]
  lhsNonContracting := [0]
  rhsNonContracting := [1]
  lhsBatch := []
  rhsBatch := []
  wf := dot_S64x128_S128x64_S64x64_1_0_0_1_n_n_wf
def dot_S64x64_S64x10_S64x10_1_0_0_1_n_n : DotDims S64x64 S64x10 S64x10 where
  lhsContracting := [1]
  rhsContracting := [0]
  lhsNonContracting := [0]
  rhsNonContracting := [1]
  lhsBatch := []
  rhsBatch := []
  wf := dot_S64x64_S64x10_S64x10_1_0_0_1_n_n_wf

abbrev win0_0 : Pipeline.Window sig grid0 :=
  Pipeline.Window.ofSpec (Memref.whole main_v27) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v28) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v29) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v30) S5000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v43) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v45) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v46) S5000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v59) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v60) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg8) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v61) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v62) S5000x128.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v75) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v76) S5000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg10) S128x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v77) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v78) S5000x128.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v91) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v92) S5000x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_arg12) S128x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v93) S1x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v94) S5000x128.size cc4_transform_4 reads4_4 true false 2 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

abbrev win5_0 : Pipeline.Window sig grid5 :=
  Pipeline.Window.ofSpec (Memref.whole main_v107) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v108) S5000x1.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_arg14) S128x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v109) S1x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v110) S5000x128.size cc5_transform_4 reads5_4 true false 2 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

class Facts : Prop extends Facts₀ where

variable [Facts]
-- ==== ReferenceIdeal.lean ====
abbrev S50000x128 : Shape := ⟨2, ![50000, 128]⟩
abbrev S800000 : Shape := ⟨1, ![800000]⟩
abbrev S50000 : Shape := ⟨1, ![50000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x10 : Shape := ⟨2, ![64, 10]⟩
abbrev S10 : Shape := ⟨1, ![10]⟩
abbrev S_ : Shape := ⟨0, ![]⟩
abbrev S800000x1 : Shape := ⟨2, ![800000, 1]⟩
abbrev S50000x1 : Shape := ⟨2, ![50000, 1]⟩
abbrev S800000x128 : Shape := ⟨2, ![800000, 128]⟩
abbrev S1x128 : Shape := ⟨2, ![1, 128]⟩
abbrev S64x128 : Shape := ⟨2, ![64, 128]⟩
abbrev S64x1 : Shape := ⟨2, ![64, 1]⟩
abbrev S64x64 : Shape := ⟨2, ![64, 64]⟩
abbrev S1x64 : Shape := ⟨2, ![1, 64]⟩
abbrev S1x10 : Shape := ⟨2, ![1, 10]⟩

abbrev nBuf : Space → Nat
  | .hbm => 238
  | .vmem => 0
  | .smem => 0
  | _ => 0

abbrev hbmTy0_0 (i : Nat) : BufTy := match i % 128 with
  | 0 => ⟨S50000x128, .f32⟩
  | 1 => ⟨S800000, .i32⟩
  | 2 => ⟨S800000, .i32⟩
  | 3 => ⟨S50000, .i32⟩
  | 4 => ⟨S128x128, .f32⟩
  | 5 => ⟨S128, .f32⟩
  | 6 => ⟨S128x128, .f32⟩
  | 7 => ⟨S128, .f32⟩
  | 8 => ⟨S128x128, .f32⟩
  | 9 => ⟨S128, .f32⟩
  | 10 => ⟨S128x128, .f32⟩
  | 11 => ⟨S128, .f32⟩
  | 12 => ⟨S128x128, .f32⟩
  | 13 => ⟨S128, .f32⟩
  | 14 => ⟨S128x128, .f32⟩
  | 15 => ⟨S128, .f32⟩
  | 16 => ⟨S128x64, .f32⟩
  | 17 => ⟨S64, .f32⟩
  | 18 => ⟨S64x10, .f32⟩
  | 19 => ⟨S10, .f32⟩
  | 20 => ⟨S_, .f32⟩
  | 21 => ⟨S800000, .f32⟩
  | 22 => ⟨S_, .f32⟩
  | 23 => ⟨S50000, .f32⟩
  | 24 => ⟨S800000x1, .i32⟩
  | 25 => ⟨S50000, .f32⟩
  | 26 => ⟨S_, .f32⟩
  | 27 => ⟨S50000, .f32⟩
  | 28 => ⟨S800000x1, .i32⟩
  | 29 => ⟨S50000, .f32⟩
  | 30 => ⟨S_, .f32⟩
  | 31 => ⟨S50000, .f32⟩
  | 32 => ⟨S50000, .f32⟩
  | 33 => ⟨S_, .f32⟩
  | 34 => ⟨S50000, .f32⟩
  | 35 => ⟨S50000, .f32⟩
  | 36 => ⟨S_, .f32⟩
  | 37 => ⟨S50000, .f32⟩
  | 38 => ⟨S50000, .f32⟩
  | 39 => ⟨S_, .f32⟩
  | 40 => ⟨S50000, .f32⟩
  | 41 => ⟨S50000, .f32⟩
  | 42 => ⟨S50000x1, .f32⟩
  | 43 => ⟨S50000x128, .f32⟩
  | 44 => ⟨S50000x128, .f32⟩
  | 45 => ⟨S_, .i32⟩
  | 46 => ⟨S800000, .i32⟩
  | 47 => ⟨S800000, .i1⟩
  | 48 => ⟨S_, .i32⟩
  | 49 => ⟨S800000, .i32⟩
  | 50 => ⟨S800000, .i32⟩
  | 51 => ⟨S800000, .i32⟩
  | 52 => ⟨S800000x1, .i32⟩
  | 53 => ⟨S800000x128, .f32⟩
  | 54 => ⟨S_, .f32⟩
  | 55 => ⟨S50000x128, .f32⟩
  | 56 => ⟨S800000x1, .i32⟩
  | 57 => ⟨S50000x128, .f32⟩
  | 58 => ⟨S50000x1, .f32⟩
  | 59 => ⟨S50000x128, .f32⟩
  | 60 => ⟨S50000x128, .f32⟩
  | 61 => ⟨S50000x128, .f32⟩
  | 62 => ⟨S1x128, .f32⟩
  | 63 => ⟨S50000x128, .f32⟩
  | 64 => ⟨S50000x128, .f32⟩
  | 65 => ⟨S_, .f32⟩
  | 66 => ⟨S50000x128, .f32⟩
  | 67 => ⟨S50000x128, .f32⟩
  | 68 => ⟨S50000x1, .f32⟩
  | 69 => ⟨S50000x128, .f32⟩
  | 70 => ⟨S50000x128, .f32⟩
  | 71 => ⟨S_, .i32⟩
  | 72 => ⟨S800000, .i32⟩
  | 73 => ⟨S800000, .i1⟩
  | 74 => ⟨S_, .i32⟩
  | 75 => ⟨S800000, .i32⟩
  | 76 => ⟨S800000, .i32⟩
  | 77 => ⟨S800000, .i32⟩
  | 78 => ⟨S800000x1, .i32⟩
  | 79 => ⟨S800000x128, .f32⟩
  | 80 => ⟨S_, .f32⟩
  | 81 => ⟨S50000x128, .f32⟩
  | 82 => ⟨S800000x1, .i32⟩
  | 83 => ⟨S50000x128, .f32⟩
  | 84 => ⟨S50000x1, .f32⟩
  | 85 => ⟨S50000x128, .f32⟩
  | 86 => ⟨S50000x128, .f32⟩
  | 87 => ⟨S50000x128, .f32⟩
  | 88 => ⟨S1x128, .f32⟩
  | 89 => ⟨S50000x128, .f32⟩
  | 90 => ⟨S50000x128, .f32⟩
  | 91 => ⟨S_, .f32⟩
  | 92 => ⟨S50000x128, .f32⟩
  | 93 => ⟨S50000x128, .f32⟩
  | 94 => ⟨S50000x1, .f32⟩
  | 95 => ⟨S50000x128, .f32⟩
  | 96 => ⟨S50000x128, .f32⟩
  | 97 => ⟨S_, .i32⟩
  | 98 => ⟨S800000, .i32⟩
  | 99 => ⟨S800000, .i1⟩
  | 100 => ⟨S_, .i32⟩
  | 101 => ⟨S800000, .i32⟩
  | 102 => ⟨S800000, .i32⟩
  | 103 => ⟨S800000, .i32⟩
  | 104 => ⟨S800000x1, .i32⟩
  | 105 => ⟨S800000x128, .f32⟩
  | 106 => ⟨S_, .f32⟩
  | 107 => ⟨S50000x128, .f32⟩
  | 108 => ⟨S800000x1, .i32⟩
  | 109 => ⟨S50000x128, .f32⟩
  | 110 => ⟨S50000x1, .f32⟩
  | 111 => ⟨S50000x128, .f32⟩
  | 112 => ⟨S50000x128, .f32⟩
  | 113 => ⟨S50000x128, .f32⟩
  | 114 => ⟨S1x128, .f32⟩
  | 115 => ⟨S50000x128, .f32⟩
  | 116 => ⟨S50000x128, .f32⟩
  | 117 => ⟨S_, .f32⟩
  | 118 => ⟨S50000x128, .f32⟩
  | 119 => ⟨S50000x128, .f32⟩
  | 120 => ⟨S50000x1, .f32⟩
  | 121 => ⟨S50000x128, .f32⟩
  | 122 => ⟨S50000x128, .f32⟩
  | 123 => ⟨S_, .i32⟩
  | 124 => ⟨S800000, .i32⟩
  | 125 => ⟨S800000, .i1⟩
  | 126 => ⟨S_, .i32⟩
  | 127 => ⟨S800000, .i32⟩
  | _ => ⟨S50000x128, .f32⟩

abbrev hbmTy0_1 (i : Nat) : BufTy := match i % 128 with
  | 0 => ⟨S800000, .i32⟩
  | 1 => ⟨S800000, .i32⟩
  | 2 => ⟨S800000x1, .i32⟩
  | 3 => ⟨S800000x128, .f32⟩
  | 4 => ⟨S_, .f32⟩
  | 5 => ⟨S50000x128, .f32⟩
  | 6 => ⟨S800000x1, .i32⟩
  | 7 => ⟨S50000x128, .f32⟩
  | 8 => ⟨S50000x1, .f32⟩
  | 9 => ⟨S50000x128, .f32⟩
  | 10 => ⟨S50000x128, .f32⟩
  | 11 => ⟨S50000x128, .f32⟩
  | 12 => ⟨S1x128, .f32⟩
  | 13 => ⟨S50000x128, .f32⟩
  | 14 => ⟨S50000x128, .f32⟩
  | 15 => ⟨S_, .f32⟩
  | 16 => ⟨S50000x128, .f32⟩
  | 17 => ⟨S50000x128, .f32⟩
  | 18 => ⟨S50000x1, .f32⟩
  | 19 => ⟨S50000x128, .f32⟩
  | 20 => ⟨S50000x128, .f32⟩
  | 21 => ⟨S_, .i32⟩
  | 22 => ⟨S800000, .i32⟩
  | 23 => ⟨S800000, .i1⟩
  | 24 => ⟨S_, .i32⟩
  | 25 => ⟨S800000, .i32⟩
  | 26 => ⟨S800000, .i32⟩
  | 27 => ⟨S800000, .i32⟩
  | 28 => ⟨S800000x1, .i32⟩
  | 29 => ⟨S800000x128, .f32⟩
  | 30 => ⟨S_, .f32⟩
  | 31 => ⟨S50000x128, .f32⟩
  | 32 => ⟨S800000x1, .i32⟩
  | 33 => ⟨S50000x128, .f32⟩
  | 34 => ⟨S50000x1, .f32⟩
  | 35 => ⟨S50000x128, .f32⟩
  | 36 => ⟨S50000x128, .f32⟩
  | 37 => ⟨S50000x128, .f32⟩
  | 38 => ⟨S1x128, .f32⟩
  | 39 => ⟨S50000x128, .f32⟩
  | 40 => ⟨S50000x128, .f32⟩
  | 41 => ⟨S_, .f32⟩
  | 42 => ⟨S50000x128, .f32⟩
  | 43 => ⟨S50000x128, .f32⟩
  | 44 => ⟨S50000x1, .f32⟩
  | 45 => ⟨S50000x128, .f32⟩
  | 46 => ⟨S50000x128, .f32⟩
  | 47 => ⟨S_, .i32⟩
  | 48 => ⟨S800000, .i32⟩
  | 49 => ⟨S800000, .i1⟩
  | 50 => ⟨S_, .i32⟩
  | 51 => ⟨S800000, .i32⟩
  | 52 => ⟨S800000, .i32⟩
  | 53 => ⟨S800000, .i32⟩
  | 54 => ⟨S800000x1, .i32⟩
  | 55 => ⟨S800000x128, .f32⟩
  | 56 => ⟨S_, .f32⟩
  | 57 => ⟨S50000x128, .f32⟩
  | 58 => ⟨S800000x1, .i32⟩
  | 59 => ⟨S50000x128, .f32⟩
  | 60 => ⟨S50000x1, .f32⟩
  | 61 => ⟨S50000x128, .f32⟩
  | 62 => ⟨S50000x128, .f32⟩
  | 63 => ⟨S50000x128, .f32⟩
  | 64 => ⟨S1x128, .f32⟩
  | 65 => ⟨S50000x128, .f32⟩
  | 66 => ⟨S50000x128, .f32⟩
  | 67 => ⟨S_, .f32⟩
  | 68 => ⟨S50000x128, .f32⟩
  | 69 => ⟨S50000x128, .f32⟩
  | 70 => ⟨S_, .f32⟩
  | 71 => ⟨S50000, .f32⟩
  | 72 => ⟨S_, .f32⟩
  | 73 => ⟨S64, .f32⟩
  | 74 => ⟨S50000x1, .i32⟩
  | 75 => ⟨S64, .f32⟩
  | 76 => ⟨S_, .f32⟩
  | 77 => ⟨S64x128, .f32⟩
  | 78 => ⟨S50000x1, .i32⟩
  | 79 => ⟨S64x128, .f32⟩
  | 80 => ⟨S_, .f32⟩
  | 81 => ⟨S64, .f32⟩
  | 82 => ⟨S64, .f32⟩
  | 83 => ⟨S64x1, .f32⟩
  | 84 => ⟨S64x128, .f32⟩
  | 85 => ⟨S64x128, .f32⟩
  | 86 => ⟨S64x64, .f32⟩
  | 87 => ⟨S1x64, .f32⟩
  | 88 => ⟨S64x64, .f32⟩
  | 89 => ⟨S64x64, .f32⟩
  | 90 => ⟨S_, .f32⟩
  | 91 => ⟨S64x64, .f32⟩
  | 92 => ⟨S64x64, .f32⟩
  | 93 => ⟨S64x10, .f32⟩
  | 94 => ⟨S1x10, .f32⟩
  | 95 => ⟨S64x10, .f32⟩
  | 96 => ⟨S64x10, .f32⟩
  | 97 => ⟨S_, .i32⟩
  | 98 => ⟨S800000, .i32⟩
  | 99 => ⟨S800000, .i1⟩
  | 100 => ⟨S_, .i32⟩
  | 101 => ⟨S800000, .i32⟩
  | 102 => ⟨S800000, .i32⟩
  | 103 => ⟨S800000, .i32⟩
  | 104 => ⟨S800000x1, .i32⟩
  | 105 => ⟨S800000x128, .f32⟩
  | 106 => ⟨S_, .f32⟩
  | 107 => ⟨S50000x128, .f32⟩
  | 108 => ⟨S800000x1, .i32⟩
  | 109 => ⟨S50000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_cst : Ref sig .tc := ⟨.hbm, 20, rfl⟩
abbrev main_v0 : Ref sig .tc := ⟨.hbm, 21, rfl⟩
abbrev main_cst_0 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_cst_1 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_cst_2 : Ref sig .tc := ⟨.hbm, 30, rfl⟩
abbrev main_v7 : Ref sig .tc := ⟨.hbm, 31, rfl⟩
abbrev main_v8 : Ref sig .tc := ⟨.hbm, 32, rfl⟩
abbrev main_cst_3 : Ref sig .tc := ⟨.hbm, 33, rfl⟩
abbrev main_v9 : Ref sig .tc := ⟨.hbm, 34, rfl⟩
abbrev main_v10 : Ref sig .tc := ⟨.hbm, 35, rfl⟩
abbrev main_cst_4 : Ref sig .tc := ⟨.hbm, 36, rfl⟩
abbrev main_v11 : Ref sig .tc := ⟨.hbm, 37, rfl⟩
abbrev main_v12 : Ref sig .tc := ⟨.hbm, 38, rfl⟩
abbrev main_cst_5 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_c : Ref sig .tc := ⟨.hbm, 45, rfl⟩
abbrev main_v18 : Ref sig .tc := ⟨.hbm, 46, rfl⟩
abbrev main_v19 : Ref sig .tc := ⟨.hbm, 47, rfl⟩
abbrev main_c_6 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_cst_7 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_call0_cst : Ref sig .tc := ⟨.hbm, 65, rfl⟩
abbrev main_call0_v0 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_c_8 : Ref sig .tc := ⟨.hbm, 71, rfl⟩
abbrev main_v39 : Ref sig .tc := ⟨.hbm, 72, rfl⟩
abbrev main_v40 : Ref sig .tc := ⟨.hbm, 73, rfl⟩
abbrev main_c_9 : Ref sig .tc := ⟨.hbm, 74, rfl⟩
abbrev main_v41 : Ref sig .tc := ⟨.hbm, 75, rfl⟩
abbrev main_v42 : Ref sig .tc := ⟨.hbm, 76, rfl⟩
abbrev main_v43 : Ref sig .tc := ⟨.hbm, 77, rfl⟩
abbrev main_v44 : Ref sig .tc := ⟨.hbm, 78, rfl⟩
abbrev main_v45 : Ref sig .tc := ⟨.hbm, 79, rfl⟩
abbrev main_cst_10 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_call1_cst : Ref sig .tc := ⟨.hbm, 91, rfl⟩
abbrev main_call1_v0 : Ref sig .tc := ⟨.hbm, 92, rfl⟩
abbrev main_v56 : Ref sig .tc := ⟨.hbm, 93, rfl⟩
abbrev main_v57 : Ref sig .tc := ⟨.hbm, 94, rfl⟩
abbrev main_v58 : Ref sig .tc := ⟨.hbm, 95, rfl⟩
abbrev main_v59 : Ref sig .tc := ⟨.hbm, 96, rfl⟩
abbrev main_c_11 : Ref sig .tc := ⟨.hbm, 97, rfl⟩
abbrev main_v60 : Ref sig .tc := ⟨.hbm, 98, rfl⟩
abbrev main_v61 : Ref sig .tc := ⟨.hbm, 99, rfl⟩
abbrev main_c_12 : Ref sig .tc := ⟨.hbm, 100, rfl⟩
abbrev main_v62 : Ref sig .tc := ⟨.hbm, 101, rfl⟩
abbrev main_v63 : Ref sig .tc := ⟨.hbm, 102, rfl⟩
abbrev main_v64 : Ref sig .tc := ⟨.hbm, 103, rfl⟩
abbrev main_v65 : Ref sig .tc := ⟨.hbm, 104, rfl⟩
abbrev main_v66 : Ref sig .tc := ⟨.hbm, 105, rfl⟩
abbrev main_cst_13 : Ref sig .tc := ⟨.hbm, 106, rfl⟩
abbrev main_v67 : Ref sig .tc := ⟨.hbm, 107, rfl⟩
abbrev main_v68 : Ref sig .tc := ⟨.hbm, 108, rfl⟩
abbrev main_v69 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩
abbrev main_v73 : Ref sig .tc := ⟨.hbm, 113, rfl⟩
abbrev main_v74 : Ref sig .tc := ⟨.hbm, 114, rfl⟩
abbrev main_v75 : Ref sig .tc := ⟨.hbm, 115, rfl⟩
abbrev main_v76 : Ref sig .tc := ⟨.hbm, 116, rfl⟩
abbrev main_call2_cst : Ref sig .tc := ⟨.hbm, 117, rfl⟩
abbrev main_call2_v0 : Ref sig .tc := ⟨.hbm, 118, rfl⟩
abbrev main_v77 : Ref sig .tc := ⟨.hbm, 119, rfl⟩
abbrev main_v78 : Ref sig .tc := ⟨.hbm, 120, rfl⟩
abbrev main_v79 : Ref sig .tc := ⟨.hbm, 121, rfl⟩
abbrev main_v80 : Ref sig .tc := ⟨.hbm, 122, rfl⟩
abbrev main_c_14 : Ref sig .tc := ⟨.hbm, 123, rfl⟩
abbrev main_v81 : Ref sig .tc := ⟨.hbm, 124, rfl⟩
abbrev main_v82 : Ref sig .tc := ⟨.hbm, 125, rfl⟩
abbrev main_c_15 : Ref sig .tc := ⟨.hbm, 126, rfl⟩
abbrev main_v83 : Ref sig .tc := ⟨.hbm, 127, rfl⟩
abbrev main_v84 : Ref sig .tc := ⟨.hbm, 128, rfl⟩
abbrev main_v85 : Ref sig .tc := ⟨.hbm, 129, rfl⟩
abbrev main_v86 : Ref sig .tc := ⟨.hbm, 130, rfl⟩
abbrev main_v87 : Ref sig .tc := ⟨.hbm, 131, rfl⟩
abbrev main_cst_16 : Ref sig .tc := ⟨.hbm, 132, rfl⟩
abbrev main_v88 : Ref sig .tc := ⟨.hbm, 133, rfl⟩
abbrev main_v89 : Ref sig .tc := ⟨.hbm, 134, rfl⟩
abbrev main_v90 : Ref sig .tc := ⟨.hbm, 135, rfl⟩
abbrev main_v91 : Ref sig .tc := ⟨.hbm, 136, rfl⟩
abbrev main_v92 : Ref sig .tc := ⟨.hbm, 137, rfl⟩
abbrev main_v93 : Ref sig .tc := ⟨.hbm, 138, rfl⟩
abbrev main_v94 : Ref sig .tc := ⟨.hbm, 139, rfl⟩
abbrev main_v95 : Ref sig .tc := ⟨.hbm, 140, rfl⟩
abbrev main_v96 : Ref sig .tc := ⟨.hbm, 141, rfl⟩
abbrev main_v97 : Ref sig .tc := ⟨.hbm, 142, rfl⟩
abbrev main_call3_cst : Ref sig .tc := ⟨.hbm, 143, rfl⟩
abbrev main_call3_v0 : Ref sig .tc := ⟨.hbm, 144, rfl⟩
abbrev main_v98 : Ref sig .tc := ⟨.hbm, 145, rfl⟩
abbrev main_v99 : Ref sig .tc := ⟨.hbm, 146, rfl⟩
abbrev main_v100 : Ref sig .tc := ⟨.hbm, 147, rfl⟩
abbrev main_v101 : Ref sig .tc := ⟨.hbm, 148, rfl⟩
abbrev main_c_17 : Ref sig .tc := ⟨.hbm, 149, rfl⟩
abbrev main_v102 : Ref sig .tc := ⟨.hbm, 150, rfl⟩
abbrev main_v103 : Ref sig .tc := ⟨.hbm, 151, rfl⟩
abbrev main_c_18 : Ref sig .tc := ⟨.hbm, 152, rfl⟩
abbrev main_v104 : Ref sig .tc := ⟨.hbm, 153, rfl⟩
abbrev main_v105 : Ref sig .tc := ⟨.hbm, 154, rfl⟩
abbrev main_v106 : Ref sig .tc := ⟨.hbm, 155, rfl⟩
abbrev main_v107 : Ref sig .tc := ⟨.hbm, 156, rfl⟩
abbrev main_v108 : Ref sig .tc := ⟨.hbm, 157, rfl⟩
abbrev main_cst_19 : Ref sig .tc := ⟨.hbm, 158, rfl⟩
abbrev main_v109 : Ref sig .tc := ⟨.hbm, 159, rfl⟩
abbrev main_v110 : Ref sig .tc := ⟨.hbm, 160, rfl⟩
abbrev main_v111 : Ref sig .tc := ⟨.hbm, 161, rfl⟩
abbrev main_v112 : Ref sig .tc := ⟨.hbm, 162, rfl⟩
abbrev main_v113 : Ref sig .tc := ⟨.hbm, 163, rfl⟩
abbrev main_v114 : Ref sig .tc := ⟨.hbm, 164, rfl⟩
abbrev main_v115 : Ref sig .tc := ⟨.hbm, 165, rfl⟩
abbrev main_v116 : Ref sig .tc := ⟨.hbm, 166, rfl⟩
abbrev main_v117 : Ref sig .tc := ⟨.hbm, 167, rfl⟩
abbrev main_v118 : Ref sig .tc := ⟨.hbm, 168, rfl⟩
abbrev main_call4_cst : Ref sig .tc := ⟨.hbm, 169, rfl⟩
abbrev main_call4_v0 : Ref sig .tc := ⟨.hbm, 170, rfl⟩
abbrev main_v119 : Ref sig .tc := ⟨.hbm, 171, rfl⟩
abbrev main_v120 : Ref sig .tc := ⟨.hbm, 172, rfl⟩
abbrev main_v121 : Ref sig .tc := ⟨.hbm, 173, rfl⟩
abbrev main_v122 : Ref sig .tc := ⟨.hbm, 174, rfl⟩
abbrev main_c_20 : Ref sig .tc := ⟨.hbm, 175, rfl⟩
abbrev main_v123 : Ref sig .tc := ⟨.hbm, 176, rfl⟩
abbrev main_v124 : Ref sig .tc := ⟨.hbm, 177, rfl⟩
abbrev main_c_21 : Ref sig .tc := ⟨.hbm, 178, rfl⟩
abbrev main_v125 : Ref sig .tc := ⟨.hbm, 179, rfl⟩
abbrev main_v126 : Ref sig .tc := ⟨.hbm, 180, rfl⟩
abbrev main_v127 : Ref sig .tc := ⟨.hbm, 181, rfl⟩
abbrev main_v128 : Ref sig .tc := ⟨.hbm, 182, rfl⟩
abbrev main_v129 : Ref sig .tc := ⟨.hbm, 183, rfl⟩
abbrev main_cst_22 : Ref sig .tc := ⟨.hbm, 184, rfl⟩
abbrev main_v130 : Ref sig .tc := ⟨.hbm, 185, rfl⟩
abbrev main_v131 : Ref sig .tc := ⟨.hbm, 186, rfl⟩
abbrev main_v132 : Ref sig .tc := ⟨.hbm, 187, rfl⟩
abbrev main_v133 : Ref sig .tc := ⟨.hbm, 188, rfl⟩
abbrev main_v134 : Ref sig .tc := ⟨.hbm, 189, rfl⟩
abbrev main_v135 : Ref sig .tc := ⟨.hbm, 190, rfl⟩
abbrev main_v136 : Ref sig .tc := ⟨.hbm, 191, rfl⟩
abbrev main_v137 : Ref sig .tc := ⟨.hbm, 192, rfl⟩
abbrev main_v138 : Ref sig .tc := ⟨.hbm, 193, rfl⟩
abbrev main_v139 : Ref sig .tc := ⟨.hbm, 194, rfl⟩
abbrev main_call5_cst : Ref sig .tc := ⟨.hbm, 195, rfl⟩
abbrev main_call5_v0 : Ref sig .tc := ⟨.hbm, 196, rfl⟩
abbrev main_v140 : Ref sig .tc := ⟨.hbm, 197, rfl⟩
abbrev main_cst_23 : Ref sig .tc := ⟨.hbm, 198, rfl⟩
abbrev main_v141 : Ref sig .tc := ⟨.hbm, 199, rfl⟩
abbrev main_cst_24 : Ref sig .tc := ⟨.hbm, 200, rfl⟩
abbrev main_v142 : Ref sig .tc := ⟨.hbm, 201, rfl⟩
abbrev main_v143 : Ref sig .tc := ⟨.hbm, 202, rfl⟩
abbrev main_v144 : Ref sig .tc := ⟨.hbm, 203, rfl⟩
abbrev main_cst_25 : Ref sig .tc := ⟨.hbm, 204, rfl⟩
abbrev main_v145 : Ref sig .tc := ⟨.hbm, 205, rfl⟩
abbrev main_v146 : Ref sig .tc := ⟨.hbm, 206, rfl⟩
abbrev main_v147 : Ref sig .tc := ⟨.hbm, 207, rfl⟩
abbrev main_cst_26 : Ref sig .tc := ⟨.hbm, 208, rfl⟩
abbrev main_v148 : Ref sig .tc := ⟨.hbm, 209, rfl⟩
abbrev main_v149 : Ref sig .tc := ⟨.hbm, 210, rfl⟩
abbrev main_v150 : Ref sig .tc := ⟨.hbm, 211, rfl⟩
abbrev main_v151 : Ref sig .tc := ⟨.hbm, 212, rfl⟩
abbrev main_v152 : Ref sig .tc := ⟨.hbm, 213, rfl⟩
abbrev main_v153 : Ref sig .tc := ⟨.hbm, 214, rfl⟩
abbrev main_v154 : Ref sig .tc := ⟨.hbm, 215, rfl⟩
abbrev main_v155 : Ref sig .tc := ⟨.hbm, 216, rfl⟩
abbrev main_v156 : Ref sig .tc := ⟨.hbm, 217, rfl⟩
abbrev main_call6_cst : Ref sig .tc := ⟨.hbm, 218, rfl⟩
abbrev main_call6_v0 : Ref sig .tc := ⟨.hbm, 219, rfl⟩
abbrev main_v157 : Ref sig .tc := ⟨.hbm, 220, rfl⟩
abbrev main_v158 : Ref sig .tc := ⟨.hbm, 221, rfl⟩
abbrev main_v159 : Ref sig .tc := ⟨.hbm, 222, rfl⟩
abbrev main_v160 : Ref sig .tc := ⟨.hbm, 223, rfl⟩
abbrev main_v161 : Ref sig .tc := ⟨.hbm, 224, rfl⟩
abbrev main_c_27 : Ref sig .tc := ⟨.hbm, 225, rfl⟩
abbrev main_v162 : Ref sig .tc := ⟨.hbm, 226, rfl⟩
abbrev main_v163 : Ref sig .tc := ⟨.hbm, 227, rfl⟩
abbrev main_c_28 : Ref sig .tc := ⟨.hbm, 228, rfl⟩
abbrev main_v164 : Ref sig .tc := ⟨.hbm, 229, rfl⟩
abbrev main_v165 : Ref sig .tc := ⟨.hbm, 230, rfl⟩
abbrev main_v166 : Ref sig .tc := ⟨.hbm, 231, rfl⟩
abbrev main_v167 : Ref sig .tc := ⟨.hbm, 232, rfl⟩
abbrev main_v168 : Ref sig .tc := ⟨.hbm, 233, rfl⟩
abbrev main_cst_29 : Ref sig .tc := ⟨.hbm, 234, rfl⟩
abbrev main_v169 : Ref sig .tc := ⟨.hbm, 235, rfl⟩
abbrev main_v170 : Ref sig .tc := ⟨.hbm, 236, rfl⟩
abbrev main_v171 : Ref sig .tc := ⟨.hbm, 237, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S64 : S_.BroadcastsInDim S64 (![] : Fin 0 → Fin S64.rank)
  bcast_S_S64x128 : S_.BroadcastsInDim S64x128 (![] : Fin 0 → Fin S64x128.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  bcast_S64_S1x64_1 : S64.BroadcastsInDim S1x64 (![1] : Fin 1 → Fin S1x64.rank)
  bcast_S1x64_S64x64_0_1 : S1x64.BroadcastsInDim S64x64 (![0, 1] : Fin 2 → Fin S64x64.rank)
  bcast_S_S64x64 : S_.BroadcastsInDim S64x64 (![] : Fin 0 → Fin S64x64.rank)
  bcast_S10_S1x10_1 : S10.BroadcastsInDim S1x10 (![1] : Fin 1 → Fin S1x10.rank)
  bcast_S1x10_S64x10_0_1 : S1x10.BroadcastsInDim S64x10 (![0, 1] : Fin 2 → Fin S64x10.rank)
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []
  scatter_S64_S50000x1_S50000_n_0_0_1_wf : ScatterDims.WF S64 S50000x1 S50000 [] [0] [0] 1
  scatter_S64x128_S50000x1_S50000x128_1_0_0_1_wf : ScatterDims.WF S64x128 S50000x1 S50000x128 [1] [0] [0] 1
  dot_S64x128_S128x64_S64x64_1_0_0_1_n_n_wf : DotDims.WF S64x128 S128x64 S64x64 [1] [0] [0] [1] [] []
  dot_S64x64_S64x10_S64x10_1_0_0_1_n_n_wf : DotDims.WF S64x64 S64x10 S64x10 [1] [0] [0] [1] [] []

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S64_S50000x1_S50000_n_0_0_1 : ScatterDims S64 S50000x1 S50000 where
  updateWindowDims := []
  insertedWindowDims := [0]
  scatterDimsToOperandDims := [0]
  indexVectorDim := 1
  wf := scatter_S64_S50000x1_S50000_n_0_0_1_wf
def scatter_S64x128_S50000x1_S50000x128_1_0_0_1 : ScatterDims S64x128 S50000x1 S50000x128 where
  updateWindowDims := [1]
  insertedWindowDims := [0]
  scatterDimsToOperandDims := [0]
  indexVectorDim := 1
  wf := scatter_S64x128_S50000x1_S50000x128_1_0_0_1_wf
def dot_S64x128_S128x64_S64x64_1_0_0_1_n_n : DotDims S64x128 S128x64 S64x64 where
  lhsContracting := [1]
  rhsContracting := [0]
  lhsNonContracting := [0]
  rhsNonContracting := [1]
  lhsBatch := []
  rhsBatch := []
  wf := dot_S64x128_S128x64_S64x64_1_0_0_1_n_n_wf
def dot_S64x64_S64x10_S64x10_1_0_0_1_n_n : DotDims S64x64 S64x10 S64x10 where
  lhsContracting := [1]
  rhsContracting := [0]
  lhsNonContracting := [0]
  rhsNonContracting := [1]
  lhsBatch := []
  rhsBatch := []
  wf := dot_S64x64_S64x10_S64x10_1_0_0_1_n_n_wf

class Facts : Prop extends Facts₀ where

variable [Facts]
-- ==== Proof.RunFinal.lean ====
/-
  The idealized kernel program's run, read to the end: from any launch memory every weakly fair execution of @main
  terminates without a fault, and every buffer that outlives the call — the arguments, every intermediate array, the
  two results — ends at the contents the program's fold of host stretches and kernel regions leaves in it.
-/
import proofs.«165483_j81535659148048_1_alg».proof.Proof.Gen.KernelIdeal.Frame

set_option maxRecDepth 16384

noncomputable section

namespace Cert.KernelIdeal.Final

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with every unscoped buffer of every core at the
    last boundary's contents: the segments' chain ends holding exactly those buffers at those contents, and the final
    memory is read against it. -/
theorem run_final : θ_run defs (onTc (τ := τ) (main (F := F))) ⟨m, fun _ => 0, ρ⟩ (fun r => ∀ c : Dev nD,
      ∀ b ∈ Pipeline.ucRefs τ sig, r.2.mem (((c : Thread nD τ)).1, b) = W15 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W15 m ρ c b)
    (hfin := fun c s' => by
      iintro ⟨⟨Hh, -⟩, HSI⟩
      unfold StableHlo.held
      imodintro
      iapply (pointsTo_read_all (Pipeline.ucRefs τ sig) (fun b => (((c : Thread nD τ)).1, b)) (W15 m ρ c) s')
      isplitl [Hh] <;> iassumption)
    (hQ := fun s h => h)

/-- A TensorCore buffer that is not scoped to a kernel ends at the last boundary's contents. -/
theorem run_final_ref : θ_run defs (onTc (τ := τ) (main (F := F))) ⟨m, fun _ => 0, ρ⟩ (fun r => ∀ c : Dev nD,
      ∀ b : Ref sig .tc, ¬ (Proc.devRef .tc b : DevRef τ sig).isScoped →
        r.2.mem ((c.tc : Thread nD τ).loc b) = W15 m ρ c (Proc.devRef .tc b)) :=
  (θ_run defs _ _).mono (fun _ h c b hb => h c _ (mem_uc b hb)) (run_final m ρ)

end Cert.KernelIdeal.Final

end
-- ==== Proof.LibPlainMatmul.lean ====
/-
  A kernel's plain matrix product read at an entry, over the extended reals.

  An [m, k] by [k, n] product accumulated into the zero block has, at entry (a, b), the sum over the contracted
  coordinate c of A (a, c) · B (c, b): the exact contraction has no accumulator left in it (the extended reals have one
  zero) and is the same sum the host's product of the same operands is.
-/
import Idealize.ShloMosaic.Lib.StackMember
import Idealize.ShloMosaic.PureOps.Ideal.Laws

noncomputable section

namespace Cert.Lib

open Idealize.ShloMosaic Idealize.ShloMosaic.ValueIdx

/-- Entry (a, b) of an [m, k] × [k, n] matrix product into a zero accumulator is `∑ c, A (a, c) · B (c, b)`. -/
theorem matmul_plain_zero_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant ⟨2, ![m, n]⟩ .f32 0x00000000#32) (ix2 a b)
      = ∑ c : Fin k, A (ix2 a c) * B (ix2 c b) :=
  (Ideal.matmul_constant_zero_apply (DotDims.plain m k n) prec A B (ix2 a b)).trans
    ((Ideal.dotGeneral_apply (DotDims.plain m k n) prec default A B (ix2 a b)).symm.trans
      (StackMember.dotGeneral_plain_apply prec A B a b))

end Cert.Lib

end
-- ==== Proof.LibRowBlockProduct.lean ====
/-
  A block of rows of a matrix product, over the extended reals.

  Rows off, …, off + m - 1 of X · W depend on those rows of X and on all of W only: entry (off + a, b) of the whole
  product is the sum over the contracted coordinate c of X (off + a, c) · W (c, b), and that is entry (a, b) of the product
  of the m-row block of X with W. So a kernel that multiplies one block of rows at a time (accumulating into zero) writes,
  block by block, the host's one whole product. How a block sits in its array is left to three index maps, about which
  only their coordinates are assumed: the left block's and the result block's rows are shifted by `off`, nothing else
  moves.
-/
import proofs.«165483_j81535659148048_1_alg».proof.Proof.LibPlainMatmul

noncomputable section

namespace Cert.Lib

open Idealize.ShloMosaic Idealize.ShloMosaic.ValueIdx

/-- The product of an m-row block of `X` (rows `off …`) with `W`, accumulated into zero, read at a block index `j`, is the
    whole product `X · W` read where the result block puts `j`. -/
theorem plain_product_row_block {m M k n : Nat} {φ₁ φ₂ : FTy} (prec : Option ContractPrecision)
    (x : FVec Ideal ⟨2, ![m, k]⟩ φ₁) (w : FVec Ideal ⟨2, ![k, n]⟩ φ₂)
    (X : FVec Ideal ⟨2, ![M, k]⟩ φ₁) (W : FVec Ideal ⟨2, ![k, n]⟩ φ₂)
    (ex : (⟨2, ![m, k]⟩ : Shape).Idx → (⟨2, ![M, k]⟩ : Shape).Idx)
    (ew : (⟨2, ![k, n]⟩ : Shape).Idx → (⟨2, ![k, n]⟩ : Shape).Idx)
    (eo : (⟨2, ![m, n]⟩ : Shape).Idx → (⟨2, ![M, n]⟩ : Shape).Idx) (off : Nat)
    (hx : ∀ y, x y = X (ex y)) (hw : ∀ y, w y = W (ew y))
    (hex0 : ∀ y, (ex y 0).val = off + (y 0).val) (hex1 : ∀ y, (ex y 1).val = (y 1).val)
    (hew0 : ∀ y, (ew y 0).val = (y 0).val) (hew1 : ∀ y, (ew y 1).val = (y 1).val)
    (heo0 : ∀ y, (eo y 0).val = off + (y 0).val) (heo1 : ∀ y, (eo y 1).val = (y 1).val)
    (j : (⟨2, ![m, n]⟩ : Shape).Idx) :
    matmul (DotDims.plain m k n) prec x w (constant ⟨2, ![m, n]⟩ .f32 0x00000000#32) j
      = Host.dotGeneral (DotDims.plain M k n) prec X W (eo j) := by
  obtain ⟨a, b, rfl⟩ : ∃ (a : Fin m) (b : Fin n), j = ix2 a b := ⟨j 0, j 1, eq_ix2 j⟩
  -- where the result block puts (a, b): row off + a, column b
  obtain ⟨a', b', hab⟩ : ∃ (a' : Fin M) (b' : Fin n), eo (ix2 a b) = ix2 a' b' :=
    ⟨eo (ix2 a b) 0, eo (ix2 a b) 1, eq_ix2 _⟩
  have ha' : a'.val = off + a.val := by
    have := heo0 (ix2 a b); rw [hab] at this; exact this
  have hb' : b'.val = b.val := by
    have := heo1 (ix2 a b); rw [hab] at this; exact this
  rw [matmul_plain_zero_apply, hab, StackMember.dotGeneral_plain_apply]
  refine Finset.sum_congr rfl fun c _ => ?_
  rw [hx, hw]
  have e1 : ex (ix2 a c) = ix2 a' c := by
    funext q; apply Fin.ext
    match q with
    | ⟨0, _⟩ => exact (hex0 (ix2 a c)).trans ha'.symm
    | ⟨1, _⟩ => exact hex1 (ix2 a c)
  have e2 : ew (ix2 c b) = ix2 c b' := by
    funext q; apply Fin.ext
    match q with
    | ⟨0, _⟩ => exact hew0 (ix2 c b)
    | ⟨1, _⟩ => exact (hew1 (ix2 c b)).trans hb'.symm
  rw [e1, e2]

end Cert.Lib

end
-- ==== Proof.LibHostSpread.lean ====
/-
  The host's spreading operation read at an index, for the small layouts a per-row statistic and a per-column bias go
  through: a scalar spread over a whole array reads the scalar everywhere; an [a, 1] column spread over [a, b] reads, at
  (p, c), the column's entry of row p; a [1, b] row spread over [a, b] reads the row's entry of column c; a vector [a]
  spread along dimension 0 of [a, 1] reads, at (i, ·), the vector at i — and is the same array as the vector recast to
  that column.
-/
import Idealize.ShloMosaic.Lib.Pipeline.Value
import Idealize.ShloMosaic.Lib.ValueIdx
import Idealize.ShloMosaic.Lib.ValueLayout

noncomputable section

namespace Cert.Lib

open Idealize.ShloMosaic Idealize.ShloMosaic.ValueIdx

variable {α : Type}

/-- A scalar spread over an array of any shape reads the scalar at every index. -/
theorem splat_apply {t : Shape} (h : (⟨0, ![]⟩ : Shape).BroadcastsInDim t (![] : Fin 0 → Fin t.rank))
    (x : (⟨0, ![]⟩ : Shape).Idx → α) (j : t.Idx) : broadcastInDim t ![] h x j = x ix0 :=
  broadcastInDim_apply ![] h x j ix0 (fun a => a.elim0)

/-- An `[a, 1]` column spread over `[a, b]` (both axes kept) reads, at `(p, c)`, the column's entry of row `p`. -/
theorem spread_a1_ab_apply {a b : ℕ} (v : (⟨2, ![a, 1]⟩ : Shape).Idx → α)
    (h : (⟨2, ![a, 1]⟩ : Shape).BroadcastsInDim ⟨2, ![a, b]⟩ (![0, 1] : Fin 2 → Fin 2)) (p : Fin a) (c : Fin b) :
    broadcastInDim ⟨2, ![a, b]⟩ ![0, 1] h v (ix2 p c) = v (ix2 p (0 : Fin 1)) := by
  refine broadcastInDim_apply ![0, 1] h v (ix2 p c) (ix2 p (0 : Fin 1)) fun ax => ?_
  match ax with
  | ⟨0, _⟩ =>
    show p.val = if a = 1 then 0 else p.val
    split
    · have := p.isLt; omega
    · rfl
  | ⟨1, _⟩ => rfl

/-- A `[1, b]` row spread over `[a, b]` (both axes kept) reads, at `(p, c)`, the row's entry of column `c`. -/
theorem spread_1b_ab_apply {a b : ℕ} (v : (⟨2, ![1, b]⟩ : Shape).Idx → α)
    (h : (⟨2, ![1, b]⟩ : Shape).BroadcastsInDim ⟨2, ![a, b]⟩ (![0, 1] : Fin 2 → Fin 2)) (p : Fin a) (c : Fin b) :
    broadcastInDim ⟨2, ![a, b]⟩ ![0, 1] h v (ix2 p c) = v (ix2 (0 : Fin 1) c) := by
  refine broadcastInDim_apply ![0, 1] h v (ix2 p c) (ix2 (0 : Fin 1) c) fun ax => ?_
  match ax with
  | ⟨0, _⟩ => rfl
  | ⟨1, _⟩ =>
    show c.val = if b = 1 then 0 else c.val
    split
    · have := c.isLt; omega
    · rfl

/-- A vector `[a]` spread along dimension 0 of `[a, 1]` reads, at `(i, u)`, the vector at `i`. -/
theorem spread_a_a1_apply {a : ℕ} (x : (⟨1, ![a]⟩ : Shape).Idx → α)
    (h : (⟨1, ![a]⟩ : Shape).BroadcastsInDim ⟨2, ![a, 1]⟩ (![0] : Fin 1 → Fin 2)) (i : Fin a) (u : Fin 1) :
    broadcastInDim ⟨2, ![a, 1]⟩ ![0] h x (ix2 i u) = x (ix1 i) := by
  refine broadcastInDim_apply ![0] h x (ix2 i u) (ix1 i) fun ax => ?_
  match ax with
  | ⟨0, _⟩ =>
    show i.val = if a = 1 then 0 else i.val
    split
    · have := i.isLt; omega
    · rfl

/-- A vector recast as a column is the vector spread along dimension 0 of the column's shape. -/
theorem shapeCast_col_eq_spread {a : ℕ} (x : (⟨1, ![a]⟩ : Shape).Idx → α)
    (h : (⟨1, ![a]⟩ : Shape).ShapeCasts ⟨2, ![a, 1]⟩)
    (h' : (⟨1, ![a]⟩ : Shape).BroadcastsInDim ⟨2, ![a, 1]⟩ (![0] : Fin 1 → Fin 2)) :
    shapeCast ⟨2, ![a, 1]⟩ x h = broadcastInDim ⟨2, ![a, 1]⟩ ![0] h' x := by
  funext j
  obtain ⟨i, u, rfl⟩ : ∃ (i : Fin a) (u : Fin 1), j = ix2 i u := ⟨j 0, j 1, eq_ix2 j⟩
  rw [spread_a_a1_apply x h' i u]
  refine shapeCast_apply x h _ _ ?_
  have hu : u.val = 0 := by omega
  rw [Shape.rowMajor_val_two, Shape.rowMajor_val_one]
  show i.val = i.val * 1 + u.val
  rw [hu, Nat.mul_one, Nat.add_zero]

end Cert.Lib

end
-- ==== Proof.LibConvBlock.lean ====
/-
  A block of rows of a graph-convolution layer, over the extended reals.

  The layer is Y = (A · W_l + B) + H · W_r, where B repeats one bias row over all rows, optionally followed by the rectifier
  max(·, 0). Rows off, …, off + m - 1 of Y depend on those rows of A and H and on all of W_l, W_r and the bias row only. So a
  kernel that computes one block of m rows at a time — each product accumulated into zero, the bias row repeated over the
  block's rows — writes, block by block, the host's whole-array layer: at a block index j its value is Y read where the
  result block puts j. The same holds for the plain linear layer X · W + B. How a block sits in its array is left to index
  maps of which only the coordinates are assumed (rows shifted by `off`, columns kept). Addition is never reordered, so
  nothing is assumed finite.
-/
import proofs.«165483_j81535659148048_1_alg».proof.Proof.LibRowBlockProduct
import proofs.«165483_j81535659148048_1_alg».proof.Proof.LibHostSpread
import Idealize.ShloMosaic.Lib.ValueIdx
import Idealize.ShloMosaic.Lib.ValueLayout

noncomputable section

namespace Cert.Lib

open Idealize.ShloMosaic Idealize.ShloMosaic.ValueIdx

/-- One bias row repeated over the rows of a block, read at a block index `j`, is the row repeated over the rows of the whole
    array read where the block puts `j`: both read the row at `j`'s column. -/
theorem bias_row_block {m M n : Nat} (brow : (⟨2, ![1, n]⟩ : Shape).Idx → EReal)
    (eo : (⟨2, ![m, n]⟩ : Shape).Idx → (⟨2, ![M, n]⟩ : Shape).Idx)
    (heo1 : ∀ y, (eo y 1).val = (y 1).val)
    (hk : (⟨2, ![1, n]⟩ : Shape).Broadcasts ⟨2, ![m, n]⟩)
    (hh : (⟨2, ![1, n]⟩ : Shape).BroadcastsInDim ⟨2, ![M, n]⟩ (![0, 1] : Fin 2 → Fin 2))
    (j : (⟨2, ![m, n]⟩ : Shape).Idx) :
    broadcastTo ⟨2, ![m, n]⟩ brow hk j = broadcastInDim ⟨2, ![M, n]⟩ ![0, 1] hh brow (eo j) := by
  obtain ⟨a, b, rfl⟩ : ∃ (a : Fin m) (b : Fin n), j = ix2 a b := ⟨j 0, j 1, eq_ix2 j⟩
  obtain ⟨a', b', hab⟩ : ∃ (a' : Fin M) (b' : Fin n), eo (ix2 a b) = ix2 a' b' :=
    ⟨eo (ix2 a b) 0, eo (ix2 a b) 1, eq_ix2 _⟩
  have hb' : b' = b := Fin.ext (by have := heo1 (ix2 a b); rw [hab] at this; exact this)
  rw [hab, broadcastTo_1b_ab_apply, spread_1b_ab_apply, hb']

/-- x · w + (the bias row over the block) on an m-row block, the product accumulated into zero, read at a block index `j`, is
    X · w + (the bias row over the array) read where the result block puts `j`. -/
theorem linear_row_block {m M k n : Nat} {φ₁ φ₂ : FTy} (prec : Option ContractPrecision)
    (x : FVec Ideal ⟨2, ![m, k]⟩ φ₁) (w : FVec Ideal ⟨2, ![k, n]⟩ φ₂) (brow : FVec Ideal ⟨2, ![1, n]⟩ .f32)
    (X : FVec Ideal ⟨2, ![M, k]⟩ φ₁)
    (ex : (⟨2, ![m, k]⟩ : Shape).Idx → (⟨2, ![M, k]⟩ : Shape).Idx)
    (eo : (⟨2, ![m, n]⟩ : Shape).Idx → (⟨2, ![M, n]⟩ : Shape).Idx) (off : Nat)
    (hx : ∀ y, x y = X (ex y))
    (hex0 : ∀ y, (ex y 0).val = off + (y 0).val) (hex1 : ∀ y, (ex y 1).val = (y 1).val)
    (heo0 : ∀ y, (eo y 0).val = off + (y 0).val) (heo1 : ∀ y, (eo y 1).val = (y 1).val)
    (hk : (⟨2, ![1, n]⟩ : Shape).Broadcasts ⟨2, ![m, n]⟩)
    (hh : (⟨2, ![1, n]⟩ : Shape).BroadcastsInDim ⟨2, ![M, n]⟩ (![0, 1] : Fin 2 → Fin 2))
    (j : (⟨2, ![m, n]⟩ : Shape).Idx) :
    addf (matmul (DotDims.plain m k n) prec x w (constant ⟨2, ![m, n]⟩ .f32 0x00000000#32))
        (broadcastTo ⟨2, ![m, n]⟩ brow hk) j
      = addf (Host.dotGeneral (DotDims.plain M k n) prec X w) (broadcastInDim ⟨2, ![M, n]⟩ ![0, 1] hh brow) (eo j) := by
  rw [addf_apply, addf_apply,
    plain_product_row_block prec x w X w ex id eo off hx (fun _ => rfl) hex0 hex1 (fun _ => rfl) (fun _ => rfl) heo0 heo1 j,
    bias_row_block brow eo heo1 hk hh j]

/-- (a · w_l + bias row) + h · w_r on an m-row block, both products accumulated into zero, read at a block index `j`, is
    (A · w_l + bias row) + H · w_r read where the result block puts `j`. -/
theorem conv_row_block {m M k n : Nat} {φ₁ φ₂ φ₃ φ₄ : FTy} (prec : Option ContractPrecision)
    (xa : FVec Ideal ⟨2, ![m, k]⟩ φ₁) (xh : FVec Ideal ⟨2, ![m, k]⟩ φ₃)
    (wl : FVec Ideal ⟨2, ![k, n]⟩ φ₂) (wr : FVec Ideal ⟨2, ![k, n]⟩ φ₄) (brow : FVec Ideal ⟨2, ![1, n]⟩ .f32)
    (A : FVec Ideal ⟨2, ![M, k]⟩ φ₁) (H : FVec Ideal ⟨2, ![M, k]⟩ φ₃)
    (ea eh : (⟨2, ![m, k]⟩ : Shape).Idx → (⟨2, ![M, k]⟩ : Shape).Idx)
    (eo : (⟨2, ![m, n]⟩ : Shape).Idx → (⟨2, ![M, n]⟩ : Shape).Idx) (off : Nat)
    (hxa : ∀ y, xa y = A (ea y)) (hxh : ∀ y, xh y = H (eh y))
    (hea0 : ∀ y, (ea y 0).val = off + (y 0).val) (hea1 : ∀ y, (ea y 1).val = (y 1).val)
    (heh0 : ∀ y, (eh y 0).val = off + (y 0).val) (heh1 : ∀ y, (eh y 1).val = (y 1).val)
    (heo0 : ∀ y, (eo y 0).val = off + (y 0).val) (heo1 : ∀ y, (eo y 1).val = (y 1).val)
    (hk : (⟨2, ![1, n]⟩ : Shape).Broadcasts ⟨2, ![m, n]⟩)
    (hh : (⟨2, ![1, n]⟩ : Shape).BroadcastsInDim ⟨2, ![M, n]⟩ (![0, 1] : Fin 2 → Fin 2))
    (j : (⟨2, ![m, n]⟩ : Shape).Idx) :
    addf (addf (matmul (DotDims.plain m k n) prec xa wl (constant ⟨2, ![m, n]⟩ .f32 0x00000000#32))
          (broadcastTo ⟨2, ![m, n]⟩ brow hk))
        (matmul (DotDims.plain m k n) prec xh wr (constant ⟨2, ![m, n]⟩ .f32 0x00000000#32)) j
      = addf (addf (Host.dotGeneral (DotDims.plain M k n) prec A wl) (broadcastInDim ⟨2, ![M, n]⟩ ![0, 1] hh brow))
          (Host.dotGeneral (DotDims.plain M k n) prec H wr) (eo j) := by
  rw [addf_apply, addf_apply (addf _ _) _ (eo j),
    linear_row_block prec xa wl brow A ea eo off hxa hea0 hea1 heo0 heo1 hk hh j,
    plain_product_row_block prec xh wr H wr eh id eo off hxh (fun _ => rfl) heh0 heh1 (fun _ => rfl) (fun _ => rfl) heo0 heo1 j]

/-- The rectified layer: max((a · w_l + bias row) + h · w_r, z) on an m-row block against a splat of the constant `z`, read at
    a block index `j`, is the host's max of the whole-array layer and its spread of `z`, read where the result block puts `j`. -/
theorem conv_relu_row_block {m M k n : Nat} {φ₁ φ₂ φ₃ φ₄ : FTy} (prec : Option ContractPrecision)
    (xa : FVec Ideal ⟨2, ![m, k]⟩ φ₁) (xh : FVec Ideal ⟨2, ![m, k]⟩ φ₃)
    (wl : FVec Ideal ⟨2, ![k, n]⟩ φ₂) (wr : FVec Ideal ⟨2, ![k, n]⟩ φ₄) (brow : FVec Ideal ⟨2, ![1, n]⟩ .f32)
    (A : FVec Ideal ⟨2, ![M, k]⟩ φ₁) (H : FVec Ideal ⟨2, ![M, k]⟩ φ₃)
    (ea eh : (⟨2, ![m, k]⟩ : Shape).Idx → (⟨2, ![M, k]⟩ : Shape).Idx)
    (eo : (⟨2, ![m, n]⟩ : Shape).Idx → (⟨2, ![M, n]⟩ : Shape).Idx) (off : Nat)
    (hxa : ∀ y, xa y = A (ea y)) (hxh : ∀ y, xh y = H (eh y))
    (hea0 : ∀ y, (ea y 0).val = off + (y 0).val) (hea1 : ∀ y, (ea y 1).val = (y 1).val)
    (heh0 : ∀ y, (eh y 0).val = off + (y 0).val) (heh1 : ∀ y, (eh y 1).val = (y 1).val)
    (heo0 : ∀ y, (eo y 0).val = off + (y 0).val) (heo1 : ∀ y, (eo y 1).val = (y 1).val)
    (hk : (⟨2, ![1, n]⟩ : Shape).Broadcasts ⟨2, ![m, n]⟩)
    (hh : (⟨2, ![1, n]⟩ : Shape).BroadcastsInDim ⟨2, ![M, n]⟩ (![0, 1] : Fin 2 → Fin 2))
    (z : BitVec 32) (hz : (⟨0, ![]⟩ : Shape).BroadcastsInDim ⟨2, ![M, n]⟩ (![] : Fin 0 → Fin 2))
    (j : (⟨2, ![m, n]⟩ : Shape).Idx) :
    maximumf (addf (addf (matmul (DotDims.plain m k n) prec xa wl (constant ⟨2, ![m, n]⟩ .f32 0x00000000#32))
            (broadcastTo ⟨2, ![m, n]⟩ brow hk))
          (matmul (DotDims.plain m k n) prec xh wr (constant ⟨2, ![m, n]⟩ .f32 0x00000000#32)))
        (broadcast ⟨2, ![m, n]⟩ (Scalar.ofBits (F := Ideal) .f32 z)) j
      = maximumf (addf (addf (Host.dotGeneral (DotDims.plain M k n) prec A wl) (broadcastInDim ⟨2, ![M, n]⟩ ![0, 1] hh brow))
            (Host.dotGeneral (DotDims.plain M k n) prec H wr))
          (broadcastInDim ⟨2, ![M, n]⟩ ![] hz (constant ⟨0, ![]⟩ .f32 z)) (eo j) := by
  rw [maximumf_apply, maximumf_apply,
    conv_row_block prec xa xh wl wr brow A H ea eh eo off hxa hxh hea0 hea1 heh0 heh1 heo0 heo1 hk hh j, splat_apply]
  rfl

end Cert.Lib

end
-- ==== Proof.LibColumnLayout.lean ====
/-
  The two layout steps a per-row statistic (a row sum, mean or maximum kept as a column) goes through before it meets
  the rows again, read at an index, for any element type: a vector of per-row numbers [a] recast as a column [a, 1]
  (`Cert.Lib.shapeCast_a_a1_apply`: the column at (i, ·) is the vector at i), and the column spread over the b lanes
  of each row, [a, 1] → [a, b] (`Cert.Lib.broadcastTo_a1_ab_apply`: the spread block at (p, c) is the column at (p, 0)).
-/
import Idealize.ShloMosaic.Lib.ValueLayout

namespace Cert.Lib

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib
-- ==== Proof.LibScaledLayer.lean ====
/-
  A block of rows of a degree-normalised graph-convolution layer, over the extended reals.

  The layer is Y = max((A ⊙ s) · W + B, 0) ⊙ t: every row r of the aggregate A is first scaled by the number s r of its
  node, the scaled rows are multiplied by W, one bias row B is added to every row, the result is rectified, and every row
  is scaled again by the number t r of its node (the rectifier and the second scaling are optional). Rows
  off, …, off + m - 1 of Y depend on those rows of A, s and t and on all of W and B only. So a kernel that computes one
  block of m rows at a time — the product accumulated into zero, the columns s and t of the block spread over its lanes,
  the bias row repeated over its rows — writes, block by block, the host's whole-array layer: at a block index j its value
  is Y read where the result block puts j. How a block sits in its array is left to index maps of which only the
  coordinates are assumed (rows shifted by off, columns kept). No sum is reordered and no factor is moved across a sum, so
  nothing is assumed finite.
-/
import proofs.«165483_j81535659148048_1_alg».proof.Proof.LibConvBlock
import proofs.«165483_j81535659148048_1_alg».proof.Proof.LibColumnLayout

noncomputable section

namespace Cert.Lib

open Idealize.ShloMosaic Idealize.ShloMosaic.ValueIdx

/-- A block of a column of per-row numbers, spread over the k lanes of the block's rows, read at a block index y, is the
    whole column spread over the lanes of the array's rows read where the block puts y: both read the column at y's row. -/
theorem column_block {m M k : Nat} (s : (⟨2, ![m, 1]⟩ : Shape).Idx → EReal) (S : (⟨2, ![M, 1]⟩ : Shape).Idx → EReal)
    (es : (⟨2, ![m, 1]⟩ : Shape).Idx → (⟨2, ![M, 1]⟩ : Shape).Idx)
    (ex : (⟨2, ![m, k]⟩ : Shape).Idx → (⟨2, ![M, k]⟩ : Shape).Idx) (off : Nat)
    (hs : ∀ y, s y = S (es y))
    (hes0 : ∀ y, (es y 0).val = off + (y 0).val)
    (hex0 : ∀ y, (ex y 0).val = off + (y 0).val)
    (hk : (⟨2, ![m, 1]⟩ : Shape).Broadcasts ⟨2, ![m, k]⟩)
    (hh : (⟨2, ![M, 1]⟩ : Shape).BroadcastsInDim ⟨2, ![M, k]⟩ (![0, 1] : Fin 2 → Fin 2))
    (y : (⟨2, ![m, k]⟩ : Shape).Idx) :
    broadcastTo ⟨2, ![m, k]⟩ s hk y = broadcastInDim ⟨2, ![M, k]⟩ ![0, 1] hh S (ex y) := by
  obtain ⟨a, b, rfl⟩ : ∃ (a : Fin m) (b : Fin k), y = ix2 a b := ⟨y 0, y 1, eq_ix2 y⟩
  obtain ⟨a', b', hab⟩ : ∃ (a' : Fin M) (b' : Fin k), ex (ix2 a b) = ix2 a' b' :=
    ⟨ex (ix2 a b) 0, ex (ix2 a b) 1, eq_ix2 _⟩
  have ha' : a'.val = off + a.val := by
    have := hex0 (ix2 a b); rw [hab] at this; exact this
  rw [hab, broadcastTo_a1_ab_apply, spread_a1_ab_apply, hs]
  refine congrArg S ?_
  funext q; apply Fin.ext
  match q with
  | ⟨0, _⟩ => exact (hes0 (ix2 a (0 : Fin 1))).trans ha'.symm
  | ⟨1, _⟩ =>
    exact Nat.lt_one_iff.mp ((es (ix2 a (0 : Fin 1)) 1).isLt : (es (ix2 a (0 : Fin 1)) 1).val < 1)

/-- The scaled rows of a block are the block of the scaled rows: (x ⊙ s) read at a block index is (X ⊙ S) read where the
    block puts the index. -/
theorem scaled_rows_block {m M k : Nat}
    (x : FVec Ideal ⟨2, ![m, k]⟩ .f32) (s : FVec Ideal ⟨2, ![m, 1]⟩ .f32)
    (X : FVec Ideal ⟨2, ![M, k]⟩ .f32) (S : FVec Ideal ⟨2, ![M, 1]⟩ .f32)
    (ex : (⟨2, ![m, k]⟩ : Shape).Idx → (⟨2, ![M, k]⟩ : Shape).Idx)
    (es : (⟨2, ![m, 1]⟩ : Shape).Idx → (⟨2, ![M, 1]⟩ : Shape).Idx) (off : Nat)
    (hx : ∀ y, x y = X (ex y)) (hs : ∀ y, s y = S (es y))
    (hex0 : ∀ y, (ex y 0).val = off + (y 0).val)
    (hes0 : ∀ y, (es y 0).val = off + (y 0).val)
    (hk : (⟨2, ![m, 1]⟩ : Shape).Broadcasts ⟨2, ![m, k]⟩)
    (hh : (⟨2, ![M, 1]⟩ : Shape).BroadcastsInDim ⟨2, ![M, k]⟩ (![0, 1] : Fin 2 → Fin 2))
    (y : (⟨2, ![m, k]⟩ : Shape).Idx) :
    mulf x (broadcastTo ⟨2, ![m, k]⟩ s hk) y = mulf X (broadcastInDim ⟨2, ![M, k]⟩ ![0, 1] hh S) (ex y) := by
  rw [mulf_apply, mulf_apply, hx, column_block s S es ex off hs hes0 hex0 hk hh y]

/-- (x ⊙ s) · w + (the bias row over the block) on an m-row block, the product accumulated into zero, read at a block
    index j, is (X ⊙ S) · w + (the bias row over the array) read where the result block puts j. -/
theorem scaled_linear_row_block {m M k n : Nat} (prec : Option ContractPrecision)
    (x : FVec Ideal ⟨2, ![m, k]⟩ .f32) (s : FVec Ideal ⟨2, ![m, 1]⟩ .f32)
    (w : FVec Ideal ⟨2, ![k, n]⟩ .f32) (brow : FVec Ideal ⟨2, ![1, n]⟩ .f32)
    (X : FVec Ideal ⟨2, ![M, k]⟩ .f32) (S : FVec Ideal ⟨2, ![M, 1]⟩ .f32)
    (ex : (⟨2, ![m, k]⟩ : Shape).Idx → (⟨2, ![M, k]⟩ : Shape).Idx)
    (es : (⟨2, ![m, 1]⟩ : Shape).Idx → (⟨2, ![M, 1]⟩ : Shape).Idx)
    (eo : (⟨2, ![m, n]⟩ : Shape).Idx → (⟨2, ![M, n]⟩ : Shape).Idx) (off : Nat)
    (hx : ∀ y, x y = X (ex y)) (hs : ∀ y, s y = S (es y))
    (hex0 : ∀ y, (ex y 0).val = off + (y 0).val) (hex1 : ∀ y, (ex y 1).val = (y 1).val)
    (hes0 : ∀ y, (es y 0).val = off + (y 0).val)
    (heo0 : ∀ y, (eo y 0).val = off + (y 0).val) (heo1 : ∀ y, (eo y 1).val = (y 1).val)
    (hks : (⟨2, ![m, 1]⟩ : Shape).Broadcasts ⟨2, ![m, k]⟩)
    (hhs : (⟨2, ![M, 1]⟩ : Shape).BroadcastsInDim ⟨2, ![M, k]⟩ (![0, 1] : Fin 2 → Fin 2))
    (hk : (⟨2, ![1, n]⟩ : Shape).Broadcasts ⟨2, ![m, n]⟩)
    (hh : (⟨2, ![1, n]⟩ : Shape).BroadcastsInDim ⟨2, ![M, n]⟩ (![0, 1] : Fin 2 → Fin 2))
    (j : (⟨2, ![m, n]⟩ : Shape).Idx) :
    addf (matmul (DotDims.plain m k n) prec (mulf x (broadcastTo ⟨2, ![m, k]⟩ s hks)) w
          (constant ⟨2, ![m, n]⟩ .f32 0x00000000#32))
        (broadcastTo ⟨2, ![m, n]⟩ brow hk) j
      = addf (Host.dotGeneral (DotDims.plain M k n) prec (mulf X (broadcastInDim ⟨2, ![M, k]⟩ ![0, 1] hhs S)) w)
          (broadcastInDim ⟨2, ![M, n]⟩ ![0, 1] hh brow) (eo j) := by
  have hxs : ∀ y, mulf x (broadcastTo ⟨2, ![m, k]⟩ s hks) y = mulf X (broadcastInDim ⟨2, ![M, k]⟩ ![0, 1] hhs S) (ex y) :=
    fun y => scaled_rows_block x s X S ex es off hx hs hex0 hes0 hks hhs y
  rw [addf_apply, addf_apply,
    plain_product_row_block prec (mulf x (broadcastTo ⟨2, ![m, k]⟩ s hks)) w
      (mulf X (broadcastInDim ⟨2, ![M, k]⟩ ![0, 1] hhs S)) w ex id eo off hxs (fun _ => rfl) hex0 hex1
      (fun _ => rfl) (fun _ => rfl) heo0 heo1 j,
    bias_row_block brow eo heo1 hk hh j]

/-- The rectified layer: max((x ⊙ s) · w + bias row, z) on an m-row block against a splat of the constant z, read at a
    block index j, is the host's max of the whole-array layer and its spread of z, read where the result block puts j. -/
theorem relu_scaled_linear_row_block {m M k n : Nat} (prec : Option ContractPrecision)
    (x : FVec Ideal ⟨2, ![m, k]⟩ .f32) (s : FVec Ideal ⟨2, ![m, 1]⟩ .f32)
    (w : FVec Ideal ⟨2, ![k, n]⟩ .f32) (brow : FVec Ideal ⟨2, ![1, n]⟩ .f32)
    (X : FVec Ideal ⟨2, ![M, k]⟩ .f32) (S : FVec Ideal ⟨2, ![M, 1]⟩ .f32)
    (ex : (⟨2, ![m, k]⟩ : Shape).Idx → (⟨2, ![M, k]⟩ : Shape).Idx)
    (es : (⟨2, ![m, 1]⟩ : Shape).Idx → (⟨2, ![M, 1]⟩ : Shape).Idx)
    (eo : (⟨2, ![m, n]⟩ : Shape).Idx → (⟨2, ![M, n]⟩ : Shape).Idx) (off : Nat)
    (hx : ∀ y, x y = X (ex y)) (hs : ∀ y, s y = S (es y))
    (hex0 : ∀ y, (ex y 0).val = off + (y 0).val) (hex1 : ∀ y, (ex y 1).val = (y 1).val)
    (hes0 : ∀ y, (es y 0).val = off + (y 0).val)
    (heo0 : ∀ y, (eo y 0).val = off + (y 0).val) (heo1 : ∀ y, (eo y 1).val = (y 1).val)
    (hks : (⟨2, ![m, 1]⟩ : Shape).Broadcasts ⟨2, ![m, k]⟩)
    (hhs : (⟨2, ![M, 1]⟩ : Shape).BroadcastsInDim ⟨2, ![M, k]⟩ (![0, 1] : Fin 2 → Fin 2))
    (hk : (⟨2, ![1, n]⟩ : Shape).Broadcasts ⟨2, ![m, n]⟩)
    (hh : (⟨2, ![1, n]⟩ : Shape).BroadcastsInDim ⟨2, ![M, n]⟩ (![0, 1] : Fin 2 → Fin 2))
    (z : BitVec 32) (hz : (⟨0, ![]⟩ : Shape).BroadcastsInDim ⟨2, ![M, n]⟩ (![] : Fin 0 → Fin 2))
    (j : (⟨2, ![m, n]⟩ : Shape).Idx) :
    maximumf (addf (matmul (DotDims.plain m k n) prec (mulf x (broadcastTo ⟨2, ![m, k]⟩ s hks)) w
            (constant ⟨2, ![m, n]⟩ .f32 0x00000000#32))
          (broadcastTo ⟨2, ![m, n]⟩ brow hk))
        (broadcast ⟨2, ![m, n]⟩ (Scalar.ofBits (F := Ideal) .f32 z)) j
      = maximumf (addf (Host.dotGeneral (DotDims.plain M k n) prec (mulf X (broadcastInDim ⟨2, ![M, k]⟩ ![0, 1] hhs S)) w)
            (broadcastInDim ⟨2, ![M, n]⟩ ![0, 1] hh brow))
          (broadcastInDim ⟨2, ![M, n]⟩ ![] hz (constant ⟨0, ![]⟩ .f32 z)) (eo j) := by
  rw [maximumf_apply, maximumf_apply,
    scaled_linear_row_block prec x s w brow X S ex es eo off hx hs hex0 hex1 hes0 heo0 heo1 hks hhs hk hh j,
    splat_apply]
  rfl

/-- A second scaling of the rows: (y ⊙ t) on a block, read at a block index j, is (Y ⊙ T) read where the block puts j,
    once y at j is Y where the block puts j. -/
theorem rescaled_row_block {m M n : Nat}
    (y : FVec Ideal ⟨2, ![m, n]⟩ .f32) (t : FVec Ideal ⟨2, ![m, 1]⟩ .f32)
    (Y : FVec Ideal ⟨2, ![M, n]⟩ .f32) (T : FVec Ideal ⟨2, ![M, 1]⟩ .f32)
    (et : (⟨2, ![m, 1]⟩ : Shape).Idx → (⟨2, ![M, 1]⟩ : Shape).Idx)
    (eo : (⟨2, ![m, n]⟩ : Shape).Idx → (⟨2, ![M, n]⟩ : Shape).Idx) (off : Nat)
    (ht : ∀ q, t q = T (et q))
    (het0 : ∀ q, (et q 0).val = off + (q 0).val)
    (heo0 : ∀ q, (eo q 0).val = off + (q 0).val)
    (hk : (⟨2, ![m, 1]⟩ : Shape).Broadcasts ⟨2, ![m, n]⟩)
    (hh : (⟨2, ![M, 1]⟩ : Shape).BroadcastsInDim ⟨2, ![M, n]⟩ (![0, 1] : Fin 2 → Fin 2))
    (j : (⟨2, ![m, n]⟩ : Shape).Idx) (hy : y j = Y (eo j)) :
    mulf y (broadcastTo ⟨2, ![m, n]⟩ t hk) j = mulf Y (broadcastInDim ⟨2, ![M, n]⟩ ![0, 1] hh T) (eo j) := by
  rw [mulf_apply, mulf_apply, hy, column_block t T et eo off ht het0 heo0 hk hh j]

end Cert.Lib

end
-- ==== Proof.LibKernelHostForms.lean ====
/-
  Three kernel-side operations and the host operations they are, as whole arrays over the extended reals.

  A kernel's matrix product of operands rounded to bf16, accumulated into zero, is the host's dot_general of the
  unrounded operands, for any dimension numbers: rounding is the identity on the extended reals and both products are
  the sum over the contracted coordinates. A [1, b] row broadcast over [a, b] by the kernel's vector broadcast is the
  host's broadcast_in_dim along dimensions [0, 1]. A scalar constant splat over an array by the kernel is the host's
  broadcast of the constant scalar.
-/
import proofs.«165483_j81535659148048_1_alg».proof.Proof.LibHostSpread
import Idealize.ShloMosaic.Lib.Pipeline.Value
import Idealize.ShloMosaic.Lib.ValueIdx
import Idealize.ShloMosaic.Lib.ValueLayout
import Idealize.ShloMosaic.PureOps.Ideal.Laws

noncomputable section

namespace Cert.Lib

open Idealize.ShloMosaic Idealize.ShloMosaic.ValueIdx

/-- A product into the zero accumulator of operands rounded to bf16 is the host's product of the operands: rounding is
    the identity on the extended reals, and both products are the sum over the contracted coordinate. -/
theorem rounded_product {sl sr so : Shape} (d : DotDims sl sr so) (prec : Option ContractPrecision)
    (a : FVec Ideal sl .f32) (b : FVec Ideal sr .f32) (h1 : FTy.bf16.bits < FTy.f32.bits) (h2 : FTy.bf16.bits < FTy.f32.bits) :
    matmul d prec (truncf .bf16 a h1) (truncf .bf16 b h2) (constant so .f32 0x00000000#32) = Host.dotGeneral d prec a b := by
  funext j
  exact (Ideal.matmul_constant_zero_apply d prec (truncf .bf16 a h1) (truncf .bf16 b h2) j).trans
    (Ideal.dotGeneral_apply d prec default a b j).symm

/-- One row spread over many rows, by the kernel's broadcast and by the host's, is the same array. -/
theorem row_spread {α : Type} {a b : ℕ} (v : (⟨2, ![1, b]⟩ : Shape).Idx → α)
    (h : (⟨2, ![1, b]⟩ : Shape).Broadcasts ⟨2, ![a, b]⟩)
    (h' : (⟨2, ![1, b]⟩ : Shape).BroadcastsInDim ⟨2, ![a, b]⟩ (![0, 1] : Fin 2 → Fin 2)) :
    broadcastTo ⟨2, ![a, b]⟩ v h = broadcastInDim ⟨2, ![a, b]⟩ ![0, 1] h' v := by
  funext j
  obtain ⟨p, q, rfl⟩ : ∃ (p : Fin a) (q : Fin b), j = ix2 p q := ⟨j 0, j 1, eq_ix2 j⟩
  rw [broadcastTo_1b_ab_apply, spread_1b_ab_apply]

/-- A scalar constant spread over an array, by the kernel's splat and by the host's, is the same array. -/
theorem zero_splat {t : Shape} (w : BitVec 32) (h : (⟨0, ![]⟩ : Shape).BroadcastsInDim t (![] : Fin 0 → Fin t.rank)) :
    (broadcast t (Scalar.ofBits (F := Ideal) .f32 w) : FVec Ideal t .f32) = broadcastInDim t ![] h (constant ⟨0, ![]⟩ .f32 w) := by
  funext j
  rw [splat_apply]
  rfl

end Cert.Lib

end
-- ==== Proof.LibRectifiedLayer.lean ====
/-
  One graph-convolution layer on rows, over the extended reals: Y = max((A ⊙ s) · W + b, 0).

  Row r of the aggregate A is scaled by the number s r of its node (s a column [M, 1]), the scaled rows are multiplied
  by the weight matrix W, the bias row b ([1, n]) is added to every row and the result is rectified. The definition is
  the host's way of writing it: the column and the row spread over the array by broadcasts, one plain dot_general.
  A kernel that holds m consecutive rows of A and s, all of W and b, rounds both operands of the product to bf16 (the
  identity on the extended reals), accumulates the product into zero and spreads s over the lanes and b over the rows
  computes, at a block index j, the layer's entry where the result block puts j: rows off, …, off + m - 1 of Y depend on
  those rows of A and s only. No sum is reordered and no factor crosses a sum, so nothing is assumed finite.
-/
import proofs.«165483_j81535659148048_1_alg».proof.Proof.LibScaledLayer
import proofs.«165483_j81535659148048_1_alg».proof.Proof.LibKernelHostForms

noncomputable section

namespace Cert.Layer

open Idealize.ShloMosaic Idealize.ShloMosaic.ValueIdx

/-- The layer max((X ⊙ S) · w + brow, 0) as the host computes it on whole arrays. -/
def hostLayer {M k n : Nat}
    (hs : (⟨2, ![M, 1]⟩ : Shape).BroadcastsInDim ⟨2, ![M, k]⟩ (![0, 1] : Fin 2 → Fin 2))
    (hb : (⟨2, ![1, n]⟩ : Shape).BroadcastsInDim ⟨2, ![M, n]⟩ (![0, 1] : Fin 2 → Fin 2))
    (hz : (⟨0, ![]⟩ : Shape).BroadcastsInDim ⟨2, ![M, n]⟩ (![] : Fin 0 → Fin 2))
    (X : FVec Ideal ⟨2, ![M, k]⟩ .f32) (S : FVec Ideal ⟨2, ![M, 1]⟩ .f32)
    (w : FVec Ideal ⟨2, ![k, n]⟩ .f32) (brow : FVec Ideal ⟨2, ![1, n]⟩ .f32) : FVec Ideal ⟨2, ![M, n]⟩ .f32 :=
  maximumf
    (addf (Host.dotGeneral (F := Ideal) (DotDims.plain M k n) none (mulf X (broadcastInDim ⟨2, ![M, k]⟩ ![0, 1] hs S)) w)
      (broadcastInDim ⟨2, ![M, n]⟩ ![0, 1] hb brow))
    (broadcastInDim ⟨2, ![M, n]⟩ ![] hz (constant (F := Ideal) ⟨0, ![]⟩ .f32 0x00000000#32))

/-- A product into the zero accumulator is the same whether or not its operands are first rounded to bf16. -/
theorem rounded_matmul {sl sr so : Shape} (d : DotDims sl sr so) (prec : Option ContractPrecision)
    (a : FVec Ideal sl .f32) (b : FVec Ideal sr .f32) (h1 : FTy.bf16.bits < FTy.f32.bits) (h2 : FTy.bf16.bits < FTy.f32.bits) :
    matmul d prec (truncf .bf16 a h1) (truncf .bf16 b h2) (constant (F := Ideal) so .f32 0x00000000#32)
      = matmul d prec a b (constant (F := Ideal) so .f32 0x00000000#32) := by
  funext j
  exact (Ideal.matmul_constant_zero_apply d prec (truncf .bf16 a h1) (truncf .bf16 b h2) j).trans
    (Ideal.matmul_constant_zero_apply d prec a b j).symm

/-- A block of m rows of the layer, computed the kernel's way from the block's rows of X and S, read at a block index j,
    is the layer read where the result block puts j. -/
theorem block_rows {m M k n : Nat}
    (x : FVec Ideal ⟨2, ![m, k]⟩ .f32) (s : FVec Ideal ⟨2, ![m, 1]⟩ .f32)
    (w : FVec Ideal ⟨2, ![k, n]⟩ .f32) (brow : FVec Ideal ⟨2, ![1, n]⟩ .f32)
    (X : FVec Ideal ⟨2, ![M, k]⟩ .f32) (S : FVec Ideal ⟨2, ![M, 1]⟩ .f32)
    (ex : (⟨2, ![m, k]⟩ : Shape).Idx → (⟨2, ![M, k]⟩ : Shape).Idx)
    (es : (⟨2, ![m, 1]⟩ : Shape).Idx → (⟨2, ![M, 1]⟩ : Shape).Idx)
    (eo : (⟨2, ![m, n]⟩ : Shape).Idx → (⟨2, ![M, n]⟩ : Shape).Idx) (off : Nat)
    (hx : ∀ y, x y = X (ex y)) (hsS : ∀ y, s y = S (es y))
    (hex0 : ∀ y, (ex y 0).val = off + (y 0).val) (hex1 : ∀ y, (ex y 1).val = (y 1).val)
    (hes0 : ∀ y, (es y 0).val = off + (y 0).val)
    (heo0 : ∀ y, (eo y 0).val = off + (y 0).val) (heo1 : ∀ y, (eo y 1).val = (y 1).val)
    (hks : (⟨2, ![m, 1]⟩ : Shape).Broadcasts ⟨2, ![m, k]⟩)
    (hk : (⟨2, ![1, n]⟩ : Shape).Broadcasts ⟨2, ![m, n]⟩)
    (hs : (⟨2, ![M, 1]⟩ : Shape).BroadcastsInDim ⟨2, ![M, k]⟩ (![0, 1] : Fin 2 → Fin 2))
    (hb : (⟨2, ![1, n]⟩ : Shape).BroadcastsInDim ⟨2, ![M, n]⟩ (![0, 1] : Fin 2 → Fin 2))
    (hz : (⟨0, ![]⟩ : Shape).BroadcastsInDim ⟨2, ![M, n]⟩ (![] : Fin 0 → Fin 2))
    (h1 : FTy.bf16.bits < FTy.f32.bits) (h2 : FTy.bf16.bits < FTy.f32.bits)
    (j : (⟨2, ![m, n]⟩ : Shape).Idx) :
    maximumf (addf (matmul (DotDims.plain m k n) none (truncf .bf16 (mulf x (broadcastTo ⟨2, ![m, k]⟩ s hks)) h1)
            (truncf .bf16 w h2) (constant (F := Ideal) ⟨2, ![m, n]⟩ .f32 0x00000000#32))
          (broadcastTo ⟨2, ![m, n]⟩ brow hk))
        (broadcast ⟨2, ![m, n]⟩ (Scalar.ofBits (F := Ideal) .f32 0x00000000#32)) j
      = hostLayer hs hb hz X S w brow (eo j) := by
  rw [rounded_matmul]
  unfold hostLayer
  exact Cert.Lib.relu_scaled_linear_row_block none x s w brow X S ex es eo off hx hsS hex0 hex1 hes0 heo0 heo1 hks hs hk hb
    0x00000000#32 hz j

end Cert.Layer

end
-- ==== Proof.BlockLayer.lean ====
/-
  The six kernel bodies are one function, and on a block of 5000 rows it is the graph-convolution layer's rows.

  Each body multiplies its 5000 rows of the aggregate by the block's column of row scales, rounds to bf16, multiplies by
  the rounded 128 × 128 weights into a zero accumulator, adds the bias row and rectifies. Read at a block index this is
  the whole-array layer (over the 50000 rows) read where the block's rows sit in the array.
-/
import proofs.«165483_j81535659148048_1_alg».proof.Proof.Gen.KernelIdeal.Skeleton
import proofs.«165483_j81535659148048_1_alg».proof.Proof.LibRectifiedLayer
import Idealize.ShloMosaic.Lib.Pipeline.Value

noncomputable section

namespace Cert.KernelIdeal.Block

open Cert.KernelIdeal Cert.KernelIdeal.Gen Idealize.ShloMosaic Idealize.ShloMosaic.ValueIdx

theorem hcol : S50000x1.BroadcastsInDim S50000x128 (![0, 1] : Fin 2 → Fin 2) := by decide
theorem hrow : S1x128.BroadcastsInDim S50000x128 (![0, 1] : Fin 2 → Fin 2) := by decide
theorem hzero : S_.BroadcastsInDim S50000x128 (![] : Fin 0 → Fin 2) := by decide

/-- The layer max((A ⊙ s) · W + b, 0) on the 50000 nodes' rows, s a column and b a row. -/
def layer (A : FVec Ideal S50000x128 .f32) (s : FVec Ideal S50000x1 .f32) (W : FVec Ideal S128x128 .f32)
    (b : FVec Ideal S1x128 .f32) : FVec Ideal S50000x128 .f32 :=
  Cert.Layer.hostLayer hcol hrow hzero A s W b

/-- The first body's value at a block index: the layer where the block's rows sit. -/
theorem pay0_at (x0 : FVec Ideal S5000x128 .f32) (x1 : FVec Ideal S5000x1 .f32) (x2 : FVec Ideal S128x128 .f32)
    (x3 : FVec Ideal S1x128 .f32) (X : FVec Ideal S50000x128 .f32) (S : FVec Ideal S50000x1 .f32)
    (ex : S5000x128.Idx → S50000x128.Idx) (es : S5000x1.Idx → S50000x1.Idx) (eo : S5000x128.Idx → S50000x128.Idx) (off : Nat)
    (hx : ∀ y, x0 y = X (ex y)) (hs : ∀ y, x1 y = S (es y))
    (hex0 : ∀ y, (ex y 0).val = off + (y 0).val) (hex1 : ∀ y, (ex y 1).val = (y 1).val)
    (hes0 : ∀ y, (es y 0).val = off + (y 0).val)
    (heo0 : ∀ y, (eo y 0).val = off + (y 0).val) (heo1 : ∀ y, (eo y 1).val = (y 1).val)
    (j : S5000x128.Idx) :
    k0_pay1 (F := Ideal) x0 x1 x2 x3 j = layer X S x2 x3 (eo j) := by
  unfold k0_pay1 layer
  simp only [shapeCast_self]
  exact Cert.Layer.block_rows x0 x1 x2 x3 X S ex es eo off hx hs hex0 hex1 hes0 heo0 heo1
    broadcasts_S5000x1_S5000x128 broadcasts_S1x128_S5000x128 hcol hrow hzero bitsLt_bf16_f32 bitsLt_bf16_f32 j

/-- The other five bodies are the first one. -/
theorem pay1_eq (x0 : FVec Ideal S5000x128 .f32) (x1 : FVec Ideal S5000x1 .f32) (x2 : FVec Ideal S128x128 .f32)
    (x3 : FVec Ideal S1x128 .f32) : k1_pay1 (F := Ideal) x0 x1 x2 x3 = k0_pay1 x0 x1 x2 x3 := rfl
theorem pay2_eq (x0 : FVec Ideal S5000x128 .f32) (x1 : FVec Ideal S5000x1 .f32) (x2 : FVec Ideal S128x128 .f32)
    (x3 : FVec Ideal S1x128 .f32) : k2_pay1 (F := Ideal) x0 x1 x2 x3 = k0_pay1 x0 x1 x2 x3 := rfl
theorem pay3_eq (x0 : FVec Ideal S5000x128 .f32) (x1 : FVec Ideal S5000x1 .f32) (x2 : FVec Ideal S128x128 .f32)
    (x3 : FVec Ideal S1x128 .f32) : k3_pay1 (F := Ideal) x0 x1 x2 x3 = k0_pay1 x0 x1 x2 x3 := rfl
theorem pay4_eq (x0 : FVec Ideal S5000x128 .f32) (x1 : FVec Ideal S5000x1 .f32) (x2 : FVec Ideal S128x128 .f32)
    (x3 : FVec Ideal S1x128 .f32) : k4_pay1 (F := Ideal) x0 x1 x2 x3 = k0_pay1 x0 x1 x2 x3 := rfl
theorem pay5_eq (x0 : FVec Ideal S5000x128 .f32) (x1 : FVec Ideal S5000x1 .f32) (x2 : FVec Ideal S128x128 .f32)
    (x3 : FVec Ideal S1x128 .f32) : k5_pay1 (F := Ideal) x0 x1 x2 x3 = k0_pay1 x0 x1 x2 x3 := rfl

end Cert.KernelIdeal.Block

end
-- ==== Proof.Region0.lean ====
/-
  The first kernel region, read from its blocks to the whole array.

  The region's grid has ten points; point t stages rows 5000 t, …, 5000 t + 4999 of the aggregate and of the column of
  row scales, all of the weights and the bias row, and writes back the same rows of the output. Every point's block is
  the layer's rows where the block sits, the ten blocks tile the 50000 rows, so the output array ends holding the layer
  of the arrays the region was entered with; the input arrays and every other buffer are as they were entered.
-/
import proofs.«165483_j81535659148048_1_alg».proof.Proof.Gen.KernelIdeal.Frame
import proofs.«165483_j81535659148048_1_alg».proof.Proof.BlockLayer

set_option maxRecDepth 16384

noncomputable section

namespace Cert.KernelIdeal.Region0

open Cert.KernelIdeal Cert.KernelIdeal.Gen Idealize.ShloMosaic Idealize.ShloMosaic.TcCoe Idealize.SL.Sem
open Idealize.ShloMosaic.ValueIdx
open Idealize.ShloMosaic.Pipeline (Dat Cfg Window)

section AtEntry

variable (V : (c : Dev nD) → (b : Ref sig .tc) → Buf (Elt Ideal) ((c : Thread nD τ).loc b))

theorem hz : (![0, 0] : Fin 2 → Nat) = fun _ => 0 := funext fun a => by fin_cases a <;> rfl

/-- The printed index maps over the ten points: the row blocks move with the point, the weights and the bias stay. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- The weights' block is the whole weight array at every point. -/
theorem weights_block (c : Dev nD) (t : Fin cfg0.N) :
    (iblk0 (F := Ideal) V c 2 t : S128x128.Idx → EReal) = V c main_arg4 := by
  obtain ⟨-, -, -, -, e0, e1, -⟩ := idx_facts t
  funext y
  show V c main_arg4 (((cfg0.win 2).blk t).view.emb y) = V c main_arg4 y
  refine congrArg (V c main_arg4) (funext fun a => Fin.ext ?_)
  match a with
  | ⟨0, _⟩ => show win0_2.index t (0 : Fin 2) * 128 + 1 * (y 0).val = (y 0).val; omega
  | ⟨1, _⟩ => show win0_2.index t (1 : Fin 2) * 128 + 1 * (y 1).val = (y 1).val; omega

/-- The bias row's block is the whole row at every point. -/
theorem bias_block (c : Dev nD) (t : Fin cfg0.N) :
    (iblk0 (F := Ideal) V c 3 t : S1x128.Idx → EReal) = V c main_v29 := by
  obtain ⟨-, -, -, -, -, -, e0, e1, -⟩ := idx_facts t
  funext y
  show V c main_v29 (((cfg0.win 3).blk t).view.emb y) = V c main_v29 y
  refine congrArg (V c main_v29) (funext fun a => Fin.ext ?_)
  match a with
  | ⟨0, _⟩ => show win0_3.index t (0 : Fin 2) * 1 + 1 * (y 0).val = (y 0).val; omega
  | ⟨1, _⟩ => show win0_3.index t (1 : Fin 2) * 128 + 1 * (y 1).val = (y 1).val; omega

/-- What point t writes back is block t of the layer of the arrays the region was entered with. -/
theorem flushed_eq (c : Dev nD) (t : Fin cfg0.N) :
    (dat0 (F := Ideal) V c).flushed 4 t
      = ((cfg0.win 4).blk t).view.read (Elt Ideal) (Block.layer (V c main_v27) (V c main_v28) (V c main_arg4) (V c main_v29)) := by
  show (cfg0.win 4).cut (grid0.coords t) ((dat0 (F := Ideal) V c).after 4 t) = _
  rw [after0_4]
  unfold out0_4
  rw [View.canon_unit_zero hz]
  simp only [View.ld_unit_zero (S := S5000x128) hz, View.ld_unit_zero (S := S5000x1) hz,
    View.ld_unit_zero (S := S128x128) hz, View.ld_unit_zero (S := S1x128) hz]
  obtain ⟨a0, a1, b0, b1, -, -, -, -, o0, o1⟩ := idx_facts t
  funext j
  show k0_pay1 (F := Ideal) (iblk0 V c 0 t) (iblk0 V c 1 t) (iblk0 V c 2 t) (iblk0 V c 3 t) j
    = Block.layer (V c main_v27) (V c main_v28) (V c main_arg4) (V c main_v29) (((cfg0.win 4).blk t).view.emb j)
  rw [weights_block V c t, bias_block V c t]
  exact Block.pay0_at (iblk0 V c 0 t) (iblk0 V c 1 t) (V c main_arg4) (V c main_v29) (V c main_v27) (V c main_v28)
    (((cfg0.win 0).blk t).view.emb) (((cfg0.win 1).blk t).view.emb) (((cfg0.win 4).blk t).view.emb) (t.val * 5000)
    (fun y => rfl) (fun y => rfl)
    (fun y => by show win0_0.index t (0 : Fin 2) * 5000 + 1 * (y 0).val = _; omega)
    (fun y => by show win0_0.index t (1 : Fin 2) * 128 + 1 * (y 1).val = _; omega)
    (fun y => by show win0_1.index t (0 : Fin 2) * 5000 + 1 * (y 0).val = _; omega)
    (fun y => by show win0_4.index t (0 : Fin 2) * 5000 + 1 * (y 0).val = _; omega)
    (fun y => by show win0_4.index t (1 : Fin 2) * 128 + 1 * (y 1).val = _; omega) j

/-- An index of the output array is in point t's block iff each coordinate is in the block's range on its axis. -/
theorem mem_blk (t : Fin cfg0.N) (i : S50000x128.Idx) :
    i ∈ ((cfg0.win 4).blk t).view.set
      ↔ ∀ a : Fin 2, win0_4.index t a * S5000x128.size a ≤ (i a).val ∧ (i a).val < win0_4.index t a * S5000x128.size a + S5000x128.size a := by
  show i ∈ ((View.whole main_v30).slice (win0_4.rect t)).set ↔ _
  rw [View.set_slice_whole, Rect.mem_set_unit]
  exact Iff.rfl

/-- The ten blocks tile the output: row r is in the block of point r / 5000. -/
theorem cover (i : S50000x128.Idx) :
    ∃ t : Fin cfg0.N, (cfg0.win 4).flush t = true ∧ i ∈ ((cfg0.win 4).blk t).view.set := by
  have hi0 : (i 0).val < 50000 := (i 0).isLt
  have hi1 : (i 1).val < 128 := (i 1).isLt
  have hN : (i 0).val / 5000 < cfg0.N := by
    show (i 0).val / 5000 < grid0.N
    rw [N_0]; omega
  obtain ⟨-, -, -, -, -, -, -, -, o0, o1⟩ := idx_facts ⟨(i 0).val / 5000, hN⟩
  refine ⟨⟨(i 0).val / 5000, hN⟩, flush0_4 _, ?_⟩
  rw [mem_blk]
  intro a
  match a with
  | ⟨0, _⟩ =>
    show win0_4.index ⟨(i 0).val / 5000, hN⟩ (0 : Fin 2) * 5000 ≤ (i 0).val
      ∧ (i 0).val < win0_4.index ⟨(i 0).val / 5000, hN⟩ (0 : Fin 2) * 5000 + 5000
    rw [o0]
    show (i 0).val / 5000 * 5000 ≤ (i 0).val ∧ (i 0).val < (i 0).val / 5000 * 5000 + 5000
    omega
  | ⟨1, _⟩ =>
    show win0_4.index ⟨(i 0).val / 5000, hN⟩ (1 : Fin 2) * 128 ≤ (i 1).val
      ∧ (i 1).val < win0_4.index ⟨(i 0).val / 5000, hN⟩ (1 : Fin 2) * 128 + 128
    rw [o1]
    omega

/-- The output array after the region: the layer of the arrays the region was entered with. -/
theorem final (c : Dev nD) :
    (dat0 (F := Ideal) V c).arrAt 4 cfg0.N = Block.layer (V c main_v27) (V c main_v28) (V c main_arg4) (V c main_v29) :=
  (dat0 (F := Ideal) V c).arrAt_eq_of_cover 4 _ (fun t _ => flushed_eq V c t) (cover)

end AtEntry

variable (m : (ℓ : Loc nD τ sig) → Buf (Elt Ideal) ℓ) (ρ : Dev nD → PrngReg)

/-- At the region's exit its output buffer holds the layer of the four input arrays as they were at its entry. -/
theorem exit_out (c : Dev nD) :
    W2 (F := Ideal) m ρ c (Proc.devRef .tc main_v30)
      = Block.layer (W1 (F := Ideal) m ρ c (Proc.devRef .tc main_v27)) (W1 (F := Ideal) m ρ c (Proc.devRef .tc main_v28))
          (W1 (F := Ideal) m ρ c (Proc.devRef .tc main_arg4)) (W1 (F := Ideal) m ρ c (Proc.devRef .tc main_v29)) :=
  (W2_arr m ρ c 4).trans (final (V1 m ρ) c)

/-- At the region's exit every other TensorCore buffer holds what it held at the entry. -/
theorem exit_keep (c : Dev nD) (b : Ref sig .tc) (hb : b ≠ main_v30) :
    W2 (F := Ideal) m ρ c (Proc.devRef .tc b) = W1 (F := Ideal) m ρ c (Proc.devRef .tc b) := by
  by_cases h : ∃ w, Pipeline.arrRef spec0 w = b
  · obtain ⟨w, rfl⟩ := h
    have hw : (cfg0.win w).isOut = false := by
      fin_cases w
      · rfl
      · rfl
      · rfl
      · rfl
      · exact absurd rfl hb
    exact (W2_arr m ρ c w).trans (((dat0 (F := Ideal) (V1 m ρ) c).arrAt_in w hw _).trans (A_eq0 (V1 m ρ) c w))
  · exact W2_of_ne m ρ c b fun w e => h ⟨w, e⟩

end Cert.KernelIdeal.Region0

end
-- ==== Proof.Region1.lean ====
/-
  The second kernel region, read from its blocks to the whole array.

  The region's grid has ten points; point t stages rows 5000 t, …, 5000 t + 4999 of the aggregate and of the column of
  row scales, all of the weights and the bias row, and writes back the same rows of the output. Every point's block is
  the layer's rows where the block sits, the ten blocks tile the 50000 rows, so the output array ends holding the layer
  of the arrays the region was entered with; the input arrays and every other buffer are as they were entered.
-/
import proofs.«165483_j81535659148048_1_alg».proof.Proof.Gen.KernelIdeal.Frame
import proofs.«165483_j81535659148048_1_alg».proof.Proof.BlockLayer

set_option maxRecDepth 16384

noncomputable section

namespace Cert.KernelIdeal.Region1

open Cert.KernelIdeal Cert.KernelIdeal.Gen Idealize.ShloMosaic Idealize.ShloMosaic.TcCoe Idealize.SL.Sem
open Idealize.ShloMosaic.ValueIdx
open Idealize.ShloMosaic.Pipeline (Dat Cfg Window)

section AtEntry

variable (V : (c : Dev nD) → (b : Ref sig .tc) → Buf (Elt Ideal) ((c : Thread nD τ).loc b))

theorem hz : (![0, 0] : Fin 2 → Nat) = fun _ => 0 := funext fun a => by fin_cases a <;> rfl

/-- The printed index maps over the ten points: the row blocks move with the point, the weights and the bias stay. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- The weights' block is the whole weight array at every point. -/
theorem weights_block (c : Dev nD) (t : Fin cfg1.N) :
    (iblk1 (F := Ideal) V c 2 t : S128x128.Idx → EReal) = V c main_arg6 := by
  obtain ⟨-, -, -, -, e0, e1, -⟩ := idx_facts t
  funext y
  show V c main_arg6 (((cfg1.win 2).blk t).view.emb y) = V c main_arg6 y
  refine congrArg (V c main_arg6) (funext fun a => Fin.ext ?_)
  match a with
  | ⟨0, _⟩ => show win1_2.index t (0 : Fin 2) * 128 + 1 * (y 0).val = (y 0).val; omega
  | ⟨1, _⟩ => show win1_2.index t (1 : Fin 2) * 128 + 1 * (y 1).val = (y 1).val; omega

/-- The bias row's block is the whole row at every point. -/
theorem bias_block (c : Dev nD) (t : Fin cfg1.N) :
    (iblk1 (F := Ideal) V c 3 t : S1x128.Idx → EReal) = V c main_v45 := by
  obtain ⟨-, -, -, -, -, -, e0, e1, -⟩ := idx_facts t
  funext y
  show V c main_v45 (((cfg1.win 3).blk t).view.emb y) = V c main_v45 y
  refine congrArg (V c main_v45) (funext fun a => Fin.ext ?_)
  match a with
  | ⟨0, _⟩ => show win1_3.index t (0 : Fin 2) * 1 + 1 * (y 0).val = (y 0).val; omega
  | ⟨1, _⟩ => show win1_3.index t (1 : Fin 2) * 128 + 1 * (y 1).val = (y 1).val; omega

/-- What point t writes back is block t of the layer of the arrays the region was entered with. -/
theorem flushed_eq (c : Dev nD) (t : Fin cfg1.N) :
    (dat1 (F := Ideal) V c).flushed 4 t
      = ((cfg1.win 4).blk t).view.read (Elt Ideal) (Block.layer (V c main_v43) (V c main_v44) (V c main_arg6) (V c main_v45)) := by
  show (cfg1.win 4).cut (grid1.coords t) ((dat1 (F := Ideal) V c).after 4 t) = _
  rw [after1_4]
  unfold out1_4
  rw [View.canon_unit_zero hz]
  simp only [View.ld_unit_zero (S := S5000x128) hz, View.ld_unit_zero (S := S5000x1) hz,
    View.ld_unit_zero (S := S128x128) hz, View.ld_unit_zero (S := S1x128) hz]
  rw [Block.pay1_eq]
  obtain ⟨a0, a1, b0, b1, -, -, -, -, o0, o1⟩ := idx_facts t
  funext j
  show k0_pay1 (F := Ideal) (iblk1 V c 0 t) (iblk1 V c 1 t) (iblk1 V c 2 t) (iblk1 V c 3 t) j
    = Block.layer (V c main_v43) (V c main_v44) (V c main_arg6) (V c main_v45) (((cfg1.win 4).blk t).view.emb j)
  rw [weights_block V c t, bias_block V c t]
  exact Block.pay0_at (iblk1 V c 0 t) (iblk1 V c 1 t) (V c main_arg6) (V c main_v45) (V c main_v43) (V c main_v44)
    (((cfg1.win 0).blk t).view.emb) (((cfg1.win 1).blk t).view.emb) (((cfg1.win 4).blk t).view.emb) (t.val * 5000)
    (fun y => rfl) (fun y => rfl)
    (fun y => by show win1_0.index t (0 : Fin 2) * 5000 + 1 * (y 0).val = _; omega)
    (fun y => by show win1_0.index t (1 : Fin 2) * 128 + 1 * (y 1).val = _; omega)
    (fun y => by show win1_1.index t (0 : Fin 2) * 5000 + 1 * (y 0).val = _; omega)
    (fun y => by show win1_4.index t (0 : Fin 2) * 5000 + 1 * (y 0).val = _; omega)
    (fun y => by show win1_4.index t (1 : Fin 2) * 128 + 1 * (y 1).val = _; omega) j

/-- An index of the output array is in point t's block iff each coordinate is in the block's range on its axis. -/
theorem mem_blk (t : Fin cfg1.N) (i : S50000x128.Idx) :
    i ∈ ((cfg1.win 4).blk t).view.set
      ↔ ∀ a : Fin 2, win1_4.index t a * S5000x128.size a ≤ (i a).val ∧ (i a).val < win1_4.index t a * S5000x128.size a + S5000x128.size a := by
  show i ∈ ((View.whole main_v46).slice (win1_4.rect t)).set ↔ _
  rw [View.set_slice_whole, Rect.mem_set_unit]
  exact Iff.rfl

/-- The ten blocks tile the output: row r is in the block of point r / 5000. -/
theorem cover (i : S50000x128.Idx) :
    ∃ t : Fin cfg1.N, (cfg1.win 4).flush t = true ∧ i ∈ ((cfg1.win 4).blk t).view.set := by
  have hi0 : (i 0).val < 50000 := (i 0).isLt
  have hi1 : (i 1).val < 128 := (i 1).isLt
  have hN : (i 0).val / 5000 < cfg1.N := by
    show (i 0).val / 5000 < grid1.N
    rw [N_1]; omega
  obtain ⟨-, -, -, -, -, -, -, -, o0, o1⟩ := idx_facts ⟨(i 0).val / 5000, hN⟩
  refine ⟨⟨(i 0).val / 5000, hN⟩, flush1_4 _, ?_⟩
  rw [mem_blk]
  intro a
  match a with
  | ⟨0, _⟩ =>
    show win1_4.index ⟨(i 0).val / 5000, hN⟩ (0 : Fin 2) * 5000 ≤ (i 0).val
      ∧ (i 0).val < win1_4.index ⟨(i 0).val / 5000, hN⟩ (0 : Fin 2) * 5000 + 5000
    rw [o0]
    show (i 0).val / 5000 * 5000 ≤ (i 0).val ∧ (i 0).val < (i 0).val / 5000 * 5000 + 5000
    omega
  | ⟨1, _⟩ =>
    show win1_4.index ⟨(i 0).val / 5000, hN⟩ (1 : Fin 2) * 128 ≤ (i 1).val
      ∧ (i 1).val < win1_4.index ⟨(i 0).val / 5000, hN⟩ (1 : Fin 2) * 128 + 128
    rw [o1]
    omega

/-- The output array after the region: the layer of the arrays the region was entered with. -/
theorem final (c : Dev nD) :
    (dat1 (F := Ideal) V c).arrAt 4 cfg1.N = Block.layer (V c main_v43) (V c main_v44) (V c main_arg6) (V c main_v45) :=
  (dat1 (F := Ideal) V c).arrAt_eq_of_cover 4 _ (fun t _ => flushed_eq V c t) (cover)

end AtEntry

variable (m : (ℓ : Loc nD τ sig) → Buf (Elt Ideal) ℓ) (ρ : Dev nD → PrngReg)

/-- At the region's exit its output buffer holds the layer of the four input arrays as they were at its entry. -/
theorem exit_out (c : Dev nD) :
    W4 (F := Ideal) m ρ c (Proc.devRef .tc main_v46)
      = Block.layer (W3 (F := Ideal) m ρ c (Proc.devRef .tc main_v43)) (W3 (F := Ideal) m ρ c (Proc.devRef .tc main_v44))
          (W3 (F := Ideal) m ρ c (Proc.devRef .tc main_arg6)) (W3 (F := Ideal) m ρ c (Proc.devRef .tc main_v45)) :=
  (W4_arr m ρ c 4).trans (final (V3 m ρ) c)

/-- At the region's exit every other TensorCore buffer holds what it held at the entry. -/
theorem exit_keep (c : Dev nD) (b : Ref sig .tc) (hb : b ≠ main_v46) :
    W4 (F := Ideal) m ρ c (Proc.devRef .tc b) = W3 (F := Ideal) m ρ c (Proc.devRef .tc b) := by
  by_cases h : ∃ w, Pipeline.arrRef spec1 w = b
  · obtain ⟨w, rfl⟩ := h
    have hw : (cfg1.win w).isOut = false := by
      fin_cases w
      · rfl
      · rfl
      · rfl
      · rfl
      · exact absurd rfl hb
    exact (W4_arr m ρ c w).trans (((dat1 (F := Ideal) (V3 m ρ) c).arrAt_in w hw _).trans (A_eq1 (V3 m ρ) c w))
  · exact W4_of_ne m ρ c b fun w e => h ⟨w, e⟩

end Cert.KernelIdeal.Region1

end
-- ==== Proof.Region2.lean ====
/-
  The third kernel region, read from its blocks to the whole array.

  The region's grid has ten points; point t stages rows 5000 t, …, 5000 t + 4999 of the aggregate and of the column of
  row scales, all of the weights and the bias row, and writes back the same rows of the output. Every point's block is
  the layer's rows where the block sits, the ten blocks tile the 50000 rows, so the output array ends holding the layer
  of the arrays the region was entered with; the input arrays and every other buffer are as they were entered.
-/
import proofs.«165483_j81535659148048_1_alg».proof.Proof.Gen.KernelIdeal.Frame
import proofs.«165483_j81535659148048_1_alg».proof.Proof.BlockLayer

set_option maxRecDepth 16384

noncomputable section

namespace Cert.KernelIdeal.Region2

open Cert.KernelIdeal Cert.KernelIdeal.Gen Idealize.ShloMosaic Idealize.ShloMosaic.TcCoe Idealize.SL.Sem
open Idealize.ShloMosaic.ValueIdx
open Idealize.ShloMosaic.Pipeline (Dat Cfg Window)

section AtEntry

variable (V : (c : Dev nD) → (b : Ref sig .tc) → Buf (Elt Ideal) ((c : Thread nD τ).loc b))

theorem hz : (![0, 0] : Fin 2 → Nat) = fun _ => 0 := funext fun a => by fin_cases a <;> rfl

/-- The printed index maps over the ten points: the row blocks move with the point, the weights and the bias stay. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

/-- The weights' block is the whole weight array at every point. -/
theorem weights_block (c : Dev nD) (t : Fin cfg2.N) :
    (iblk2 (F := Ideal) V c 2 t : S128x128.Idx → EReal) = V c main_arg8 := by
  obtain ⟨-, -, -, -, e0, e1, -⟩ := idx_facts t
  funext y
  show V c main_arg8 (((cfg2.win 2).blk t).view.emb y) = V c main_arg8 y
  refine congrArg (V c main_arg8) (funext fun a => Fin.ext ?_)
  match a with
  | ⟨0, _⟩ => show win2_2.index t (0 : Fin 2) * 128 + 1 * (y 0).val = (y 0).val; omega
  | ⟨1, _⟩ => show win2_2.index t (1 : Fin 2) * 128 + 1 * (y 1).val = (y 1).val; omega

/-- The bias row's block is the whole row at every point. -/
theorem bias_block (c : Dev nD) (t : Fin cfg2.N) :
    (iblk2 (F := Ideal) V c 3 t : S1x128.Idx → EReal) = V c main_v61 := by
  obtain ⟨-, -, -, -, -, -, e0, e1, -⟩ := idx_facts t
  funext y
  show V c main_v61 (((cfg2.win 3).blk t).view.emb y) = V c main_v61 y
  refine congrArg (V c main_v61) (funext fun a => Fin.ext ?_)
  match a with
  | ⟨0, _⟩ => show win2_3.index t (0 : Fin 2) * 1 + 1 * (y 0).val = (y 0).val; omega
  | ⟨1, _⟩ => show win2_3.index t (1 : Fin 2) * 128 + 1 * (y 1).val = (y 1).val; omega

/-- What point t writes back is block t of the layer of the arrays the region was entered with. -/
theorem flushed_eq (c : Dev nD) (t : Fin cfg2.N) :
    (dat2 (F := Ideal) V c).flushed 4 t
      = ((cfg2.win 4).blk t).view.read (Elt Ideal) (Block.layer (V c main_v59) (V c main_v60) (V c main_arg8) (V c main_v61)) := by
  show (cfg2.win 4).cut (grid2.coords t) ((dat2 (F := Ideal) V c).after 4 t) = _
  rw [after2_4]
  unfold out2_4
  rw [View.canon_unit_zero hz]
  simp only [View.ld_unit_zero (S := S5000x128) hz, View.ld_unit_zero (S := S5000x1) hz,
    View.ld_unit_zero (S := S128x128) hz, View.ld_unit_zero (S := S1x128) hz]
  rw [Block.pay2_eq]
  obtain ⟨a0, a1, b0, b1, -, -, -, -, o0, o1⟩ := idx_facts t
  funext j
  show k0_pay1 (F := Ideal) (iblk2 V c 0 t) (iblk2 V c 1 t) (iblk2 V c 2 t) (iblk2 V c 3 t) j
    = Block.layer (V c main_v59) (V c main_v60) (V c main_arg8) (V c main_v61) (((cfg2.win 4).blk t).view.emb j)
  rw [weights_block V c t, bias_block V c t]
  exact Block.pay0_at (iblk2 V c 0 t) (iblk2 V c 1 t) (V c main_arg8) (V c main_v61) (V c main_v59) (V c main_v60)
    (((cfg2.win 0).blk t).view.emb) (((cfg2.win 1).blk t).view.emb) (((cfg2.win 4).blk t).view.emb) (t.val * 5000)
    (fun y => rfl) (fun y => rfl)
    (fun y => by show win2_0.index t (0 : Fin 2) * 5000 + 1 * (y 0).val = _; omega)
    (fun y => by show win2_0.index t (1 : Fin 2) * 128 + 1 * (y 1).val = _; omega)
    (fun y => by show win2_1.index t (0 : Fin 2) * 5000 + 1 * (y 0).val = _; omega)
    (fun y => by show win2_4.index t (0 : Fin 2) * 5000 + 1 * (y 0).val = _; omega)
    (fun y => by show win2_4.index t (1 : Fin 2) * 128 + 1 * (y 1).val = _; omega) j

/-- An index of the output array is in point t's block iff each coordinate is in the block's range on its axis. -/
theorem mem_blk (t : Fin cfg2.N) (i : S50000x128.Idx) :
    i ∈ ((cfg2.win 4).blk t).view.set
      ↔ ∀ a : Fin 2, win2_4.index t a * S5000x128.size a ≤ (i a).val ∧ (i a).val < win2_4.index t a * S5000x128.size a + S5000x128.size a := by
  show i ∈ ((View.whole main_v62).slice (win2_4.rect t)).set ↔ _
  rw [View.set_slice_whole, Rect.mem_set_unit]
  exact Iff.rfl

/-- The ten blocks tile the output: row r is in the block of point r / 5000. -/
theorem cover (i : S50000x128.Idx) :
    ∃ t : Fin cfg2.N, (cfg2.win 4).flush t = true ∧ i ∈ ((cfg2.win 4).blk t).view.set := by
  have hi0 : (i 0).val < 50000 := (i 0).isLt
  have hi1 : (i 1).val < 128 := (i 1).isLt
  have hN : (i 0).val / 5000 < cfg2.N := by
    show (i 0).val / 5000 < grid2.N
    rw [N_2]; omega
  obtain ⟨-, -, -, -, -, -, -, -, o0, o1⟩ := idx_facts ⟨(i 0).val / 5000, hN⟩
  refine ⟨⟨(i 0).val / 5000, hN⟩, flush2_4 _, ?_⟩
  rw [mem_blk]
  intro a
  match a with
  | ⟨0, _⟩ =>
    show win2_4.index ⟨(i 0).val / 5000, hN⟩ (0 : Fin 2) * 5000 ≤ (i 0).val
      ∧ (i 0).val < win2_4.index ⟨(i 0).val / 5000, hN⟩ (0 : Fin 2) * 5000 + 5000
    rw [o0]
    show (i 0).val / 5000 * 5000 ≤ (i 0).val ∧ (i 0).val < (i 0).val / 5000 * 5000 + 5000
    omega
  | ⟨1, _⟩ =>
    show win2_4.index ⟨(i 0).val / 5000, hN⟩ (1 : Fin 2) * 128 ≤ (i 1).val
      ∧ (i 1).val < win2_4.index ⟨(i 0).val / 5000, hN⟩ (1 : Fin 2) * 128 + 128
    rw [o1]
    omega

/-- The output array after the region: the layer of the arrays the region was entered with. -/
theorem final (c : Dev nD) :
    (dat2 (F := Ideal) V c).arrAt 4 cfg2.N = Block.layer (V c main_v59) (V c main_v60) (V c main_arg8) (V c main_v61) :=
  (dat2 (F := Ideal) V c).arrAt_eq_of_cover 4 _ (fun t _ => flushed_eq V c t) (cover)

end AtEntry

variable (m : (ℓ : Loc nD τ sig) → Buf (Elt Ideal) ℓ) (ρ : Dev nD → PrngReg)

/-- At the region's exit its output buffer holds the layer of the four input arrays as they were at its entry. -/
theorem exit_out (c : Dev nD) :
    W6 (F := Ideal) m ρ c (Proc.devRef .tc main_v62)
      = Block.layer (W5 (F := Ideal) m ρ c (Proc.devRef .tc main_v59)) (W5 (F := Ideal) m ρ c (Proc.devRef .tc main_v60))
          (W5 (F := Ideal) m ρ c (Proc.devRef .tc main_arg8)) (W5 (F := Ideal) m ρ c (Proc.devRef .tc main_v61)) :=
  (W6_arr m ρ c 4).trans (final (V5 m ρ) c)

/-- At the region's exit every other TensorCore buffer holds what it held at the entry. -/
theorem exit_keep (c : Dev nD) (b : Ref sig .tc) (hb : b ≠ main_v62) :
    W6 (F := Ideal) m ρ c (Proc.devRef .tc b) = W5 (F := Ideal) m ρ c (Proc.devRef .tc b) := by
  by_cases h : ∃ w, Pipeline.arrRef spec2 w = b
  · obtain ⟨w, rfl⟩ := h
    have hw : (cfg2.win w).isOut = false := by
      fin_cases w
      · rfl
      · rfl
      · rfl
      · rfl
      · exact absurd rfl hb
    exact (W6_arr m ρ c w).trans (((dat2 (F := Ideal) (V5 m ρ) c).arrAt_in w hw _).trans (A_eq2 (V5 m ρ) c w))
  · exact W6_of_ne m ρ c b fun w e => h ⟨w, e⟩

end Cert.KernelIdeal.Region2

end
-- ==== Proof.Region3.lean ====
/-
  The fourth kernel region, read from its blocks to the whole array.

  The region's grid has ten points; point t stages rows 5000 t, …, 5000 t + 4999 of the aggregate and of the column of
  row scales, all of the weights and the bias row, and writes back the same rows of the output. Every point's block is
  the layer's rows where the block sits, the ten blocks tile the 50000 rows, so the output array ends holding the layer
  of the arrays the region was entered with; the input arrays and every other buffer are as they were entered.
-/
import proofs.«165483_j81535659148048_1_alg».proof.Proof.Gen.KernelIdeal.Frame
import proofs.«165483_j81535659148048_1_alg».proof.Proof.BlockLayer

set_option maxRecDepth 16384

noncomputable section

namespace Cert.KernelIdeal.Region3

open Cert.KernelIdeal Cert.KernelIdeal.Gen Idealize.ShloMosaic Idealize.ShloMosaic.TcCoe Idealize.SL.Sem
open Idealize.ShloMosaic.ValueIdx
open Idealize.ShloMosaic.Pipeline (Dat Cfg Window)

section AtEntry

variable (V : (c : Dev nD) → (b : Ref sig .tc) → Buf (Elt Ideal) ((c : Thread nD τ).loc b))

theorem hz : (![0, 0] : Fin 2 → Nat) = fun _ => 0 := funext fun a => by fin_cases a <;> rfl

/-- The printed index maps over the ten points: the row blocks move with the point, the weights and the bias stay. -/
theorem idx_facts : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0 :=
  (by decide +kernel : ∀ t : Fin grid3.N, _)

/-- The weights' block is the whole weight array at every point. -/
theorem weights_block (c : Dev nD) (t : Fin cfg3.N) :
    (iblk3 (F := Ideal) V c 2 t : S128x128.Idx → EReal) = V c main_arg10 := by
  obtain ⟨-, -, -, -, e0, e1, -⟩ := idx_facts t
  funext y
  show V c main_arg10 (((cfg3.win 2).blk t).view.emb y) = V c main_arg10 y
  refine congrArg (V c main_arg10) (funext fun a => Fin.ext ?_)
  match a with
  | ⟨0, _⟩ => show win3_2.index t (0 : Fin 2) * 128 + 1 * (y 0).val = (y 0).val; omega
  | ⟨1, _⟩ => show win3_2.index t (1 : Fin 2) * 128 + 1 * (y 1).val = (y 1).val; omega

/-- The bias row's block is the whole row at every point. -/
theorem bias_block (c : Dev nD) (t : Fin cfg3.N) :
    (iblk3 (F := Ideal) V c 3 t : S1x128.Idx → EReal) = V c main_v77 := by
  obtain ⟨-, -, -, -, -, -, e0, e1, -⟩ := idx_facts t
  funext y
  show V c main_v77 (((cfg3.win 3).blk t).view.emb y) = V c main_v77 y
  refine congrArg (V c main_v77) (funext fun a => Fin.ext ?_)
  match a with
  | ⟨0, _⟩ => show win3_3.index t (0 : Fin 2) * 1 + 1 * (y 0).val = (y 0).val; omega
  | ⟨1, _⟩ => show win3_3.index t (1 : Fin 2) * 128 + 1 * (y 1).val = (y 1).val; omega

/-- What point t writes back is block t of the layer of the arrays the region was entered with. -/
theorem flushed_eq (c : Dev nD) (t : Fin cfg3.N) :
    (dat3 (F := Ideal) V c).flushed 4 t
      = ((cfg3.win 4).blk t).view.read (Elt Ideal) (Block.layer (V c main_v75) (V c main_v76) (V c main_arg10) (V c main_v77)) := by
  show (cfg3.win 4).cut (grid3.coords t) ((dat3 (F := Ideal) V c).after 4 t) = _
  rw [after3_4]
  unfold out3_4
  rw [View.canon_unit_zero hz]
  simp only [View.ld_unit_zero (S := S5000x128) hz, View.ld_unit_zero (S := S5000x1) hz,
    View.ld_unit_zero (S := S128x128) hz, View.ld_unit_zero (S := S1x128) hz]
  rw [Block.pay3_eq]
  obtain ⟨a0, a1, b0, b1, -, -, -, -, o0, o1⟩ := idx_facts t
  funext j
  show k0_pay1 (F := Ideal) (iblk3 V c 0 t) (iblk3 V c 1 t) (iblk3 V c 2 t) (iblk3 V c 3 t) j
    = Block.layer (V c main_v75) (V c main_v76) (V c main_arg10) (V c main_v77) (((cfg3.win 4).blk t).view.emb j)
  rw [weights_block V c t, bias_block V c t]
  exact Block.pay0_at (iblk3 V c 0 t) (iblk3 V c 1 t) (V c main_arg10) (V c main_v77) (V c main_v75) (V c main_v76)
    (((cfg3.win 0).blk t).view.emb) (((cfg3.win 1).blk t).view.emb) (((cfg3.win 4).blk t).view.emb) (t.val * 5000)
    (fun y => rfl) (fun y => rfl)
    (fun y => by show win3_0.index t (0 : Fin 2) * 5000 + 1 * (y 0).val = _; omega)
    (fun y => by show win3_0.index t (1 : Fin 2) * 128 + 1 * (y 1).val = _; omega)
    (fun y => by show win3_1.index t (0 : Fin 2) * 5000 + 1 * (y 0).val = _; omega)
    (fun y => by show win3_4.index t (0 : Fin 2) * 5000 + 1 * (y 0).val = _; omega)
    (fun y => by show win3_4.index t (1 : Fin 2) * 128 + 1 * (y 1).val = _; omega) j

/-- An index of the output array is in point t's block iff each coordinate is in the block's range on its axis. -/
theorem mem_blk (t : Fin cfg3.N) (i : S50000x128.Idx) :
    i ∈ ((cfg3.win 4).blk t).view.set
      ↔ ∀ a : Fin 2, win3_4.index t a * S5000x128.size a ≤ (i a).val ∧ (i a).val < win3_4.index t a * S5000x128.size a + S5000x128.size a := by
  show i ∈ ((View.whole main_v78).slice (win3_4.rect t)).set ↔ _
  rw [View.set_slice_whole, Rect.mem_set_unit]
  exact Iff.rfl

/-- The ten blocks tile the output: row r is in the block of point r / 5000. -/
theorem cover (i : S50000x128.Idx) :
    ∃ t : Fin cfg3.N, (cfg3.win 4).flush t = true ∧ i ∈ ((cfg3.win 4).blk t).view.set := by
  have hi0 : (i 0).val < 50000 := (i 0).isLt
  have hi1 : (i 1).val < 128 := (i 1).isLt
  have hN : (i 0).val / 5000 < cfg3.N := by
    show (i 0).val / 5000 < grid3.N
    rw [N_3]; omega
  obtain ⟨-, -, -, -, -, -, -, -, o0, o1⟩ := idx_facts ⟨(i 0).val / 5000, hN⟩
  refine ⟨⟨(i 0).val / 5000, hN⟩, flush3_4 _, ?_⟩
  rw [mem_blk]
  intro a
  match a with
  | ⟨0, _⟩ =>
    show win3_4.index ⟨(i 0).val / 5000, hN⟩ (0 : Fin 2) * 5000 ≤ (i 0).val
      ∧ (i 0).val < win3_4.index ⟨(i 0).val / 5000, hN⟩ (0 : Fin 2) * 5000 + 5000
    rw [o0]
    show (i 0).val / 5000 * 5000 ≤ (i 0).val ∧ (i 0).val < (i 0).val / 5000 * 5000 + 5000
    omega
  | ⟨1, _⟩ =>
    show win3_4.index ⟨(i 0).val / 5000, hN⟩ (1 : Fin 2) * 128 ≤ (i 1).val
      ∧ (i 1).val < win3_4.index ⟨(i 0).val / 5000, hN⟩ (1 : Fin 2) * 128 + 128
    rw [o1]
    omega

/-- The output array after the region: the layer of the arrays the region was entered with. -/
theorem final (c : Dev nD) :
    (dat3 (F := Ideal) V c).arrAt 4 cfg3.N = Block.layer (V c main_v75) (V c main_v76) (V c main_arg10) (V c main_v77) :=
  (dat3 (F := Ideal) V c).arrAt_eq_of_cover 4 _ (fun t _ => flushed_eq V c t) (cover)

end AtEntry

variable (m : (ℓ : Loc nD τ sig) → Buf (Elt Ideal) ℓ) (ρ : Dev nD → PrngReg)

/-- At the region's exit its output buffer holds the layer of the four input arrays as they were at its entry. -/
theorem exit_out (c : Dev nD) :
    W8 (F := Ideal) m ρ c (Proc.devRef .tc main_v78)
      = Block.layer (W7 (F := Ideal) m ρ c (Proc.devRef .tc main_v75)) (W7 (F := Ideal) m ρ c (Proc.devRef .tc main_v76))
          (W7 (F := Ideal) m ρ c (Proc.devRef .tc main_arg10)) (W7 (F := Ideal) m ρ c (Proc.devRef .tc main_v77)) :=
  (W8_arr m ρ c 4).trans (final (V7 m ρ) c)

/-- At the region's exit every other TensorCore buffer holds what it held at the entry. -/
theorem exit_keep (c : Dev nD) (b : Ref sig .tc) (hb : b ≠ main_v78) :
    W8 (F := Ideal) m ρ c (Proc.devRef .tc b) = W7 (F := Ideal) m ρ c (Proc.devRef .tc b) := by
  by_cases h : ∃ w, Pipeline.arrRef spec3 w = b
  · obtain ⟨w, rfl⟩ := h
    have hw : (cfg3.win w).isOut = false := by
      fin_cases w
      · rfl
      · rfl
      · rfl
      · rfl
      · exact absurd rfl hb
    exact (W8_arr m ρ c w).trans (((dat3 (F := Ideal) (V7 m ρ) c).arrAt_in w hw _).trans (A_eq3 (V7 m ρ) c w))
  · exact W8_of_ne m ρ c b fun w e => h ⟨w, e⟩

end Cert.KernelIdeal.Region3

end
-- ==== Proof.Region4.lean ====
/-
  The fifth kernel region, read from its blocks to the whole array.

  The region's grid has ten points; point t stages rows 5000 t, …, 5000 t + 4999 of the aggregate and of the column of
  row scales, all of the weights and the bias row, and writes back the same rows of the output. Every point's block is
  the layer's rows where the block sits, the ten blocks tile the 50000 rows, so the output array ends holding the layer
  of the arrays the region was entered with; the input arrays and every other buffer are as they were entered.
-/
import proofs.«165483_j81535659148048_1_alg».proof.Proof.Gen.KernelIdeal.Frame
import proofs.«165483_j81535659148048_1_alg».proof.Proof.BlockLayer

set_option maxRecDepth 16384

noncomputable section

namespace Cert.KernelIdeal.Region4

open Cert.KernelIdeal Cert.KernelIdeal.Gen Idealize.ShloMosaic Idealize.ShloMosaic.TcCoe Idealize.SL.Sem
open Idealize.ShloMosaic.ValueIdx
open Idealize.ShloMosaic.Pipeline (Dat Cfg Window)

section AtEntry

variable (V : (c : Dev nD) → (b : Ref sig .tc) → Buf (Elt Ideal) ((c : Thread nD τ).loc b))

theorem hz : (![0, 0] : Fin 2 → Nat) = fun _ => 0 := funext fun a => by fin_cases a <;> rfl

/-- The printed index maps over the ten points: the row blocks move with the point, the weights and the bias stay. -/
theorem idx_facts : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = t.val ∧ win4_4.index t (1 : Fin 2) = 0 :=
  (by decide +kernel : ∀ t : Fin grid4.N, _)

/-- The weights' block is the whole weight array at every point. -/
theorem weights_block (c : Dev nD) (t : Fin cfg4.N) :
    (iblk4 (F := Ideal) V c 2 t : S128x128.Idx → EReal) = V c main_arg12 := by
  obtain ⟨-, -, -, -, e0, e1, -⟩ := idx_facts t
  funext y
  show V c main_arg12 (((cfg4.win 2).blk t).view.emb y) = V c main_arg12 y
  refine congrArg (V c main_arg12) (funext fun a => Fin.ext ?_)
  match a with
  | ⟨0, _⟩ => show win4_2.index t (0 : Fin 2) * 128 + 1 * (y 0).val = (y 0).val; omega
  | ⟨1, _⟩ => show win4_2.index t (1 : Fin 2) * 128 + 1 * (y 1).val = (y 1).val; omega

/-- The bias row's block is the whole row at every point. -/
theorem bias_block (c : Dev nD) (t : Fin cfg4.N) :
    (iblk4 (F := Ideal) V c 3 t : S1x128.Idx → EReal) = V c main_v93 := by
  obtain ⟨-, -, -, -, -, -, e0, e1, -⟩ := idx_facts t
  funext y
  show V c main_v93 (((cfg4.win 3).blk t).view.emb y) = V c main_v93 y
  refine congrArg (V c main_v93) (funext fun a => Fin.ext ?_)
  match a with
  | ⟨0, _⟩ => show win4_3.index t (0 : Fin 2) * 1 + 1 * (y 0).val = (y 0).val; omega
  | ⟨1, _⟩ => show win4_3.index t (1 : Fin 2) * 128 + 1 * (y 1).val = (y 1).val; omega

/-- What point t writes back is block t of the layer of the arrays the region was entered with. -/
theorem flushed_eq (c : Dev nD) (t : Fin cfg4.N) :
    (dat4 (F := Ideal) V c).flushed 4 t
      = ((cfg4.win 4).blk t).view.read (Elt Ideal) (Block.layer (V c main_v91) (V c main_v92) (V c main_arg12) (V c main_v93)) := by
  show (cfg4.win 4).cut (grid4.coords t) ((dat4 (F := Ideal) V c).after 4 t) = _
  rw [after4_4]
  unfold out4_4
  rw [View.canon_unit_zero hz]
  simp only [View.ld_unit_zero (S := S5000x128) hz, View.ld_unit_zero (S := S5000x1) hz,
    View.ld_unit_zero (S := S128x128) hz, View.ld_unit_zero (S := S1x128) hz]
  rw [Block.pay4_eq]
  obtain ⟨a0, a1, b0, b1, -, -, -, -, o0, o1⟩ := idx_facts t
  funext j
  show k0_pay1 (F := Ideal) (iblk4 V c 0 t) (iblk4 V c 1 t) (iblk4 V c 2 t) (iblk4 V c 3 t) j
    = Block.layer (V c main_v91) (V c main_v92) (V c main_arg12) (V c main_v93) (((cfg4.win 4).blk t).view.emb j)
  rw [weights_block V c t, bias_block V c t]
  exact Block.pay0_at (iblk4 V c 0 t) (iblk4 V c 1 t) (V c main_arg12) (V c main_v93) (V c main_v91) (V c main_v92)
    (((cfg4.win 0).blk t).view.emb) (((cfg4.win 1).blk t).view.emb) (((cfg4.win 4).blk t).view.emb) (t.val * 5000)
    (fun y => rfl) (fun y => rfl)
    (fun y => by show win4_0.index t (0 : Fin 2) * 5000 + 1 * (y 0).val = _; omega)
    (fun y => by show win4_0.index t (1 : Fin 2) * 128 + 1 * (y 1).val = _; omega)
    (fun y => by show win4_1.index t (0 : Fin 2) * 5000 + 1 * (y 0).val = _; omega)
    (fun y => by show win4_4.index t (0 : Fin 2) * 5000 + 1 * (y 0).val = _; omega)
    (fun y => by show win4_4.index t (1 : Fin 2) * 128 + 1 * (y 1).val = _; omega) j

/-- An index of the output array is in point t's block iff each coordinate is in the block's range on its axis. -/
theorem mem_blk (t : Fin cfg4.N) (i : S50000x128.Idx) :
    i ∈ ((cfg4.win 4).blk t).view.set
      ↔ ∀ a : Fin 2, win4_4.index t a * S5000x128.size a ≤ (i a).val ∧ (i a).val < win4_4.index t a * S5000x128.size a + S5000x128.size a := by
  show i ∈ ((View.whole main_v94).slice (win4_4.rect t)).set ↔ _
  rw [View.set_slice_whole, Rect.mem_set_unit]
  exact Iff.rfl

/-- The ten blocks tile the output: row r is in the block of point r / 5000. -/
theorem cover (i : S50000x128.Idx) :
    ∃ t : Fin cfg4.N, (cfg4.win 4).flush t = true ∧ i ∈ ((cfg4.win 4).blk t).view.set := by
  have hi0 : (i 0).val < 50000 := (i 0).isLt
  have hi1 : (i 1).val < 128 := (i 1).isLt
  have hN : (i 0).val / 5000 < cfg4.N := by
    show (i 0).val / 5000 < grid4.N
    rw [N_4]; omega
  obtain ⟨-, -, -, -, -, -, -, -, o0, o1⟩ := idx_facts ⟨(i 0).val / 5000, hN⟩
  refine ⟨⟨(i 0).val / 5000, hN⟩, flush4_4 _, ?_⟩
  rw [mem_blk]
  intro a
  match a with
  | ⟨0, _⟩ =>
    show win4_4.index ⟨(i 0).val / 5000, hN⟩ (0 : Fin 2) * 5000 ≤ (i 0).val
      ∧ (i 0).val < win4_4.index ⟨(i 0).val / 5000, hN⟩ (0 : Fin 2) * 5000 + 5000
    rw [o0]
    show (i 0).val / 5000 * 5000 ≤ (i 0).val ∧ (i 0).val < (i 0).val / 5000 * 5000 + 5000
    omega
  | ⟨1, _⟩ =>
    show win4_4.index ⟨(i 0).val / 5000, hN⟩ (1 : Fin 2) * 128 ≤ (i 1).val
      ∧ (i 1).val < win4_4.index ⟨(i 0).val / 5000, hN⟩ (1 : Fin 2) * 128 + 128
    rw [o1]
    omega

/-- The output array after the region: the layer of the arrays the region was entered with. -/
theorem final (c : Dev nD) :
    (dat4 (F := Ideal) V c).arrAt 4 cfg4.N = Block.layer (V c main_v91) (V c main_v92) (V c main_arg12) (V c main_v93) :=
  (dat4 (F := Ideal) V c).arrAt_eq_of_cover 4 _ (fun t _ => flushed_eq V c t) (cover)

end AtEntry

variable (m : (ℓ : Loc nD τ sig) → Buf (Elt Ideal) ℓ) (ρ : Dev nD → PrngReg)

/-- At the region's exit its output buffer holds the layer of the four input arrays as they were at its entry. -/
theorem exit_out (c : Dev nD) :
    W10 (F := Ideal) m ρ c (Proc.devRef .tc main_v94)
      = Block.layer (W9 (F := Ideal) m ρ c (Proc.devRef .tc main_v91)) (W9 (F := Ideal) m ρ c (Proc.devRef .tc main_v92))
          (W9 (F := Ideal) m ρ c (Proc.devRef .tc main_arg12)) (W9 (F := Ideal) m ρ c (Proc.devRef .tc main_v93)) :=
  (W10_arr m ρ c 4).trans (final (V9 m ρ) c)

/-- At the region's exit every other TensorCore buffer holds what it held at the entry. -/
theorem exit_keep (c : Dev nD) (b : Ref sig .tc) (hb : b ≠ main_v94) :
    W10 (F := Ideal) m ρ c (Proc.devRef .tc b) = W9 (F := Ideal) m ρ c (Proc.devRef .tc b) := by
  by_cases h : ∃ w, Pipeline.arrRef spec4 w = b
  · obtain ⟨w, rfl⟩ := h
    have hw : (cfg4.win w).isOut = false := by
      fin_cases w
      · rfl
      · rfl
      · rfl
      · rfl
      · exact absurd rfl hb
    exact (W10_arr m ρ c w).trans (((dat4 (F := Ideal) (V9 m ρ) c).arrAt_in w hw _).trans (A_eq4 (V9 m ρ) c w))
  · exact W10_of_ne m ρ c b fun w e => h ⟨w, e⟩

end Cert.KernelIdeal.Region4

end
-- ==== Proof.Region5.lean ====
/-
  The sixth kernel region, read from its blocks to the whole array.

  The region's grid has ten points; point t stages rows 5000 t, …, 5000 t + 4999 of the aggregate and of the column of
  row scales, all of the weights and the bias row, and writes back the same rows of the output. Every point's block is
  the layer's rows where the block sits, the ten blocks tile the 50000 rows, so the output array ends holding the layer
  of the arrays the region was entered with; the input arrays and every other buffer are as they were entered.
-/
import proofs.«165483_j81535659148048_1_alg».proof.Proof.Gen.KernelIdeal.Frame
import proofs.«165483_j81535659148048_1_alg».proof.Proof.BlockLayer

set_option maxRecDepth 16384

noncomputable section

namespace Cert.KernelIdeal.Region5

open Cert.KernelIdeal Cert.KernelIdeal.Gen Idealize.ShloMosaic Idealize.ShloMosaic.TcCoe Idealize.SL.Sem
open Idealize.ShloMosaic.ValueIdx
open Idealize.ShloMosaic.Pipeline (Dat Cfg Window)

section AtEntry

variable (V : (c : Dev nD) → (b : Ref sig .tc) → Buf (Elt Ideal) ((c : Thread nD τ).loc b))

theorem hz : (![0, 0] : Fin 2 → Nat) = fun _ => 0 := funext fun a => by fin_cases a <;> rfl

/-- The printed index maps over the ten points: the row blocks move with the point, the weights and the bias stay. -/
theorem idx_facts : ∀ t : Fin cfg5.N,
    win5_0.index t (0 : Fin 2) = t.val ∧ win5_0.index t (1 : Fin 2) = 0
    ∧ win5_1.index t (0 : Fin 2) = t.val ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = t.val ∧ win5_4.index t (1 : Fin 2) = 0 :=
  (by decide +kernel : ∀ t : Fin grid5.N, _)

/-- The weights' block is the whole weight array at every point. -/
theorem weights_block (c : Dev nD) (t : Fin cfg5.N) :
    (iblk5 (F := Ideal) V c 2 t : S128x128.Idx → EReal) = V c main_arg14 := by
  obtain ⟨-, -, -, -, e0, e1, -⟩ := idx_facts t
  funext y
  show V c main_arg14 (((cfg5.win 2).blk t).view.emb y) = V c main_arg14 y
  refine congrArg (V c main_arg14) (funext fun a => Fin.ext ?_)
  match a with
  | ⟨0, _⟩ => show win5_2.index t (0 : Fin 2) * 128 + 1 * (y 0).val = (y 0).val; omega
  | ⟨1, _⟩ => show win5_2.index t (1 : Fin 2) * 128 + 1 * (y 1).val = (y 1).val; omega

/-- The bias row's block is the whole row at every point. -/
theorem bias_block (c : Dev nD) (t : Fin cfg5.N) :
    (iblk5 (F := Ideal) V c 3 t : S1x128.Idx → EReal) = V c main_v109 := by
  obtain ⟨-, -, -, -, -, -, e0, e1, -⟩ := idx_facts t
  funext y
  show V c main_v109 (((cfg5.win 3).blk t).view.emb y) = V c main_v109 y
  refine congrArg (V c main_v109) (funext fun a => Fin.ext ?_)
  match a with
  | ⟨0, _⟩ => show win5_3.index t (0 : Fin 2) * 1 + 1 * (y 0).val = (y 0).val; omega
  | ⟨1, _⟩ => show win5_3.index t (1 : Fin 2) * 128 + 1 * (y 1).val = (y 1).val; omega

/-- What point t writes back is block t of the layer of the arrays the region was entered with. -/
theorem flushed_eq (c : Dev nD) (t : Fin cfg5.N) :
    (dat5 (F := Ideal) V c).flushed 4 t
      = ((cfg5.win 4).blk t).view.read (Elt Ideal) (Block.layer (V c main_v107) (V c main_v108) (V c main_arg14) (V c main_v109)) := by
  show (cfg5.win 4).cut (grid5.coords t) ((dat5 (F := Ideal) V c).after 4 t) = _
  rw [after5_4]
  unfold out5_4
  rw [View.canon_unit_zero hz]
  simp only [View.ld_unit_zero (S := S5000x128) hz, View.ld_unit_zero (S := S5000x1) hz,
    View.ld_unit_zero (S := S128x128) hz, View.ld_unit_zero (S := S1x128) hz]
  rw [Block.pay5_eq]
  obtain ⟨a0, a1, b0, b1, -, -, -, -, o0, o1⟩ := idx_facts t
  funext j
  show k0_pay1 (F := Ideal) (iblk5 V c 0 t) (iblk5 V c 1 t) (iblk5 V c 2 t) (iblk5 V c 3 t) j
    = Block.layer (V c main_v107) (V c main_v108) (V c main_arg14) (V c main_v109) (((cfg5.win 4).blk t).view.emb j)
  rw [weights_block V c t, bias_block V c t]
  exact Block.pay0_at (iblk5 V c 0 t) (iblk5 V c 1 t) (V c main_arg14) (V c main_v109) (V c main_v107) (V c main_v108)
    (((cfg5.win 0).blk t).view.emb) (((cfg5.win 1).blk t).view.emb) (((cfg5.win 4).blk t).view.emb) (t.val * 5000)
    (fun y => rfl) (fun y => rfl)
    (fun y => by show win5_0.index t (0 : Fin 2) * 5000 + 1 * (y 0).val = _; omega)
    (fun y => by show win5_0.index t (1 : Fin 2) * 128 + 1 * (y 1).val = _; omega)
    (fun y => by show win5_1.index t (0 : Fin 2) * 5000 + 1 * (y 0).val = _; omega)
    (fun y => by show win5_4.index t (0 : Fin 2) * 5000 + 1 * (y 0).val = _; omega)
    (fun y => by show win5_4.index t (1 : Fin 2) * 128 + 1 * (y 1).val = _; omega) j

/-- An index of the output array is in point t's block iff each coordinate is in the block's range on its axis. -/
theorem mem_blk (t : Fin cfg5.N) (i : S50000x128.Idx) :
    i ∈ ((cfg5.win 4).blk t).view.set
      ↔ ∀ a : Fin 2, win5_4.index t a * S5000x128.size a ≤ (i a).val ∧ (i a).val < win5_4.index t a * S5000x128.size a + S5000x128.size a := by
  show i ∈ ((View.whole main_v110).slice (win5_4.rect t)).set ↔ _
  rw [View.set_slice_whole, Rect.mem_set_unit]
  exact Iff.rfl

/-- The ten blocks tile the output: row r is in the block of point r / 5000. -/
theorem cover (i : S50000x128.Idx) :
    ∃ t : Fin cfg5.N, (cfg5.win 4).flush t = true ∧ i ∈ ((cfg5.win 4).blk t).view.set := by
  have hi0 : (i 0).val < 50000 := (i 0).isLt
  have hi1 : (i 1).val < 128 := (i 1).isLt
  have hN : (i 0).val / 5000 < cfg5.N := by
    show (i 0).val / 5000 < grid5.N
    rw [N_5]; omega
  obtain ⟨-, -, -, -, -, -, -, -, o0, o1⟩ := idx_facts ⟨(i 0).val / 5000, hN⟩
  refine ⟨⟨(i 0).val / 5000, hN⟩, flush5_4 _, ?_⟩
  rw [mem_blk]
  intro a
  match a with
  | ⟨0, _⟩ =>
    show win5_4.index ⟨(i 0).val / 5000, hN⟩ (0 : Fin 2) * 5000 ≤ (i 0).val
      ∧ (i 0).val < win5_4.index ⟨(i 0).val / 5000, hN⟩ (0 : Fin 2) * 5000 + 5000
    rw [o0]
    show (i 0).val / 5000 * 5000 ≤ (i 0).val ∧ (i 0).val < (i 0).val / 5000 * 5000 + 5000
    omega
  | ⟨1, _⟩ =>
    show win5_4.index ⟨(i 0).val / 5000, hN⟩ (1 : Fin 2) * 128 ≤ (i 1).val
      ∧ (i 1).val < win5_4.index ⟨(i 0).val / 5000, hN⟩ (1 : Fin 2) * 128 + 128
    rw [o1]
    omega

/-- The output array after the region: the layer of the arrays the region was entered with. -/
theorem final (c : Dev nD) :
    (dat5 (F := Ideal) V c).arrAt 4 cfg5.N = Block.layer (V c main_v107) (V c main_v108) (V c main_arg14) (V c main_v109) :=
  (dat5 (F := Ideal) V c).arrAt_eq_of_cover 4 _ (fun t _ => flushed_eq V c t) (cover)

end AtEntry

variable (m : (ℓ : Loc nD τ sig) → Buf (Elt Ideal) ℓ) (ρ : Dev nD → PrngReg)

/-- At the region's exit its output buffer holds the layer of the four input arrays as they were at its entry. -/
theorem exit_out (c : Dev nD) :
    W12 (F := Ideal) m ρ c (Proc.devRef .tc main_v110)
      = Block.layer (W11 (F := Ideal) m ρ c (Proc.devRef .tc main_v107)) (W11 (F := Ideal) m ρ c (Proc.devRef .tc main_v108))
          (W11 (F := Ideal) m ρ c (Proc.devRef .tc main_arg14)) (W11 (F := Ideal) m ρ c (Proc.devRef .tc main_v109)) :=
  (W12_arr m ρ c 4).trans (final (V11 m ρ) c)

/-- At the region's exit every other TensorCore buffer holds what it held at the entry. -/
theorem exit_keep (c : Dev nD) (b : Ref sig .tc) (hb : b ≠ main_v110) :
    W12 (F := Ideal) m ρ c (Proc.devRef .tc b) = W11 (F := Ideal) m ρ c (Proc.devRef .tc b) := by
  by_cases h : ∃ w, Pipeline.arrRef spec5 w = b
  · obtain ⟨w, rfl⟩ := h
    have hw : (cfg5.win w).isOut = false := by
      fin_cases w
      · rfl
      · rfl
      · rfl
      · rfl
      · exact absurd rfl hb
    exact (W12_arr m ρ c w).trans (((dat5 (F := Ideal) (V11 m ρ) c).arrAt_in w hw _).trans (A_eq5 (V11 m ρ) c w))
  · exact W12_of_ne m ρ c b fun w e => h ⟨w, e⟩

end Cert.KernelIdeal.Region5

end
-- ==== Proof.LibRowOfVector.lean ====
/-
  A vector laid out as a one-row matrix, two ways.

  Reshaping a vector of length n to [1, n] and broadcasting it along dimension 1 of [1, n] both put entry j of the vector at
  position (0, j): the two arrays are equal.
-/
import Idealize.ShloMosaic.Lib.Pipeline.Value
import Idealize.ShloMosaic.Lib.ValueIdx

noncomputable section

namespace Cert.Lib

open Idealize.ShloMosaic Idealize.ShloMosaic.ValueIdx

/-- The reshape of a length-n vector to one row is its broadcast along dimension 1 of [1, n]. -/
theorem shapeCast_row_eq_broadcastInDim {n : Nat} {α : Type} (b : (⟨1, ![n]⟩ : Shape).Idx → α)
    (h : (⟨1, ![n]⟩ : Shape).ShapeCasts ⟨2, ![1, n]⟩)
    (h' : (⟨1, ![n]⟩ : Shape).BroadcastsInDim ⟨2, ![1, n]⟩ (![1] : Fin 1 → Fin 2)) :
    shapeCast ⟨2, ![1, n]⟩ b h = broadcastInDim ⟨2, ![1, n]⟩ ![1] h' b := by
  funext j
  obtain ⟨p, q, rfl⟩ : ∃ (p : Fin 1) (q : Fin n), j = ix2 p q := ⟨j 0, j 1, eq_ix2 j⟩
  have hp : p.val = 0 := by omega
  -- both sides read the vector at q
  rw [shapeCast_apply b h (ix2 p q) (ix1 q) (by
        rw [Shape.rowMajor_val_one, Shape.rowMajor_val_two]
        show q.val = p.val * n + q.val
        rw [hp]; omega),
      broadcastInDim_apply ![1] h' b (ix2 p q) (ix1 q) (fun a => by
        match a with
        | ⟨0, _⟩ =>
          show q.val = if n = 1 then 0 else q.val
          split
          · omega
          · rfl)]

end Cert.Lib

end
-- ==== Proof.Chain.lean ====
/-
  The idealized kernel program's two results are the reference's two results.

  The kernel program is the reference program with each layer's dense step — scale the aggregate's rows by the
  in-degree normalisation, multiply by the weights, add the bias, rectify — done by a kernel region instead of by host
  operations; everything else (the degrees, the gather along edges, the scatter-add into nodes, the pooling and the two
  final dense layers) is the same host operations on the same buffers. A region leaves in its output the layer of the
  arrays it was entered with, where its column of row scales is the normalisation vector recast as a column and its bias
  row the bias vector recast as a row: that is the host's layer of the vectors themselves. Reading the two result buffers
  back through the program's fold of stretches and regions, with that one fact per region, gives term for term what the
  reference's run gives on the same arguments.
-/
import proofs.«165483_j81535659148048_1_alg».proof.Proof.Region0
import proofs.«165483_j81535659148048_1_alg».proof.Proof.Region1
import proofs.«165483_j81535659148048_1_alg».proof.Proof.Region2
import proofs.«165483_j81535659148048_1_alg».proof.Proof.Region3
import proofs.«165483_j81535659148048_1_alg».proof.Proof.Region4
import proofs.«165483_j81535659148048_1_alg».proof.Proof.Region5
import proofs.«165483_j81535659148048_1_alg».proof.Proof.LibRowOfVector
import proofs.«165483_j81535659148048_1_alg».proof.Proof.Gen.ReferenceIdeal.Run
import Idealize.ShloMosaic.Lib.StableHlo.Run

set_option maxRecDepth 16384

noncomputable section

namespace Cert.KernelIdeal.Chain

open Cert.KernelIdeal Cert.KernelIdeal.Gen Idealize.ShloMosaic Idealize.ShloMosaic.TcCoe Idealize.SL.Sem

theorem hcolv : S50000.BroadcastsInDim S50000x1 (![0] : Fin 1 → Fin 2) := by decide
theorem hrowv : S128.BroadcastsInDim S1x128 (![1] : Fin 1 → Fin 2) := by decide

/-- The layer max((A ⊙ nd) · W + b, 0) of a vector nd of row scales and a bias vector b. -/
def vecLayer (A : FVec Ideal S50000x128 .f32) (nd : FVec Ideal S50000 .f32) (W : FVec Ideal S128x128 .f32)
    (b : FVec Ideal S128 .f32) : FVec Ideal S50000x128 .f32 :=
  Block.layer A (broadcastInDim S50000x1 ![0] hcolv nd) W (broadcastInDim S1x128 ![1] hrowv b)

/-- A vector recast as a column (as a row) is its broadcast along that axis, so the layer of the recast vectors is the
    layer of the vectors. -/
theorem layer_of_vectors (A : FVec Ideal S50000x128 .f32) (nd : FVec Ideal S50000 .f32) (W : FVec Ideal S128x128 .f32)
    (b : FVec Ideal S128 .f32) (h1 : S50000.ShapeCasts S50000x1) (h2 : S128.ShapeCasts S1x128) :
    Block.layer A (shapeCast S50000x1 nd h1) W (shapeCast S1x128 b h2) = vecLayer A nd W b := by
  unfold vecLayer
  rw [Cert.Lib.shapeCast_col_eq_spread nd h1 hcolv, Cert.Lib.shapeCast_row_eq_broadcastInDim b h2 hrowv]

variable (m : (ℓ : Loc nD τ sig) → Buf (Elt Ideal) ℓ) (ρ : Dev nD → PrngReg)

/-- At launch a buffer holds the launch memory's contents. -/
theorem W0_ref (c : Dev nD) (b : Ref sig .tc) :
    W0 (F := Ideal) m ρ c (no_index (Proc.devRef .tc b)) = m ((c.tc : Thread nD τ).loc b) := rfl

/-- Region 0 is entered with the column of row scales the in-degree normalisation recast as a column. -/
theorem col0 (c : Dev nD) :
    W1 (F := Ideal) m ρ c (Proc.devRef .tc main_v28)
      = shapeCast S50000x1 (W1 (F := Ideal) m ρ c (Proc.devRef .tc main_v14)) shapeCasts_S50000_S50000x1 := by
  simp (disch := decide) only [W1, hostOps0, StableHlo.after_cons, StableHlo.after_nil,
      StableHlo.nullary_result', StableHlo.unary_result', StableHlo.binary_result', StableHlo.ternary_result', StableHlo.quaternary_result',
      StableHlo.reshape_result', StableHlo.nary4_result', StableHlo.nary_result', StableHlo.unaryIndexed_result', StableHlo.binaryIndexed_result',
      StableHlo.nullary_result_ne', StableHlo.unary_result_ne', StableHlo.binary_result_ne', StableHlo.ternary_result_ne',
      StableHlo.quaternary_result_ne', StableHlo.reshape_result_ne', StableHlo.nary_result_ne', StableHlo.unaryIndexed_result_ne',
      StableHlo.binaryIndexed_result_ne']
  rfl

/-- Region 0 is entered with its bias vector recast as a row. -/
theorem row0 (c : Dev nD) :
    W1 (F := Ideal) m ρ c (Proc.devRef .tc main_v29)
      = shapeCast S1x128 (W1 (F := Ideal) m ρ c (Proc.devRef .tc main_arg5)) shapeCasts_S128_S1x128 := by
  simp (disch := decide) only [W1, hostOps0, StableHlo.after_cons, StableHlo.after_nil,
      StableHlo.nullary_result', StableHlo.unary_result', StableHlo.binary_result', StableHlo.ternary_result', StableHlo.quaternary_result',
      StableHlo.reshape_result', StableHlo.nary4_result', StableHlo.nary_result', StableHlo.unaryIndexed_result', StableHlo.binaryIndexed_result',
      StableHlo.nullary_result_ne', StableHlo.unary_result_ne', StableHlo.binary_result_ne', StableHlo.ternary_result_ne',
      StableHlo.quaternary_result_ne', StableHlo.reshape_result_ne', StableHlo.nary_result_ne', StableHlo.unaryIndexed_result_ne',
      StableHlo.binaryIndexed_result_ne']
  rfl

/-- Region 0 leaves the layer of its aggregate, the in-degree normalisation, its weights and its bias vector. -/
theorem out0 (c : Dev nD) :
    W2 (F := Ideal) m ρ c (no_index (Proc.devRef .tc main_v30))
      = vecLayer (W1 (F := Ideal) m ρ c (Proc.devRef .tc main_v27)) (W1 (F := Ideal) m ρ c (Proc.devRef .tc main_v14))
          (W1 (F := Ideal) m ρ c (Proc.devRef .tc main_arg4)) (W1 (F := Ideal) m ρ c (Proc.devRef .tc main_arg5)) := by
  rw [Region0.exit_out m ρ c, col0 m ρ c, row0 m ρ c]
  exact layer_of_vectors _ _ _ _ _ _

/-- Region 0 leaves every other buffer as it found it. -/
theorem keep0 (c : Dev nD) (b : Ref sig .tc) (hb : b ≠ main_v30) :
    W2 (F := Ideal) m ρ c (no_index (Proc.devRef .tc b)) = W1 (F := Ideal) m ρ c (Proc.devRef .tc b) :=
  Region0.exit_keep m ρ c b hb

/-- Region 1 is entered with the column of row scales the in-degree normalisation recast as a column. -/
theorem col1 (c : Dev nD) :
    W3 (F := Ideal) m ρ c (Proc.devRef .tc main_v44)
      = shapeCast S50000x1 (W2 (F := Ideal) m ρ c (Proc.devRef .tc main_v14)) shapeCasts_S50000_S50000x1 := by
  simp (disch := decide) only [W3, hostOps1, StableHlo.after_cons, StableHlo.after_nil,
      StableHlo.nullary_result', StableHlo.unary_result', StableHlo.binary_result', StableHlo.ternary_result', StableHlo.quaternary_result',
      StableHlo.reshape_result', StableHlo.nary4_result', StableHlo.nary_result', StableHlo.unaryIndexed_result', StableHlo.binaryIndexed_result',
      StableHlo.nullary_result_ne', StableHlo.unary_result_ne', StableHlo.binary_result_ne', StableHlo.ternary_result_ne',
      StableHlo.quaternary_result_ne', StableHlo.reshape_result_ne', StableHlo.nary_result_ne', StableHlo.unaryIndexed_result_ne',
      StableHlo.binaryIndexed_result_ne']
  rfl

/-- Region 1 is entered with its bias vector recast as a row. -/
theorem row1 (c : Dev nD) :
    W3 (F := Ideal) m ρ c (Proc.devRef .tc main_v45)
      = shapeCast S1x128 (W2 (F := Ideal) m ρ c (Proc.devRef .tc main_arg7)) shapeCasts_S128_S1x128 := by
  simp (disch := decide) only [W3, hostOps1, StableHlo.after_cons, StableHlo.after_nil,
      StableHlo.nullary_result', StableHlo.unary_result', StableHlo.binary_result', StableHlo.ternary_result', StableHlo.quaternary_result',
      StableHlo.reshape_result', StableHlo.nary4_result', StableHlo.nary_result', StableHlo.unaryIndexed_result', StableHlo.binaryIndexed_result',
      StableHlo.nullary_result_ne', StableHlo.unary_result_ne', StableHlo.binary_result_ne', StableHlo.ternary_result_ne',
      StableHlo.quaternary_result_ne', StableHlo.reshape_result_ne', StableHlo.nary_result_ne', StableHlo.unaryIndexed_result_ne',
      StableHlo.binaryIndexed_result_ne']
  rfl

/-- Region 1 leaves the layer of its aggregate, the in-degree normalisation, its weights and its bias vector. -/
theorem out1 (c : Dev nD) :
    W4 (F := Ideal) m ρ c (no_index (Proc.devRef .tc main_v46))
      = vecLayer (W3 (F := Ideal) m ρ c (Proc.devRef .tc main_v43)) (W2 (F := Ideal) m ρ c (Proc.devRef .tc main_v14))
          (W3 (F := Ideal) m ρ c (Proc.devRef .tc main_arg6)) (W2 (F := Ideal) m ρ c (Proc.devRef .tc main_arg7)) := by
  rw [Region1.exit_out m ρ c, col1 m ρ c, row1 m ρ c]
  exact layer_of_vectors _ _ _ _ _ _

/-- Region 1 leaves every other buffer as it found it. -/
theorem keep1 (c : Dev nD) (b : Ref sig .tc) (hb : b ≠ main_v46) :
    W4 (F := Ideal) m ρ c (no_index (Proc.devRef .tc b)) = W3 (F := Ideal) m ρ c (Proc.devRef .tc b) :=
  Region1.exit_keep m ρ c b hb

/-- Region 2 is entered with the column of row scales the in-degree normalisation recast as a column. -/
theorem col2 (c : Dev nD) :
    W5 (F := Ideal) m ρ c (Proc.devRef .tc main_v60)
      = shapeCast S50000x1 (W4 (F := Ideal) m ρ c (Proc.devRef .tc main_v14)) shapeCasts_S50000_S50000x1 := by
  simp (disch := decide) only [W5, hostOps2, StableHlo.after_cons, StableHlo.after_nil,
      StableHlo.nullary_result', StableHlo.unary_result', StableHlo.binary_result', StableHlo.ternary_result', StableHlo.quaternary_result',
      StableHlo.reshape_result', StableHlo.nary4_result', StableHlo.nary_result', StableHlo.unaryIndexed_result', StableHlo.binaryIndexed_result',
      StableHlo.nullary_result_ne', StableHlo.unary_result_ne', StableHlo.binary_result_ne', StableHlo.ternary_result_ne',
      StableHlo.quaternary_result_ne', StableHlo.reshape_result_ne', StableHlo.nary_result_ne', StableHlo.unaryIndexed_result_ne',
      StableHlo.binaryIndexed_result_ne']
  rfl

/-- Region 2 is entered with its bias vector recast as a row. -/
theorem row2 (c : Dev nD) :
    W5 (F := Ideal) m ρ c (Proc.devRef .tc main_v61)
      = shapeCast S1x128 (W4 (F := Ideal) m ρ c (Proc.devRef .tc main_arg9)) shapeCasts_S128_S1x128 := by
  simp (disch := decide) only [W5, hostOps2, StableHlo.after_cons, StableHlo.after_nil,
      StableHlo.nullary_result', StableHlo.unary_result', StableHlo.binary_result', StableHlo.ternary_result', StableHlo.quaternary_result',
      StableHlo.reshape_result', StableHlo.nary4_result', StableHlo.nary_result', StableHlo.unaryIndexed_result', StableHlo.binaryIndexed_result',
      StableHlo.nullary_result_ne', StableHlo.unary_result_ne', StableHlo.binary_result_ne', StableHlo.ternary_result_ne',
      StableHlo.quaternary_result_ne', StableHlo.reshape_result_ne', StableHlo.nary_result_ne', StableHlo.unaryIndexed_result_ne',
      StableHlo.binaryIndexed_result_ne']
  rfl

/-- Region 2 leaves the layer of its aggregate, the in-degree normalisation, its weights and its bias vector. -/
theorem out2 (c : Dev nD) :
    W6 (F := Ideal) m ρ c (no_index (Proc.devRef .tc main_v62))
      = vecLayer (W5 (F := Ideal) m ρ c (Proc.devRef .tc main_v59)) (W4 (F := Ideal) m ρ c (Proc.devRef .tc main_v14))
          (W5 (F := Ideal) m ρ c (Proc.devRef .tc main_arg8)) (W4 (F := Ideal) m ρ c (Proc.devRef .tc main_arg9)) := by
  rw [Region2.exit_out m ρ c, col2 m ρ c, row2 m ρ c]
  exact layer_of_vectors _ _ _ _ _ _

/-- Region 2 leaves every other buffer as it found it. -/
theorem keep2 (c : Dev nD) (b : Ref sig .tc) (hb : b ≠ main_v62) :
    W6 (F := Ideal) m ρ c (no_index (Proc.devRef .tc b)) = W5 (F := Ideal) m ρ c (Proc.devRef .tc b) :=
  Region2.exit_keep m ρ c b hb

/-- Region 3 is entered with the column of row scales the in-degree normalisation recast as a column. -/
theorem col3 (c : Dev nD) :
    W7 (F := Ideal) m ρ c (Proc.devRef .tc main_v76)
      = shapeCast S50000x1 (W6 (F := Ideal) m ρ c (Proc.devRef .tc main_v14)) shapeCasts_S50000_S50000x1 := by
  simp (disch := decide) only [W7, hostOps3, StableHlo.after_cons, StableHlo.after_nil,
      StableHlo.nullary_result', StableHlo.unary_result', StableHlo.binary_result', StableHlo.ternary_result', StableHlo.quaternary_result',
      StableHlo.reshape_result', StableHlo.nary4_result', StableHlo.nary_result', StableHlo.unaryIndexed_result', StableHlo.binaryIndexed_result',
      StableHlo.nullary_result_ne', StableHlo.unary_result_ne', StableHlo.binary_result_ne', StableHlo.ternary_result_ne',
      StableHlo.quaternary_result_ne', StableHlo.reshape_result_ne', StableHlo.nary_result_ne', StableHlo.unaryIndexed_result_ne',
      StableHlo.binaryIndexed_result_ne']
  rfl

/-- Region 3 is entered with its bias vector recast as a row. -/
theorem row3 (c : Dev nD) :
    W7 (F := Ideal) m ρ c (Proc.devRef .tc main_v77)
      = shapeCast S1x128 (W6 (F := Ideal) m ρ c (Proc.devRef .tc main_arg11)) shapeCasts_S128_S1x128 := by
  simp (disch := decide) only [W7, hostOps3, StableHlo.after_cons, StableHlo.after_nil,
      StableHlo.nullary_result', StableHlo.unary_result', StableHlo.binary_result', StableHlo.ternary_result', StableHlo.quaternary_result',
      StableHlo.reshape_result', StableHlo.nary4_result', StableHlo.nary_result', StableHlo.unaryIndexed_result', StableHlo.binaryIndexed_result',
      StableHlo.nullary_result_ne', StableHlo.unary_result_ne', StableHlo.binary_result_ne', StableHlo.ternary_result_ne',
      StableHlo.quaternary_result_ne', StableHlo.reshape_result_ne', StableHlo.nary_result_ne', StableHlo.unaryIndexed_result_ne',
      StableHlo.binaryIndexed_result_ne']
  rfl

/-- Region 3 leaves the layer of its aggregate, the in-degree normalisation, its weights and its bias vector. -/
theorem out3 (c : Dev nD) :
    W8 (F := Ideal) m ρ c (no_index (Proc.devRef .tc main_v78))
      = vecLayer (W7 (F := Ideal) m ρ c (Proc.devRef .tc main_v75)) (W6 (F := Ideal) m ρ c (Proc.devRef .tc main_v14))
          (W7 (F := Ideal) m ρ c (Proc.devRef .tc main_arg10)) (W6 (F := Ideal) m ρ c (Proc.devRef .tc main_arg11)) := by
  rw [Region3.exit_out m ρ c, col3 m ρ c, row3 m ρ c]
  exact layer_of_vectors _ _ _ _ _ _

/-- Region 3 leaves every other buffer as it found it. -/
theorem keep3 (c : Dev nD) (b : Ref sig .tc) (hb : b ≠ main_v78) :
    W8 (F := Ideal) m ρ c (no_index (Proc.devRef .tc b)) = W7 (F := Ideal) m ρ c (Proc.devRef .tc b) :=
  Region3.exit_keep m ρ c b hb

/-- Region 4 is entered with the column of row scales the in-degree normalisation recast as a column. -/
theorem col4 (c : Dev nD) :
    W9 (F := Ideal) m ρ c (Proc.devRef .tc main_v92)
      = shapeCast S50000x1 (W8 (F := Ideal) m ρ c (Proc.devRef .tc main_v14)) shapeCasts_S50000_S50000x1 := by
  simp (disch := decide) only [W9, hostOps4, StableHlo.after_cons, StableHlo.after_nil,
      StableHlo.nullary_result', StableHlo.unary_result', StableHlo.binary_result', StableHlo.ternary_result', StableHlo.quaternary_result',
      StableHlo.reshape_result', StableHlo.nary4_result', StableHlo.nary_result', StableHlo.unaryIndexed_result', StableHlo.binaryIndexed_result',
      StableHlo.nullary_result_ne', StableHlo.unary_result_ne', StableHlo.binary_result_ne', StableHlo.ternary_result_ne',
      StableHlo.quaternary_result_ne', StableHlo.reshape_result_ne', StableHlo.nary_result_ne', StableHlo.unaryIndexed_result_ne',
      StableHlo.binaryIndexed_result_ne']
  rfl

/-- Region 4 is entered with its bias vector recast as a row. -/
theorem row4 (c : Dev nD) :
    W9 (F := Ideal) m ρ c (Proc.devRef .tc main_v93)
      = shapeCast S1x128 (W8 (F := Ideal) m ρ c (Proc.devRef .tc main_arg13)) shapeCasts_S128_S1x128 := by
  simp (disch := decide) only [W9, hostOps4, StableHlo.after_cons, StableHlo.after_nil,
      StableHlo.nullary_result', StableHlo.unary_result', StableHlo.binary_result', StableHlo.ternary_result', StableHlo.quaternary_result',
      StableHlo.reshape_result', StableHlo.nary4_result', StableHlo.nary_result', StableHlo.unaryIndexed_result', StableHlo.binaryIndexed_result',
      StableHlo.nullary_result_ne', StableHlo.unary_result_ne', StableHlo.binary_result_ne', StableHlo.ternary_result_ne',
      StableHlo.quaternary_result_ne', StableHlo.reshape_result_ne', StableHlo.nary_result_ne', StableHlo.unaryIndexed_result_ne',
      StableHlo.binaryIndexed_result_ne']
  rfl

/-- Region 4 leaves the layer of its aggregate, the in-degree normalisation, its weights and its bias vector. -/
theorem out4 (c : Dev nD) :
    W10 (F := Ideal) m ρ c (no_index (Proc.devRef .tc main_v94))
      = vecLayer (W9 (F := Ideal) m ρ c (Proc.devRef .tc main_v91)) (W8 (F := Ideal) m ρ c (Proc.devRef .tc main_v14))
          (W9 (F := Ideal) m ρ c (Proc.devRef .tc main_arg12)) (W8 (F := Ideal) m ρ c (Proc.devRef .tc main_arg13)) := by
  rw [Region4.exit_out m ρ c, col4 m ρ c, row4 m ρ c]
  exact layer_of_vectors _ _ _ _ _ _

/-- Region 4 leaves every other buffer as it found it. -/
theorem keep4 (c : Dev nD) (b : Ref sig .tc) (hb : b ≠ main_v94) :
    W10 (F := Ideal) m ρ c (no_index (Proc.devRef .tc b)) = W9 (F := Ideal) m ρ c (Proc.devRef .tc b) :=
  Region4.exit_keep m ρ c b hb

/-- Region 5 is entered with the column of row scales the in-degree normalisation recast as a column. -/
theorem col5 (c : Dev nD) :
    W11 (F := Ideal) m ρ c (Proc.devRef .tc main_v108)
      = shapeCast S50000x1 (W10 (F := Ideal) m ρ c (Proc.devRef .tc main_v14)) shapeCasts_S50000_S50000x1 := by
  simp (disch := decide) only [W11, hostOps5, StableHlo.after_cons, StableHlo.after_nil,
      StableHlo.nullary_result', StableHlo.unary_result', StableHlo.binary_result', StableHlo.ternary_result', StableHlo.quaternary_result',
      StableHlo.reshape_result', StableHlo.nary4_result', StableHlo.nary_result', StableHlo.unaryIndexed_result', StableHlo.binaryIndexed_result',
      StableHlo.nullary_result_ne', StableHlo.unary_result_ne', StableHlo.binary_result_ne', StableHlo.ternary_result_ne',
      StableHlo.quaternary_result_ne', StableHlo.reshape_result_ne', StableHlo.nary_result_ne', StableHlo.unaryIndexed_result_ne',
      StableHlo.binaryIndexed_result_ne']
  rfl

/-- Region 5 is entered with its bias vector recast as a row. -/
theorem row5 (c : Dev nD) :
    W11 (F := Ideal) m ρ c (Proc.devRef .tc main_v109)
      = shapeCast S1x128 (W10 (F := Ideal) m ρ c (Proc.devRef .tc main_arg15)) shapeCasts_S128_S1x128 := by
  simp (disch := decide) only [W11, hostOps5, StableHlo.after_cons, StableHlo.after_nil,
      StableHlo.nullary_result', StableHlo.unary_result', StableHlo.binary_result', StableHlo.ternary_result', StableHlo.quaternary_result',
      StableHlo.reshape_result', StableHlo.nary4_result', StableHlo.nary_result', StableHlo.unaryIndexed_result', StableHlo.binaryIndexed_result',
      StableHlo.nullary_result_ne', StableHlo.unary_result_ne', StableHlo.binary_result_ne', StableHlo.ternary_result_ne',
      StableHlo.quaternary_result_ne', StableHlo.reshape_result_ne', StableHlo.nary_result_ne', StableHlo.unaryIndexed_result_ne',
      StableHlo.binaryIndexed_result_ne']
  rfl

/-- Region 5 leaves the layer of its aggregate, the in-degree normalisation, its weights and its bias vector. -/
theorem out5 (c : Dev nD) :
    W12 (F := Ideal) m ρ c (no_index (Proc.devRef .tc main_v110))
      = vecLayer (W11 (F := Ideal) m ρ c (Proc.devRef .tc main_v107)) (W10 (F := Ideal) m ρ c (Proc.devRef .tc main_v14))
          (W11 (F := Ideal) m ρ c (Proc.devRef .tc main_arg14)) (W10 (F := Ideal) m ρ c (Proc.devRef .tc main_arg15)) := by
  rw [Region5.exit_out m ρ c, col5 m ρ c, row5 m ρ c]
  exact layer_of_vectors _ _ _ _ _ _

/-- Region 5 leaves every other buffer as it found it. -/
theorem keep5 (c : Dev nD) (b : Ref sig .tc) (hb : b ≠ main_v110) :
    W12 (F := Ideal) m ρ c (no_index (Proc.devRef .tc b)) = W11 (F := Ideal) m ρ c (Proc.devRef .tc b) :=
  Region5.exit_keep m ρ c b hb

set_option maxHeartbeats 100000000 in
/-- The second result, the unnormalised aggregation of the last layer's features, is the reference's. -/
theorem result1_eq (m' : (ℓ : Loc Cert.ReferenceIdeal.nD Cert.ReferenceIdeal.τ Cert.ReferenceIdeal.sig) → Buf (Elt Ideal) ℓ)
    (hagree : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19))
    (c : Dev nD) :
    W15 (F := Ideal) m ρ c (Proc.devRef .tc main_v141) = Cert.ReferenceIdeal.Value.res_main_v171 (F := Ideal) m' c := by
  obtain ⟨h0, h1, h2, h3, h4, h5, h6, h7, h8, h9, h10, h11, h12, h13, h14, h15, h16, h17, h18, h19⟩ := hagree c
  simp (disch := decide) only [W15, W14, W13, W11, W9, W7, W5, W3, W1, hostOps0, hostOps1, hostOps2, hostOps3, hostOps4, hostOps5, hostOps6, hostOps6_1, hostOps6_2,
    out0, out1, out2, out3, out4, out5, keep0, keep1, keep2, keep3, keep4, keep5, W0_ref,
    StableHlo.after_cons, StableHlo.after_nil,
      StableHlo.nullary_result', StableHlo.unary_result', StableHlo.binary_result', StableHlo.ternary_result', StableHlo.quaternary_result',
      StableHlo.reshape_result', StableHlo.nary4_result', StableHlo.nary_result', StableHlo.unaryIndexed_result', StableHlo.binaryIndexed_result',
      StableHlo.nullary_result_ne', StableHlo.unary_result_ne', StableHlo.binary_result_ne', StableHlo.ternary_result_ne',
      StableHlo.quaternary_result_ne', StableHlo.reshape_result_ne', StableHlo.nary_result_ne', StableHlo.unaryIndexed_result_ne',
      StableHlo.binaryIndexed_result_ne']
  unfold Cert.ReferenceIdeal.Value.res_main_v171
  simp only [h0, h1, h2, h3, h4, h5, h6, h7, h8, h9, h10, h11, h12, h13, h14, h15, h16, h17, h18, h19]
  unfold vecLayer Block.layer Cert.Layer.hostLayer
  rfl

set_option maxHeartbeats 100000000 in
/-- The first result, the class scores of the mean-pooled last layer, is the reference's. -/
theorem result0_eq (m' : (ℓ : Loc Cert.ReferenceIdeal.nD Cert.ReferenceIdeal.τ Cert.ReferenceIdeal.sig) → Buf (Elt Ideal) ℓ)
    (hagree : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19))
    (c : Dev nD) :
    W15 (F := Ideal) m ρ c (Proc.devRef .tc main_v131) = Cert.ReferenceIdeal.Value.res_main_v161 (F := Ideal) m' c := by
  obtain ⟨h0, h1, h2, h3, h4, h5, h6, h7, h8, h9, h10, h11, h12, h13, h14, h15, h16, h17, h18, h19⟩ := hagree c
  simp (disch := decide) only [W15, W14, W13, W11, W9, W7, W5, W3, W1, hostOps0, hostOps1, hostOps2, hostOps3, hostOps4, hostOps5, hostOps6, hostOps6_1, hostOps6_2,
    out0, out1, out2, out3, out4, out5, keep0, keep1, keep2, keep3, keep4, keep5, W0_ref,
    StableHlo.after_cons, StableHlo.after_nil,
      StableHlo.nullary_result', StableHlo.unary_result', StableHlo.binary_result', StableHlo.ternary_result', StableHlo.quaternary_result',
      StableHlo.reshape_result', StableHlo.nary4_result', StableHlo.nary_result', StableHlo.unaryIndexed_result', StableHlo.binaryIndexed_result',
      StableHlo.nullary_result_ne', StableHlo.unary_result_ne', StableHlo.binary_result_ne', StableHlo.ternary_result_ne',
      StableHlo.quaternary_result_ne', StableHlo.reshape_result_ne', StableHlo.nary_result_ne', StableHlo.unaryIndexed_result_ne',
      StableHlo.binaryIndexed_result_ne']
  unfold Cert.ReferenceIdeal.Value.res_main_v161
  simp only [h0, h1, h2, h3, h4, h5, h6, h7, h8, h9, h10, h11, h12, h13, h14, h15, h16, h17, h18, h19]
  unfold vecLayer Block.layer Cert.Layer.hostLayer
  rfl

end Cert.KernelIdeal.Chain

end
-- ==== Proof.lean ====
/-
  Six graph-convolution layers with symmetric degree normalisation, mean pooling per graph into a two-layer classifier,
  and one unnormalised neighbour aggregation of the last layer's features: the kernel program against its reference,
  over the extended reals.

  Both programs compute, per layer, agg = scatter-add over edges of the gathered rows of h ⊙ out-degree^(-1/2), then
  h' = max((agg ⊙ in-degree^(-1/2)) · W + b, 0). The reference does the dense step with host operations; the kernel
  program does it in a kernel region tiled into ten blocks of 5000 rows, with both operands of the product rounded to
  bf16 — the identity on the extended reals — and accumulated into zero. Block by block the region writes exactly the
  host's layer (rows off … off + 4999 of the layer depend on those rows of the aggregate and of the normalisation only),
  the blocks tile the 50000 rows, and everything around the regions is the same host operations on the same buffers. So
  the two results — the class scores and the aggregated features — are, term for term, the reference's. No sum is
  reordered and nothing is distributed or cancelled, so the proof never uses that the inputs are finite; the ideal pass
  rewrote nothing, so the kernel's idealization is its own text.

  The three frames: the two kernel programs' are the generated frame certificates; the reference has no kernel and its
  frame is its generated run with the results dropped.
-/
import proofs.«165483_j81535659148048_1_alg».proof.Defs
import proofs.«165483_j81535659148048_1_alg».proof.Proof.Gen.Kernel
import proofs.«165483_j81535659148048_1_alg».proof.Proof.Gen.Kernel.Skeleton
import proofs.«165483_j81535659148048_1_alg».proof.Proof.Gen.Kernel.Launch
import proofs.«165483_j81535659148048_1_alg».proof.Proof.Gen.Kernel.Points
import proofs.«165483_j81535659148048_1_alg».proof.Proof.Gen.Kernel.Frame
import proofs.«165483_j81535659148048_1_alg».proof.Proof.Gen.KernelIdeal
import proofs.«165483_j81535659148048_1_alg».proof.Proof.Gen.KernelIdeal.Skeleton
import proofs.«165483_j81535659148048_1_alg».proof.Proof.Gen.KernelIdeal.Launch
import proofs.«165483_j81535659148048_1_alg».proof.Proof.Gen.KernelIdeal.Points
import proofs.«165483_j81535659148048_1_alg».proof.Proof.Gen.KernelIdeal.Frame
import proofs.«165483_j81535659148048_1_alg».proof.Proof.Gen.ReferenceIdeal
import proofs.«165483_j81535659148048_1_alg».proof.Proof.Gen.ReferenceIdeal.Run
import proofs.«165483_j81535659148048_1_alg».proof.Proof.Gen.Pre_finite_inputs
import proofs.«165483_j81535659148048_1_alg».proof.Proof.RunFinal
import proofs.«165483_j81535659148048_1_alg».proof.Proof.Chain
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernel_ideal : Cert.frame_KernelIdeal := fun m ρ _ => Cert.KernelIdeal.Gen.frame m ρ

/-- The reference's frame is its run with the two results forgotten. -/
theorem frame_reference_ideal : Cert.frame_ReferenceIdeal := fun m ρ _ =>
  (θ_run Cert.ReferenceIdeal.defs _ _).mono (fun _ h c => (h c).2.2) (Cert.ReferenceIdeal.Value.run (F := Ideal) m ρ)

/-- From memories that agree on the arguments both programs run to the end, the kernel program's two result buffers
    holding what the fold of its stretches and regions leaves there — the reference's two terms of the arguments — and
    the reference's holding those terms by its own run. -/
theorem algebraic : Cert.algebraic_KernelIdeal_ReferenceIdeal := by
  intro m ρ m' ρ' _ hagree
  refine ⟨fun c => Cert.ReferenceIdeal.Value.res_main_v161 (F := Ideal) m' c,
    fun c => Cert.ReferenceIdeal.Value.res_main_v171 (F := Ideal) m' c, ?_,
    Cert.ReferenceIdeal.Value.run (F := Ideal) m' ρ'⟩
  refine (θ_run Cert.KernelIdeal.defs _ _).mono (fun r h c => ?_) (Cert.KernelIdeal.Final.run_final_ref (F := Ideal) m ρ)
  exact ⟨(h c Cert.KernelIdeal.main_v131 (by decide)).trans (Cert.KernelIdeal.Chain.result0_eq m ρ m' hagree c),
      (h c Cert.KernelIdeal.main_v141 (by decide)).trans (Cert.KernelIdeal.Chain.result1_eq m ρ m' hagree c),
      (h c Cert.KernelIdeal.main_arg0 (by decide)).trans (Cert.KernelIdeal.Gen.W15_main_arg0 m ρ c),
      (h c Cert.KernelIdeal.main_arg1 (by decide)).trans (Cert.KernelIdeal.Gen.W15_main_arg1 m ρ c),
      (h c Cert.KernelIdeal.main_arg2 (by decide)).trans (Cert.KernelIdeal.Gen.W15_main_arg2 m ρ c),
      (h c Cert.KernelIdeal.main_arg3 (by decide)).trans (Cert.KernelIdeal.Gen.W15_main_arg3 m ρ c),
      (h c Cert.KernelIdeal.main_arg4 (by decide)).trans (Cert.KernelIdeal.Gen.W15_main_arg4 m ρ c),
      (h c Cert.KernelIdeal.main_arg5 (by decide)).trans (Cert.KernelIdeal.Gen.W15_main_arg5 m ρ c),
      (h c Cert.KernelIdeal.main_arg6 (by decide)).trans (Cert.KernelIdeal.Gen.W15_main_arg6 m ρ c),
      (h c Cert.KernelIdeal.main_arg7 (by decide)).trans (Cert.KernelIdeal.Gen.W15_main_arg7 m ρ c),
      (h c Cert.KernelIdeal.main_arg8 (by decide)).trans (Cert.KernelIdeal.Gen.W15_main_arg8 m ρ c),
      (h c Cert.KernelIdeal.main_arg9 (by decide)).trans (Cert.KernelIdeal.Gen.W15_main_arg9 m ρ c),
      (h c Cert.KernelIdeal.main_arg10 (by decide)).trans (Cert.KernelIdeal.Gen.W15_main_arg10 m ρ c),
      (h c Cert.KernelIdeal.main_arg11 (by decide)).trans (Cert.KernelIdeal.Gen.W15_main_arg11 m ρ c),
      (h c Cert.KernelIdeal.main_arg12 (by decide)).trans (Cert.KernelIdeal.Gen.W15_main_arg12 m ρ c),
      (h c Cert.KernelIdeal.main_arg13 (by decide)).trans (Cert.KernelIdeal.Gen.W15_main_arg13 m ρ c),
      (h c Cert.KernelIdeal.main_arg14 (by decide)).trans (Cert.KernelIdeal.Gen.W15_main_arg14 m ρ c),
      (h c Cert.KernelIdeal.main_arg15 (by decide)).trans (Cert.KernelIdeal.Gen.W15_main_arg15 m ρ c),
      (h c Cert.KernelIdeal.main_arg16 (by decide)).trans (Cert.KernelIdeal.Gen.W15_main_arg16 m ρ c),
      (h c Cert.KernelIdeal.main_arg17 (by decide)).trans (Cert.KernelIdeal.Gen.W15_main_arg17 m ρ c),
      (h c Cert.KernelIdeal.main_arg18 (by decide)).trans (Cert.KernelIdeal.Gen.W15_main_arg18 m ρ c),
      (h c Cert.KernelIdeal.main_arg19 (by decide)).trans (Cert.KernelIdeal.Gen.W15_main_arg19 m ρ c)⟩

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, trivial, algebraic⟩

end Cert.Proof

end
